-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x20 : Shape := ⟨2, ![16384, 20]⟩
abbrev S16384 : Shape := ⟨1, ![16384]⟩
abbrev S16384x1 : Shape := ⟨2, ![16384, 1]⟩
abbrev S100x64 : Shape := ⟨2, ![100, 64]⟩
abbrev S50x128 : Shape := ⟨2, ![50, 128]⟩
abbrev S64x1 : Shape := ⟨2, ![64, 1]⟩
abbrev S64 : Shape := ⟨1, ![64]⟩
abbrev S768x384 : Shape := ⟨2, ![768, 384]⟩
abbrev S768 : Shape := ⟨1, ![768]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S50x128 : S_.BroadcastsInDim S50x128 (![] : Fin 0 → Fin S50x128.rank)
  reducesTo_S50x128_S_d0_1 : S50x128.ReducesTo [0, 1] S_
  bcast_S_S64x1 : S_.BroadcastsInDim S64x1 (![] : Fin 0 → Fin S64x1.rank)
  reducesTo_S64x1_S_d0_1 : S64x1.ReducesTo [0, 1] S_
  bcast_S_S64 : S_.BroadcastsInDim S64 (![] : Fin 0 → Fin S64.rank)
  reducesTo_S64_S_d0 : S64.ReducesTo [0] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S16384x20 : S_.BroadcastsInDim S16384x20 (![] : Fin 0 → Fin S16384x20.rank)
  reducesTo_S16384x20_S_d0_1 : S16384x20.ReducesTo [0, 1] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg1 : IVec S16384 32) (main_v63 : IVec S_ 1) (main_v65 : IVec S16384x20 1) (main_v67 : IVec S16384x20 1) : IVec S_ 1 :=
  let main_v68 : IVec S16384x20 1 := andi main_v65 main_v67
  let main_c_26 : IVec S_ 1 := constantI S_ 1 1#1
  let main_v69 : IVec S_ 1 := (fun x v => Host.reduce IntOp.andi x v reducesTo_S16384x20_S_d0_1 h_S_) main_v68 main_c_26
  let main_v70 : IVec S_ 1 := andi main_v63 main_v69
  let main_c_27 : IVec S_ 32 := constantI S_ 32 0#32
  let main_v71 : IVec S16384 32 := broadcastInDim S16384 ![] bcast_S_S16384 main_c_27
  let main_v72 : IVec S16384 1 := cmpi .sge main_arg1 main_v71
  let main_c_28 : IVec S_ 32 := constantI S_ 32 50#32
  let main_v73 : IVec S16384 32 := broadcastInDim S16384 ![] bcast_S_S16384 main_c_28
  let main_v74 : IVec S16384 1 := cmpi .slt main_arg1 main_v73
  let main_v75 : IVec S16384 1 := andi main_v72 main_v74
  let main_c_29 : IVec S_ 1 := constantI S_ 1 1#1
  let main_v76 : IVec S_ 1 := (fun x v => Host.reduce IntOp.andi x v reducesTo_S16384_S_d0 h_S_) main_v75 main_c_29
  let main_v77 : IVec S_ 1 := andi main_v70 main_v76
  main_v77

def fn_part3 {F : FTy → Type} [FloatOps F] (main_arg0 : IVec S16384x20 32) (main_arg1 : IVec S16384 32) (main_arg13 : FVec F S768x384 .f32) (main_arg14 : FVec F S768 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S768x384 .f32 := Host.absf main_arg13
  let main_cst_20 : FVec F S_ .f32 := constant S_ .f32 0x7F800000#32
  let main_v55 : FVec F S768x384 .f32 := broadcastInDim S768x384 ![] bcast_S_S768x384 main_cst_20
  let main_v56 : IVec S768x384 1 := cmpf .olt main_v54 main_v55
  let main_c_21 : IVec S_ 1 := constantI S_ 1 1#1
  let main_v57 : IVec S_ 1 := (fun x v => Host.reduce IntOp.andi x v reducesTo_S768x384_S_d0_1 h_S_) main_v56 main_c_21
  let main_v58 : IVec S_ 1 := andi main_v53 main_v57
  let main_v59 : FVec F S768 .f32 := Host.absf main_arg14
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  let main_c_24 : IVec S_ 32 := constantI S_ 32 0#32
  let main_v64 : IVec S16384x20 32 := broadcastInDim S16384x20 ![] bcast_S_S16384x20 main_c_24
  let main_v65 : IVec S16384x20 1 := cmpi .sge main_arg0 main_v64
  let main_c_25 : IVec S_ 32 := constantI S_ 32 100#32
  let main_v66 : IVec S16384x20 32 := broadcastInDim S16384x20 ![] bcast_S_S16384x20 main_c_25
  let main_v67 : IVec S16384x20 1 := cmpi .slt main_arg0 main_v66
  fn_part4 (F := F) main_arg1 main_v63 main_v65 main_v67

def fn_part2 {F : FTy → Type} [FloatOps F] (main_arg0 : IVec S16384x20 32) (main_arg1 : IVec S16384 32) (main_arg9 : FVec F S64x1 .f32) (main_arg10 : FVec F S64 .f32) (main_arg11 : FVec F S64x1 .f32) (main_arg12 : FVec F S64 .f32) (main_arg13 : FVec F S768x384 .f32) (main_arg14 : FVec F S768 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg0 main_arg1 main_arg13 main_arg14 main_v48 main_v49 main_v50

def fn_part1 {F : FTy → Type} [FloatOps F] (main_arg0 : IVec S16384x20 32) (main_arg1 : IVec S16384 32) (main_arg6 : FVec F S50x128 .f32) (main_arg7 : FVec F S64x1 .f32) (main_arg8 : FVec F S64 .f32) (main_arg9 : FVec F S64x1 .f32) (main_arg10 : FVec F S64 .f32) (main_arg11 : FVec F S64x1 .f32) (main_arg12 : FVec F S64 .f32) (main_arg13 : FVec F S768x384 .f32) (main_arg14 : FVec F S768 .f32) (main_v13 : IVec S_ 1) (main_v16 : IVec S100x64 1) : IVec S_ 1 :=
  let main_c_5 : IVec S_ 1 := constantI S_ 1 1#1
  let main_v17 : IVec S_ 1 := (fun x v => Host.reduce IntOp.andi x v reducesTo_S100x64_S_d0_1 h_S_) main_v16 main_c_5
  let main_v18 : IVec S_ 1 := andi main_v13 main_v17
  let main_v19 : FVec F S50x128 .f32 := Host.absf main_arg6
  let main_cst_6 : FVec F S_ .f32 := constant S_ .f32 0x7F800000#32
  let main_v20 : FVec F S50x128 .f32 := broadcastInDim S50x128 ![] bcast_S_S50x128 main_cst_6
  let main_v21 : IVec S50x128 1 := cmpf .olt main_v19 main_v20
  let main_c_7 : IVec S_ 1 := constantI S_ 1 1#1
  let main_v22 : IVec S_ 1 := (fun x v => Host.reduce IntOp.andi x v reducesTo_S50x128_S_d0_1 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg1 main_arg9 main_arg10 main_arg11 main_arg12 main_arg13 main_arg14 main_v33

def fn {F : FTy → Type} [FloatOps F] (main_arg0 : IVec S16384x20 32) (main_arg1 : IVec S16384 32) (main_arg2 : FVec F S16384x1 .f32) (main_arg3 : FVec F S16384x1 .f32) (main_arg4 : FVec F S16384x1 .f32) (main_arg5 : FVec F S100x64 .f32) (main_arg6 : FVec F S50x128 .f32) (main_arg7 : FVec F S64x1 .f32) (main_arg8 : FVec F S64 .f32) (main_arg9 : FVec F S64x1 .f32) (main_arg10 : FVec F S64 .f32) (main_arg11 : FVec F S64x1 .f32) (main_arg12 : FVec F S64 .f32) (main_arg13 : FVec F S768x384 .f32) (main_arg14 : FVec F S768 .f32) : IVec S_ 1 :=
  let main_v0 : FVec F S16384x1 .f32 := Host.absf main_arg2
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384x1 .f32 := Host.absf main_arg3
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x1 .f32 := Host.absf main_arg4
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S100x64 .f32 := Host.absf main_arg5
  let main_cst_4 : FVec F S_ .f32 := constant S_ .f32 0x7F800000#32
  let main_v15 : FVec F S100x64 .f32 := broadcastInDim S100x64 ![] bcast_S_S100x64 main_cst_4
  let main_v16 : IVec S100x64 1 := cmpf .olt main_v14 main_v15
  fn_part1 (F := F) main_arg0 main_arg1 main_arg6 main_arg7 main_arg8 main_arg9 main_arg10 main_arg11 main_arg12 main_arg13 main_arg14 main_v13 main_v16
-- ==== Kernel.lean ====
abbrev S16384x20 : Shape := ⟨2, ![16384, 20]⟩
abbrev S16384 : Shape := ⟨1, ![16384]⟩
abbrev S16384x1 : Shape := ⟨2, ![16384, 1]⟩
abbrev S100x64 : Shape := ⟨2, ![100, 64]⟩
abbrev S50x128 : Shape := ⟨2, ![50, 128]⟩
abbrev S64x1 : Shape := ⟨2, ![64, 1]⟩
abbrev S64 : Shape := ⟨1, ![64]⟩
abbrev S768x384 : Shape := ⟨2, ![768, 384]⟩
abbrev S768 : Shape := ⟨1, ![768]⟩
abbrev S_ : Shape := ⟨0, ![]⟩
abbrev S112x64 : Shape := ⟨2, ![112, 64]⟩
abbrev S1 : Shape := ⟨1, ![1]⟩
abbrev S64x128 : Shape := ⟨2, ![64, 128]⟩
abbrev S768x64 : Shape := ⟨2, ![768, 64]⟩
abbrev S64x768 : Shape := ⟨2, ![64, 768]⟩
abbrev S768x128 : Shape := ⟨2, ![768, 128]⟩
abbrev S128x768 : Shape := ⟨2, ![128, 768]⟩
abbrev S768x192 : Shape := ⟨2, ![768, 192]⟩
abbrev S192x768 : Shape := ⟨2, ![192, 768]⟩
abbrev S64x192 : Shape := ⟨2, ![64, 192]⟩
abbrev S2 : Shape := ⟨1, ![2]⟩
abbrev S64x8 : Shape := ⟨2, ![64, 8]⟩
abbrev S8x768 : Shape := ⟨2, ![8, 768]⟩
abbrev S20x16384 : Shape := ⟨2, ![20, 16384]⟩
abbrev S1x16384 : Shape := ⟨2, ![1, 16384]⟩
abbrev S16384x768 : Shape := ⟨2, ![16384, 768]⟩
abbrev S20x2048 : Shape := ⟨2, ![20, 2048]⟩
abbrev S1x2048 : Shape := ⟨2, ![1, 2048]⟩
abbrev S2048x768 : Shape := ⟨2, ![2048, 768]⟩
abbrev S176x768 : Shape := ⟨2, ![176, 768]⟩
abbrev S112x768 : Shape := ⟨2, ![112, 768]⟩
abbrev S20x512 : Shape := ⟨2, ![20, 512]⟩
abbrev S112x512 : Shape := ⟨2, ![112, 512]⟩
abbrev S1x512 : Shape := ⟨2, ![1, 512]⟩
abbrev S64x512 : Shape := ⟨2, ![64, 512]⟩
abbrev S176x512 : Shape := ⟨2, ![176, 512]⟩
abbrev S512x768 : Shape := ⟨2, ![512, 768]⟩

abbrev nBuf : Space → Nat
  | .hbm => 92
  | .vmem => 21
  | .smem => 0
  | _ => 0

abbrev bufTy : (tb : Table) → Fin (tcTables nBuf tb) → BufTy
  | .hbm, ⟨0, _⟩ => ⟨S16384x20, .i32⟩
  | .hbm, ⟨1, _⟩ => ⟨S16384, .i32⟩
  | .hbm, ⟨2, _⟩ => ⟨S16384x1, .f32⟩
  | .hbm, ⟨3, _⟩ => ⟨S16384x1, .f32⟩
  | .hbm, ⟨4, _⟩ => ⟨S16384x1, .f32⟩
  | .hbm, ⟨5, _⟩ => ⟨S100x64, .f32⟩
  | .hbm, ⟨6, _⟩ => ⟨S50x128, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S768x384, .f32⟩
  | .hbm, ⟨14, _⟩ => ⟨S768, .f32⟩
  | .hbm, ⟨15, _⟩ => ⟨S_, .f32⟩
  | .hbm, ⟨16, _⟩ => ⟨S112x64, .f32⟩
  | .hbm, ⟨17, _⟩ => ⟨S_, .i32⟩
  | .hbm, ⟨18, _⟩ => ⟨S1, .i32⟩
  | .hbm, ⟨19, _⟩ => ⟨S112x64, .f32⟩
  | .hbm, ⟨20, _⟩ => ⟨S_, .f32⟩
  | .hbm, ⟨21, _⟩ => ⟨S64x128, .f32⟩
  | .hbm, ⟨22, _⟩ => ⟨S_, .i32⟩
  | .hbm, ⟨23, _⟩ => ⟨S1, .i32⟩
  | .hbm, ⟨24, _⟩ => ⟨S64x128, .f32⟩
  | .hbm, ⟨25, _⟩ => ⟨S768x64, .f32⟩
  | .hbm, ⟨26, _⟩ => ⟨S64x768, .f32⟩
  | .hbm, ⟨27, _⟩ => ⟨S768x128, .f32⟩
  | .hbm, ⟨28, _⟩ => ⟨S128x768, .f32⟩
  | .hbm, ⟨29, _⟩ => ⟨S768x192, .f32⟩
  | .hbm, ⟨30, _⟩ => ⟨S192x768, .f32⟩
  | .hbm, ⟨31, _⟩ => ⟨S_, .f32⟩
  | .hbm, ⟨32, _⟩ => ⟨S64x192, .f32⟩
  | .hbm, ⟨33, _⟩ => ⟨S64, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S64x192, .f32⟩
  | .hbm, ⟨40, _⟩ => ⟨S64, .f32⟩
  | .hbm, ⟨41, _⟩ => ⟨S_, .i32⟩
  | .hbm, ⟨42, _⟩ => ⟨S1, .i32⟩
  | .hbm, ⟨43, _⟩ => ⟨S_, .i32⟩
  | .hbm, ⟨44, _⟩ => ⟨S1, .i32⟩
  | .hbm, ⟨45, _⟩ => ⟨S2, .i32⟩
  | .hbm, ⟨46, _⟩ => ⟨S64x192, .f32⟩
  | .hbm, ⟨47, _⟩ => ⟨S64, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S64x192, .f32⟩
  | .hbm, ⟨54, _⟩ => ⟨S_, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S2, .i32⟩
  | .hbm, ⟨59, _⟩ => ⟨S64x192, .f32⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S64x192, .f32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S2, .i32⟩
  | .hbm, ⟨71, _⟩ => ⟨S64x192, .f32⟩
  | .hbm, ⟨72, _⟩ => ⟨S_, .f32⟩
  | .hbm, ⟨73, _⟩ => ⟨S64x8, .f32⟩
  | .hbm, ⟨74, _⟩ => ⟨S_, .i32⟩
  | .hbm, ⟨75, _⟩ => ⟨S1, .i32⟩
  | .hbm, ⟨76, _⟩ => ⟨S_, .i32⟩
  | .hbm, ⟨77, _⟩ => ⟨S1, .i32⟩
  | .hbm, ⟨78, _⟩ => ⟨S2, .i32⟩
  | .hbm, ⟨79, _⟩ => ⟨S_, .f32⟩
  | .hbm, ⟨80, _⟩ => ⟨S64x8, .f32⟩
  | .hbm, ⟨81, _⟩ => ⟨S_, .f32⟩
  | .hbm, ⟨82, _⟩ => ⟨S8x768, .f32⟩
  | .hbm, ⟨83, _⟩ => ⟨S_, .i32⟩
  | .hbm, ⟨84, _⟩ => ⟨S1, .i32⟩
  | .hbm, ⟨85, _⟩ => ⟨S8x768, .f32⟩
  | .hbm, ⟨86, _⟩ => ⟨S20x16384, .i32⟩
  | .hbm, ⟨87, _⟩ => ⟨S1x16384, .i32⟩
  | .hbm, ⟨88, _⟩ => ⟨S1x16384, .f32⟩
  | .hbm, ⟨89, _⟩ => ⟨S1x16384, .f32⟩
  | .hbm, ⟨90, _⟩ => ⟨S1x16384, .f32⟩
  | .hbm, ⟨91, _⟩ => ⟨S16384x768, .f32⟩
  | .local _ .vmem, ⟨0, _⟩ => ⟨S20x2048, .i32⟩
  | .local _ .vmem, ⟨1, _⟩ => ⟨S20x2048, .i32⟩
  | .local _ .vmem, ⟨2, _⟩ => ⟨S1x2048, .i32⟩
  | .local _ .vmem, ⟨3, _⟩ => ⟨S1x2048, .i32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S112x64, .f32⟩
  | .local _ .vmem, ⟨11, _⟩ => ⟨S64x768, .f32⟩
  | .local _ .vmem, ⟨12, _⟩ => ⟨S64x128, .f32⟩
  | .local _ .vmem, ⟨13, _⟩ => ⟨S128x768, .f32⟩
  | .local _ .vmem, ⟨14, _⟩ => ⟨S64x192, .f32⟩
  | .local _ .vmem, ⟨15, _⟩ => ⟨S192x768, .f32⟩
  | .local _ .vmem, ⟨16, _⟩ => ⟨S64x8, .f32⟩
  | .local _ .vmem, ⟨17, _⟩ => ⟨S8x768, .f32⟩
  | .local _ .vmem, ⟨18, _⟩ => ⟨S2048x768, .f32⟩
  | .local _ .vmem, ⟨19, _⟩ => ⟨S2048x768, .f32⟩
  | .local _ .vmem, ⟨20, _⟩ => ⟨S176x768, .bf16⟩
  | _, _ => ⟨S16384x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_c_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_c_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_7 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_9 : Ref sig .tc := ⟨.hbm, 54, rfl⟩
abbrev main_v28 : Ref sig .tc := ⟨.hbm, 55, rfl⟩
abbrev main_c_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_11 : Ref sig .tc := ⟨.hbm, 60, rfl⟩
abbrev main_v32 : Ref sig .tc := ⟨.hbm, 61, rfl⟩
abbrev main_c_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_13 : Ref sig .tc := ⟨.hbm, 66, rfl⟩
abbrev main_v36 : Ref sig .tc := ⟨.hbm, 67, rfl⟩
abbrev main_c_14 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_15 : Ref sig .tc := ⟨.hbm, 72, rfl⟩
abbrev main_v40 : Ref sig .tc := ⟨.hbm, 73, rfl⟩
abbrev main_c_16 : Ref sig .tc := ⟨.hbm, 74, rfl⟩
abbrev main_v41 : Ref sig .tc := ⟨.hbm, 75, rfl⟩
abbrev main_c_17 : Ref sig .tc := ⟨.hbm, 76, rfl⟩
abbrev main_v42 : Ref sig .tc := ⟨.hbm, 77, rfl⟩
abbrev main_v43 : Ref sig .tc := ⟨.hbm, 78, rfl⟩
abbrev main_cst_18 : Ref sig .tc := ⟨.hbm, 79, rfl⟩
abbrev main_v44 : Ref sig .tc := ⟨.hbm, 80, rfl⟩
abbrev main_cst_19 : Ref sig .tc := ⟨.hbm, 81, rfl⟩
abbrev main_v45 : Ref sig .tc := ⟨.hbm, 82, rfl⟩
abbrev main_c_20 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S112x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S192x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S112x64 : S_.BroadcastsInDim S112x64 (![] : Fin 0 → Fin S112x64.rank)
  bcast_S_S1 : S_.BroadcastsInDim S1 (![] : Fin 0 → Fin S1.rank)
  bcast_S_S64x128 : S_.BroadcastsInDim S64x128 (![] : Fin 0 → Fin S64x128.rank)
  slices_S768x384_S768x64_0_0 : S768x384.Slices ![0, 0] S768x64
  transposes_S768x64_S64x768_1_0 : S768x64.Transposes [1, 0] S64x768
  slices_S768x384_S768x128_0_64 : S768x384.Slices ![0, 64] S768x128
  transposes_S768x128_S128x768_1_0 : S768x128.Transposes [1, 0] S128x768
  slices_S768x384_S768x192_0_192 : S768x384.Slices ![0, 192] S768x192
  transposes_S768x192_S192x768_1_0 : S768x192.Transposes [1, 0] S192x768
  bcast_S_S64x192 : S_.BroadcastsInDim S64x192 (![] : Fin 0 → Fin S64x192.rank)
  shapeCasts_S64x1_S64 : S64x1.ShapeCasts S64
  concatenates_S1_S1_S2_d0 : Shape.Concatenates [S1, S1] S2 0
  bcast_S_S64x8 : S_.BroadcastsInDim S64x8 (![] : Fin 0 → Fin S64x8.rank)
  bcast_S_S8x768 : S_.BroadcastsInDim S8x768 (![] : Fin 0 → Fin S8x768.rank)
  transposes_S16384x20_S20x16384_1_0 : S16384x20.Transposes [1, 0] S20x16384
  shapeCasts_S16384_S1x16384 : S16384.ShapeCasts S1x16384
  shapeCasts_S16384x1_S1x16384 : S16384x1.ShapeCasts S1x16384
  inb_S112x64_S112x64_0_0 : ∀ a, (![0, 0] : Fin 2 → Nat) a + S112x64.size a ≤ S112x64.size a
  h_S112x64 : 0 < S112x64.numel
  shapeCasts_S112x64_S112x64 : S112x64.ShapeCasts S112x64
  inb_S64x768_S64x768_0_0 : ∀ a, (![0, 0] : Fin 2 → Nat) a + S64x768.size a ≤ S64x768.size a
  h_S64x768 : 0 < S64x768.numel
  shapeCasts_S64x768_S64x768 : S64x768.ShapeCasts S64x768
  bitsLt_bf16_f32 : FTy.bits .bf16 < FTy.bits .f32
  inb_S176x768_S112x768_0_0 : ∀ a, (![0, 0] : Fin 2 → Nat) a + S112x768.size a ≤ S176x768.size a
  h_S112x768 : 0 < S112x768.numel
  shapeCasts_S112x768_S112x768 : S112x768.ShapeCasts S112x768
  packedbf16_S176x768_S112x768_0_0 : (Rect.unit (s := S176x768) ![0, 0] S112x768.size inb_S176x768_S112x768_0_0).PackedRows (EltTy.packing .bf16)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192x768_S192x768_0_0 : ∀ a, (![0, 0] : Fin 2 → Nat) a + S192x768.size a ≤ S192x768.size a
  h_S192x768 : 0 < S192x768.numel
  shapeCasts_S192x768_S192x768 : S192x768.ShapeCasts S192x768
  inb_S64x8_S64x8_0_0 : ∀ a, (![0, 0] : Fin 2 → Nat) a + S64x8.size a ≤ S64x8.size a
  h_S64x8 : 0 < S64x8.numel
  shapeCasts_S64x8_S64x8 : S64x8.ShapeCasts S64x8
  inb_S8x768_S8x768_0_0 : ∀ a, (![0, 0] : Fin 2 → Nat) a + S8x768.size a ≤ S8x768.size a
  h_S8x768 : 0 < S8x768.numel
  shapeCasts_S8x768_S8x768 : S8x768.ShapeCasts S8x768
  inb_S176x768_S64x768_112_0 : ∀ a, (![112, 0] : Fin 2 → Nat) a + S64x768.size a ≤ S176x768.size a
  packedbf16_S176x768_S64x768_112_0 : (Rect.unit (s := S176x768) ![112, 0] S64x768.size inb_S176x768_S64x768_112_0).PackedRows (EltTy.packing .bf16)
  inb_S20x2048_S20x2048_0_0 : ∀ a, (![0, 0] : Fin 2 → Nat) a + S20x2048.size a ≤ S20x2048.size a
  h_S20x2048 : 0 < S20x2048.numel
  shapeCasts_S20x2048_S20x2048 : S20x2048.ShapeCasts S20x2048
  slices_S20x2048_o0_0_S20x512 : S20x2048.Slices ![0, 0] S20x512
  iota_S112x512_d0_w32 : S112x512.Iotas .tc 32 [0]
  slices_S20x512_o0_0_S1x512 : S20x512.Slices ![0, 0] S1x512
  broadcasts_S1x512_S112x512 : S1x512.Broadcasts S112x512
  slices_S20x512_o1_0_S1x512 : S20x512.Slices ![1, 0] S1x512
  slices_S20x512_o2_0_S1x512 : S20x512.Slices ![2, 0] S1x512
  slices_S20x512_o3_0_S1x512 : S20x512.Slices ![3, 0] S1x512
  slices_S20x512_o4_0_S1x512 : S20x512.Slices ![4, 0] S1x512
  slices_S20x512_o5_0_S1x512 : S20x512.Slices ![5, 0] S1x512
  slices_S20x512_o6_0_S1x512 : S20x512.Slices ![6, 0] S1x512
  slices_S20x512_o7_0_S1x512 : S20x512.Slices ![7, 0] S1x512
  slices_S20x512_o8_0_S1x512 : S20x512.Slices ![8, 0] S1x512
  slices_S20x512_o9_0_S1x512 : S20x512.Slices ![9, 0] S1x512
  slices_S20x512_o10_0_S1x512 : S20x512.Slices ![10, 0] S1x512
  slices_S20x512_o11_0_S1x512 : S20x512.Slices ![11, 0] S1x512
  slices_S20x512_o12_0_S1x512 : S20x512.Slices ![12, 0] S1x512
  slices_S20x512_o13_0_S1x512 : S20x512.Slices ![13, 0] S1x512
  slices_S20x512_o14_0_S1x512 : S20x512.Slices ![14, 0] S1x512
  slices_S20x512_o15_0_S1x512 : S20x512.Slices ![15, 0] S1x512
  slices_S20x512_o16_0_S1x512 : S20x512.Slices ![16, 0] S1x512
  slices_S20x512_o17_0_S1x512 : S20x512.Slices ![17, 0] S1x512
  slices_S20x512_o18_0_S1x512 : S20x512.Slices ![18, 0] S1x512
  slices_S20x512_o19_0_S1x512 : S20x512.Slices ![19, 0] S1x512
  iota_S64x512_d0_w32 : S64x512.Iotas .tc 32 [0]
  inb_S1x2048_S1x512_0_0 : ∀ a, (![0, 0] : Fin 2 → Nat) a + S1x512.size a ≤ S1x2048.size a
  h_S1x512 : 0 < S1x512.numel
  shapeCasts_S1x512_S1x512 : S1x512.ShapeCasts S1x512
  broadcasts_S1x512_S64x512 : S1x512.Broadcasts S64x512
  natLt_1_32 : 1 < 32
  concatenates_S112x512_S64x512_S176x512_d0 : Shape.Concatenates [S112x512, S64x512] S176x512 0
  inb_S176x768_S176x768_0_0 : ∀ a, (![0, 0] : Fin 2 → Nat) a + S176x768.size a ≤ S176x768.size a
  h_S176x768 : 0 < S176x768.numel
  inb_S2048x768_S512x768_0_0 : ∀ a, (![0, 0] : Fin 2 → Nat) a + S512x768.size a ≤ S2048x768.size a
  h_S512x768 : 0 < S512x768.numel
  slices_S20x2048_o0_512_S20x512 : S20x2048.Slices ![0, 512] S20x512
  inb_S1x2048_S1x512_0_512 : ∀ a, (![0, 512] : Fin 2 → Nat) a + S1x512.size a ≤ S1x2048.size a
  inb_S2048x768_S512x768_512_0 : ∀ a, (![512, 0] : Fin 2 → Nat) a + S512x768.size a ≤ S2048x768.size a
  slices_S20x2048_o0_1024_S20x512 : S20x2048.Slices ![0, 1024] S20x512
  inb_S1x2048_S1x512_0_1024 : ∀ a, (![0, 1024] : Fin 2 → Nat) a + S1x512.size a ≤ S1x2048.size a
  inb_S2048x768_S512x768_1024_0 : ∀ a, (![1024, 0] : Fin 2 → Nat) a + S512x768.size a ≤ S2048x768.size a
  slices_S20x2048_o0_1536_S20x512 : S20x2048.Slices ![0, 1536] S20x512
  inb_S1x2048_S1x512_0_1536 : ∀ a, (![0, 1536] : Fin 2 → Nat) a + S1x512.size a ≤ S1x2048.size a
  inb_S2048x768_S512x768_1536_0 : ∀ a, (![1536, 0] : Fin 2 → Nat) a + S512x768.size a ≤ S2048x768.size a
  scatter_S112x64_S1_S100x64_01_n_0_0_wf : ScatterDims.WF S112x64 S1 S100x64 [0, 1] [] [0] 0
  scatter_S64x128_S1_S50x128_01_n_0_0_wf : ScatterDims.WF S64x128 S1 S50x128 [0, 1] [] [0] 0
  scatter_S64x192_S2_S64_0_0_01_0_wf : ScatterDims.WF S64x192 S2 S64 [0] [0] [0, 1] 0
  scatter_S64x8_S2_S__n_01_01_0_wf : ScatterDims.WF S64x8 S2 S_ [] [0, 1] [0, 1] 0
  scatter_S8x768_S1_S768_0_0_0_0_wf : ScatterDims.WF S8x768 S1 S768 [0] [0] [0] 0
  dot_S112x64_S64x768_S112x768_1_0_0_1_n_n_wf : DotDims.WF S112x64 S64x768 S112x768 [1] [0] [0] [1] [] []
  dot_S64x128_S128x768_S64x768_1_0_0_1_n_n_wf : DotDims.WF S64x128 S128x768 S64x768 [1] [0] [0] [1] [] []
  dot_S64x192_S192x768_S64x768_1_0_0_1_n_n_wf : DotDims.WF S64x192 S192x768 S64x768 [1] [0] [0] [1] [] []
  dot_S64x8_S8x768_S64x768_1_0_0_1_n_n_wf : DotDims.WF S64x8 S8x768 S64x768 [1] [0] [0] [1] [] []
  dot_S176x512_S176x768_S512x768_0_0_1_1_n_n_wf : DotDims.WF S176x512 S176x768 S512x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20x2048.size a ≤ S20x16384.size a
  hwx0_0 : ∀ i : grid0.Coords, EltTy.bits .i32 = 32 ∨ (Rect.block (s := S20x16384) S20x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x16384.size a
  hwx0_1 : ∀ i : grid0.Coords, EltTy.bits .i32 = 32 ∨ (Rect.block (s := S1x16384) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x16384.size a
  hwx0_4 : ∀ i : grid0.Coords, EltTy.bits .f32 = 32 ∨ (Rect.block (s := S1x16384) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S112x64.size a ≤ S112x64.size a
  hwx0_5 : ∀ i : grid0.Coords, EltTy.bits .f32 = 32 ∨ (Rect.block (s := S112x64) S112x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x768.size a ≤ S64x768.size a
  hwx0_6 : ∀ i : grid0.Coords, EltTy.bits .f32 = 32 ∨ (Rect.block (s := S64x768) S64x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .f32 = 32 ∨ (Rect.block (s := S64x128) S64x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x768.size a ≤ S128x768.size a
  hwx0_8 : ∀ i : grid0.Coords, EltTy.bits .f32 = 32 ∨ (Rect.block (s := S128x768) S128x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x192.size a ≤ S64x192.size a
  hwx0_9 : ∀ i : grid0.Coords, EltTy.bits .f32 = 32 ∨ (Rect.block (s := S64x192) S64x192.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S192x768.size a ≤ S192x768.size a
  hwx0_10 : ∀ i : grid0.Coords, EltTy.bits .f32 = 32 ∨ (Rect.block (s := S192x768) S192x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x8.size a ≤ S64x8.size a
  hwx0_11 : ∀ i : grid0.Coords, EltTy.bits .f32 = 32 ∨ (Rect.block (s := S64x8) S64x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S8x768.size a ≤ S8x768.size a
  hwx0_12 : ∀ i : grid0.Coords, EltTy.bits .f32 = 32 ∨ (Rect.block (s := S8x768) S8x768.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x768.size a ≤ S16384x768.size a
  hwx0_13 : ∀ i : grid0.Coords, EltTy.bits .f32 = 32 ∨ (Rect.block (s := S16384x768) S2048x768.size (cc0_transform_13 i) (hinb0_13 i)).WholeWords (EltTy.packing .f32)

variable [Facts₀]

def scatter_S112x64_S1_S100x64_01_n_0_0 : ScatterDims S112x64 S1 S100x64 where
  updateWindowDims := [0, 1]
  insertedWindowDims := []
  scatterDimsToOperandDims := [0]
  indexVectorDim := 0
  wf := scatter_S112x64_S1_S100x64_01_n_0_0_wf
def scatter_S64x128_S1_S50x128_01_n_0_0 : ScatterDims S64x128 S1 S50x128 where
  updateWindowDims := [0, 1]
  insertedWindowDims := []
  scatterDimsToOperandDims := [0]
  indexVectorDim := 0
  wf := scatter_S64x128_S1_S50x128_01_n_0_0_wf
def scatter_S64x192_S2_S64_0_0_01_0 : ScatterDims S64x192 S2 S64 where
  updateWindowDims := [0]
  insertedWindowDims := [0]
  scatterDimsToOperandDims := [0, 1]
  indexVectorDim := 0
  wf := scatter_S64x192_S2_S64_0_0_01_0_wf
def scatter_S64x8_S2_S__n_01_01_0 : ScatterDims S64x8 S2 S_ where
  updateWindowDims := []
  insertedWindowDims := [0, 1]
  scatterDimsToOperandDims := [0, 1]
  indexVectorDim := 0
  wf := scatter_S64x8_S2_S__n_01_01_0_wf
def scatter_S8x768_S1_S768_0_0_0_0 : ScatterDims S8x768 S1 S768 where
  updateWindowDims := [0]
  insertedWindowDims := [0]
  scatterDimsToOperandDims := [0]
  indexVectorDim := 0
  wf := scatter_S8x768_S1_S768_0_0_0_0_wf
def dot_S112x64_S64x768_S112x768_1_0_0_1_n_n : DotDims S112x64 S64x768 S112x768 where
  lhsContracting := [1]
  rhsContracting := [0]
  lhsNonContracting := [0]
  rhsNonContracting := [1]
  lhsBatch := []
  rhsBatch := []
  wf := dot_S112x64_S64x768_S112x768_1_0_0_1_n_n_wf
def dot_S64x128_S128x768_S64x768_1_0_0_1_n_n : DotDims S64x128 S128x768 S64x768 where
  lhsContracting := [1]
  rhsContracting := [0]
  lhsNonContracting := [0]
  rhsNonContracting := [1]
  lhsBatch := []
  rhsBatch := []
  wf := dot_S64x128_S128x768_S64x768_1_0_0_1_n_n_wf
def dot_S64x192_S192x768_S64x768_1_0_0_1_n_n : DotDims S64x192 S192x768 S64x768 where
  lhsContracting := [1]
  rhsContracting := [0]
  lhsNonContracting := [0]
  rhsNonContracting := [1]
  lhsBatch := []
  rhsBatch := []
  wf := dot_S64x192_S192x768_S64x768_1_0_0_1_n_n_wf
def dot_S64x8_S8x768_S64x768_1_0_0_1_n_n : DotDims S64x8 S8x768 S64x768 where
  lhsContracting := [1]
  rhsContracting := [0]
  lhsNonContracting := [0]
  rhsNonContracting := [1]
  lhsBatch := []
  rhsBatch := []
  wf := dot_S64x8_S8x768_S64x768_1_0_0_1_n_n_wf
def dot_S176x512_S176x768_S512x768_0_0_1_1_n_n : DotDims S176x512 S176x768 S512x768 where
  lhsContracting := [0]
  rhsContracting := [0]
  lhsNonContracting := [1]
  rhsNonContracting := [1]
  lhsBatch := []
  rhsBatch := []
  wf := dot_S176x512_S176x768_S512x768_0_0_1_1_n_n_wf

abbrev win0_0 : Pipeline.Window sig grid0 :=
  Pipeline.Window.ofSpec (Memref.whole main_v48) S20x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v52) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S112x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S128x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S64x192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S192x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S64x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v47) S8x768.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v53) S2048x768.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x20 : Shape := ⟨2, ![16384, 20]⟩
abbrev S16384 : Shape := ⟨1, ![16384]⟩
abbrev S16384x1 : Shape := ⟨2, ![16384, 1]⟩
abbrev S100x64 : Shape := ⟨2, ![100, 64]⟩
abbrev S50x128 : Shape := ⟨2, ![50, 128]⟩
abbrev S64x1 : Shape := ⟨2, ![64, 1]⟩
abbrev S64 : Shape := ⟨1, ![64]⟩
abbrev S768x384 : Shape := ⟨2, ![768, 384]⟩
abbrev S768 : Shape := ⟨1, ![768]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x64 : Shape := ⟨3, ![16384, 20, 64]⟩
abbrev S1x1 : Shape := ⟨2, ![1, 1]⟩
abbrev S16384x128 : Shape := ⟨2, ![16384, 128]⟩
abbrev S1x64 : Shape := ⟨2, ![1, 64]⟩
abbrev S16384x64 : Shape := ⟨2, ![16384, 64]⟩
abbrev S16384x384 : Shape := ⟨2, ![16384, 384]⟩
abbrev S384x768 : Shape := ⟨2, ![384, 768]⟩
abbrev S16384x768 : Shape := ⟨2, ![16384, 768]⟩
abbrev S1x768 : Shape := ⟨2, ![1, 768]⟩

abbrev nBuf : Space → Nat
  | .hbm => 84
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S16384, .i32⟩
  | .hbm, ⟨2, _⟩ => ⟨S16384x1, .f32⟩
  | .hbm, ⟨3, _⟩ => ⟨S16384x1, .f32⟩
  | .hbm, ⟨4, _⟩ => ⟨S16384x1, .f32⟩
  | .hbm, ⟨5, _⟩ => ⟨S100x64, .f32⟩
  | .hbm, ⟨6, _⟩ => ⟨S50x128, .f32⟩
  | .hbm, ⟨7, _⟩ => ⟨S64x1, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S64x1, .f32⟩
  | .hbm, ⟨12, _⟩ => ⟨S64, .f32⟩
  | .hbm, ⟨13, _⟩ => ⟨S768x384, .f32⟩
  | .hbm, ⟨14, _⟩ => ⟨S768, .f32⟩
  | .hbm, ⟨15, _⟩ => ⟨S_, .i32⟩
  | .hbm, ⟨16, _⟩ => ⟨S16384x20, .i32⟩
  | .hbm, ⟨17, _⟩ => ⟨S16384x20, .i1⟩
  | .hbm, ⟨18, _⟩ => ⟨S_, .i32⟩
  | .hbm, ⟨19, _⟩ => ⟨S16384x20, .i32⟩
  | .hbm, ⟨20, _⟩ => ⟨S16384x20, .i32⟩
  | .hbm, ⟨21, _⟩ => ⟨S16384x20, .i32⟩
  | .hbm, ⟨22, _⟩ => ⟨S16384x20x1, .i32⟩
  | .hbm, ⟨23, _⟩ => ⟨S1, .i32⟩
  | .hbm, ⟨24, _⟩ => ⟨S_, .i32⟩
  | .hbm, ⟨25, _⟩ => ⟨S16384x20x1, .i32⟩
  | .hbm, ⟨26, _⟩ => ⟨S16384x20x1, .i1⟩
  | .hbm, ⟨27, _⟩ => ⟨S1x1x1, .i32⟩
  | .hbm, ⟨28, _⟩ => ⟨S16384x20x1, .i32⟩
  | .hbm, ⟨29, _⟩ => ⟨S16384x20x1, .i1⟩
  | .hbm, ⟨30, _⟩ => ⟨S16384x20x1, .i1⟩
  | .hbm, ⟨31, _⟩ => ⟨S_, .i1⟩
  | .hbm, ⟨32, _⟩ => ⟨S16384x20, .i1⟩
  | .hbm, ⟨33, _⟩ => ⟨S16384x20x64, .f32⟩
  | .hbm, ⟨34, _⟩ => ⟨S16384x20x64, .i1⟩
  | .hbm, ⟨35, _⟩ => ⟨S_, .f32⟩
  | .hbm, ⟨36, _⟩ => ⟨S16384x20x64, .f32⟩
  | .hbm, ⟨37, _⟩ => ⟨S16384x20x64, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S1, .i32⟩
  | .hbm, ⟨47, _⟩ => ⟨S_, .i32⟩
  | .hbm, ⟨48, _⟩ => ⟨S16384x1, .i32⟩
  | .hbm, ⟨49, _⟩ => ⟨S16384x1, .i1⟩
  | .hbm, ⟨50, _⟩ => ⟨S1x1, .i32⟩
  | .hbm, ⟨51, _⟩ => ⟨S16384x1, .i32⟩
  | .hbm, ⟨52, _⟩ => ⟨S16384x1, .i1⟩
  | .hbm, ⟨53, _⟩ => ⟨S16384x1, .i1⟩
  | .hbm, ⟨54, _⟩ => ⟨S_, .i1⟩
  | .hbm, ⟨55, _⟩ => ⟨S16384, .i1⟩
  | .hbm, ⟨56, _⟩ => ⟨S16384x128, .f32⟩
  | .hbm, ⟨57, _⟩ => ⟨S16384x128, .i1⟩
  | .hbm, ⟨58, _⟩ => ⟨S_, .f32⟩
  | .hbm, ⟨59, _⟩ => ⟨S16384x128, .f32⟩
  | .hbm, ⟨60, _⟩ => ⟨S16384x128, .f32⟩
  | .hbm, ⟨61, _⟩ => ⟨S1x64, .f32⟩
  | .hbm, ⟨62, _⟩ => ⟨S16384x64, .f32⟩
  | .hbm, ⟨63, _⟩ => ⟨S1x64, .f32⟩
  | .hbm, ⟨64, _⟩ => ⟨S16384x64, .f32⟩
  | .hbm, ⟨65, _⟩ => ⟨S16384x64, .f32⟩
  | .hbm, ⟨66, _⟩ => ⟨S1x64, .f32⟩
  | .hbm, ⟨67, _⟩ => ⟨S16384x64, .f32⟩
  | .hbm, ⟨68, _⟩ => ⟨S1x64, .f32⟩
  | .hbm, ⟨69, _⟩ => ⟨S16384x64, .f32⟩
  | .hbm, ⟨70, _⟩ => ⟨S16384x64, .f32⟩
  | .hbm, ⟨71, _⟩ => ⟨S1x64, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x64, .f32⟩
  | .hbm, ⟨76, _⟩ => ⟨S_, .f32⟩
  | .hbm, ⟨77, _⟩ => ⟨S16384x64, .f32⟩
  | .hbm, ⟨78, _⟩ => ⟨S16384x384, .f32⟩
  | .hbm, ⟨79, _⟩ => ⟨S384x768, .f32⟩
  | .hbm, ⟨80, _⟩ => ⟨S16384x768, .f32⟩
  | .hbm, ⟨81, _⟩ => ⟨S1x768, .f32⟩
  | .hbm, ⟨82, _⟩ => ⟨S16384x768, .f32⟩
  | .hbm, ⟨83, _⟩ => ⟨S16384x768, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v0 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v1 : Ref sig .tc := ⟨.hbm, 60, rfl⟩
abbrev main_v2 : Ref sig .tc := ⟨.hbm, 61, rfl⟩
abbrev main_v3 : Ref sig .tc := ⟨.hbm, 62, rfl⟩
abbrev main_v4 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_cst : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩

abbrev nD : Nat := 1
abbrev τ : Topo := Topo.v7x

variable {F : FTy → Type} [FloatOps F]

class Facts₀ : Prop where
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  bcast_S16384x20_S16384x20x64_0_1 : S16384x20.BroadcastsInDim S16384x20x64 (![0, 1] : Fin 2 → Fin S16384x20x64.rank)
  bcast_S_S16384x20x64 : S_.BroadcastsInDim S16384x20x64 (![] : Fin 0 → Fin S16384x20x64.rank)
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x128_0 : S16384.BroadcastsInDim S16384x128 (![0] : Fin 1 → Fin S16384x128.rank)
  bcast_S_S16384x128 : S_.BroadcastsInDim S16384x128 (![] : Fin 0 → Fin S16384x128.rank)
  transposes_S64x1_S1x64_1_0 : S64x1.Transposes [1, 0] S1x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x20x64_S16384x64_d1 : S16384x20x64.ReducesTo [1] S16384x64
  concatenates_S16384x64_S16384x128_S16384x64_S16384x64_S16384x64_S16384x384_d1 : Shape.Concatenates [S16384x64, S16384x128, S16384x64, S16384x64, S16384x64] S16384x384 1
  transposes_S768x384_S384x768_1_0 : S768x384.Transposes [1, 0] S384x768
  bcast_S768_S1x768_1 : S768.BroadcastsInDim S1x768 (![1] : Fin 1 → Fin S1x768.rank)
  bcast_S1x768_S16384x768_0_1 : S1x768.BroadcastsInDim S16384x768 (![0, 1] : Fin 2 → Fin S16384x768.rank)
  gather_S100x64_S16384x20x1_S16384x20x64_2_0_n_n_0_2_164_wf : GatherDims.WF S100x64 S16384x20x1 S16384x20x64 [2] [0] [] [0] [] 2 ![1, 64]
  gather_S50x128_S16384x1_S16384x128_1_0_n_n_0_1_1128_wf : GatherDims.WF S50x128 S16384x1 S16384x128 [1] [0] [] [0] [] 1 ![1, 128]
  dot_S16384x1_S1x64_S16384x64_1_0_0_1_n_n_wf : DotDims.WF S16384x1 S1x64 S16384x64 [1] [0] [0] [1] [] []
  dot_S16384x384_S384x768_S16384x768_1_0_0_1_n_n_wf : DotDims.WF S16384x384 S384x768 S16384x768 [1] [0] [0] [1] [] []

variable [Facts₀]

def gather_S100x64_S16384x20x1_S16384x20x64_2_0_n_n_0_2_164 : GatherDims S100x64 S16384x20x1 S16384x20x64 where
  offsetDims := [2]
  collapsedSliceDims := [0]
  operandBatchingDims := []
  startIndicesBatchingDims := []
  startIndexMap := [0]
  indexVectorDim := 2
  sliceSizes := ![1, 64]
  wf := gather_S100x64_S16384x20x1_S16384x20x64_2_0_n_n_0_2_164_wf
def gather_S50x128_S16384x1_S16384x128_1_0_n_n_0_1_1128 : GatherDims S50x128 S16384x1 S16384x128 where
  offsetDims := [1]
  collapsedSliceDims := [0]
  operandBatchingDims := []
  startIndicesBatchingDims := []
  startIndexMap := [0]
  indexVectorDim := 1
  sliceSizes := ![1, 128]
  wf := gather_S50x128_S16384x1_S16384x128_1_0_n_n_0_1_1128_wf
def dot_S16384x1_S1x64_S16384x64_1_0_0_1_n_n : DotDims S16384x1 S1x64 S16384x64 where
  lhsContracting := [1]
  rhsContracting := [0]
  lhsNonContracting := [0]
  rhsNonContracting := [1]
  lhsBatch := []
  rhsBatch := []
  wf := dot_S16384x1_S1x64_S16384x64_1_0_0_1_n_n_wf
def dot_S16384x384_S384x768_S16384x768_1_0_0_1_n_n : DotDims S16384x384 S384x768 S16384x768 where
  lhsContracting := [1]
  rhsContracting := [0]
  lhsNonContracting := [0]
  rhsNonContracting := [1]
  lhsBatch := []
  rhsBatch := []
  wf := dot_S16384x384_S384x768_S16384x768_1_0_0_1_n_n_wf

class Facts : Prop extends Facts₀ where

variable [Facts]
-- ==== Proof.KBody.lean ====
/-
  One grid point of the encoder kernel, as a function of the blocks it loads.

  A point handles 2048 batch rows in four quarters of 512. For each quarter the body builds a 176 × 512 matrix,
  batch rows along the columns: its first 112 rows are COUNTS — starting from zero, for each of the twenty
  instrument slots the entry (k, r) goes up by one exactly when slot l of batch row r holds id k — and its last
  64 rows compare the style id with the row number and then overwrite row 52, 53, 54 by the tempo, pitch and
  duration of the batch row and row 55 by one. The quarter's 512 × 768 output is that matrix, transposed, times
  the 176 × 768 folded table held in the scratch buffer.
-/
import proofs.«161131_g50268297232385_cont_8to1c4_788_18_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- Row `l` of a 20-row matrix is a unit-stride slice of it. -/
theorem rowSlices (l : Fin 20) : S20x512.Slices ![l.val, 0] S1x512 := by revert l; decide

/-- One counting step: where slot `l`'s id (row `l` of `idx`, spread down the 112 rows) equals the row number `io`,
    the count goes up by one. -/
def bump (idx : FVec F S20x512 .bf16) (io : FVec F S112x512 .bf16) (l : Fin 20) (acc : FVec F S112x512 .bf16) :
    FVec F S112x512 .bf16 :=
  select (cmpf .oeq (broadcastTo S112x512 (extractStridedSlice S1x512 ![l.val, 0] idx (rowSlices l)) broadcasts_S1x512_S112x512) io)
    (addf acc (broadcast S112x512 (Scalar.ofBits .bf16 0x3F80#16))) acc

/-- The counts after the first `n` slots, from zero. -/
def counts (idx : FVec F S20x512 .bf16) (io : FVec F S112x512 .bf16) : (n : Nat) → n ≤ 20 → FVec F S112x512 .bf16
  | 0, _ => broadcast S112x512 (Scalar.ofBits .bf16 0x0000#16)
  | n + 1, h => bump idx io ⟨n, by omega⟩ (counts idx io n (by omega))

/-- The row number, as a float, on 112 and on 64 rows. -/
def rowNo112 : FVec F S112x512 .bf16 := sitofp .bf16 (iota .tc S112x512 32 [0] iota_S112x512_d0_w32)
def rowNo64 : FVec F S64x512 .bf16 := sitofp .bf16 (iota .tc S64x512 32 [0] iota_S64x512_d0_w32)

/-- A 1 × 512 row of scalars spread down 64 rows. -/
def spread (x : Vec F S1x512 .f32) : FVec F S64x512 .bf16 :=
  broadcastTo S64x512 (shapeCast S1x512 (truncf .bf16 (shapeCast S1x512 x shapeCasts_S1x512_S1x512) bitsLt_bf16_f32)
    shapeCasts_S1x512_S1x512) broadcasts_S1x512_S64x512

/-- Where the row number is the float with bit pattern `w`. -/
def rowIs (w : BitVec 16) : IVec S64x512 1 := cmpf .oeq (rowNo64 (F := F)) (broadcast S64x512 (Scalar.ofBits .bf16 w))

/-- The last 64 rows: the style indicator, then rows 52–54 overwritten by the three scalars and row 55 by one. -/
def second (sty : Vec F S1x512 .i32) (te pi du : Vec F S1x512 .f32) : FVec F S64x512 .bf16 :=
  select (rowIs (F := F) 0x425C#16) (broadcast S64x512 (Scalar.ofBits .bf16 0x3F80#16))
    (select (rowIs (F := F) 0x4258#16) (spread du)
      (select (rowIs (F := F) 0x4254#16) (spread pi)
        (select (rowIs (F := F) 0x4250#16) (spread te)
          (truncf .bf16 (sitofp .f32 (extui 32 (cmpf .oeq
            (broadcastTo S64x512 (sitofp .bf16 (shapeCast S1x512 sty shapeCasts_S1x512_S1x512)) broadcasts_S1x512_S64x512)
            (rowNo64 (F := F))) natLt_1_32)) bitsLt_bf16_f32))))

/-- One quarter's output: the 176 × 512 matrix (counts over the style/scalar rows) contracted along its rows with
    the folded table. -/
def quarter (idx : FVec F S20x512 .bf16) (sty : Vec F S1x512 .i32) (te pi du : Vec F S1x512 .f32)
    (a : Vec F S176x768 .bf16) : FVec F S512x768 .f32 :=
  matmul dot_S176x512_S176x768_S512x768_0_0_1_1_n_n none
    (concatenate S176x512 0 [⟨S112x512, counts idx (rowNo112 (F := F)) 20 le_rfl⟩, ⟨S64x512, second sty te pi du⟩]
      concatenates_S112x512_S64x512_S176x512_d0)
    a (constant S512x768 .f32 0x00000000#32)

/-- The twenty id rows of the point's block as floats. -/
def idsF (x0 : Vec F S20x2048 .i32) : FVec F S20x2048 .bf16 := sitofp .bf16 (shapeCast S20x2048 x0 shapeCasts_S20x2048_S20x2048)

end Cert.KernelIdeal.Body

end
-- ==== Proof.LibCountChain.lean ====
/-
  Counting hits one slot at a time.

  Going through twenty slots in order and adding one at each slot that satisfies a predicate yields the number of
  slots that satisfy it. `upTo P n` is that running count after the first `n` slots; after all twenty it is the
  cardinality of the set of hits.
-/
import Idealize.ShloMosaic.PureOps.Ideal

namespace CountChain

/-- The number of hits among the first `n` of twenty slots, counted one slot at a time. -/
def upTo (P : Fin 20 → Prop) [DecidablePred P] : (n : Nat) → n ≤ 20 → ℕ
  | 0, _ => 0
  | n + 1, h => upTo P n (by omega) + if P ⟨n, by omega⟩ then 1 else 0

/-- The running count is the sum of the indicators of the hits among the first `n` slots. -/
theorem upTo_eq_sum (P : Fin 20 → Prop) [DecidablePred P] :
    ∀ (n : Nat) (h : n ≤ 20), upTo P n h = ∑ l : Fin 20, if l.val < n ∧ P l then 1 else 0
  | 0, _ => by simp [upTo]
  | n + 1, h => by
    have hn : n < 20 := by omega
    rw [upTo, upTo_eq_sum P n (by omega)]
    have hsplit : ∀ l : Fin 20, (if l.val < n + 1 ∧ P l then 1 else 0 : ℕ)
        = (if l.val < n ∧ P l then 1 else 0) + (if l = ⟨n, hn⟩ then (if P ⟨n, hn⟩ then 1 else 0) else 0) := by
      intro l
      by_cases hl : l = ⟨n, hn⟩
      · subst hl; simp
      · have hne : l.val ≠ n := fun e => hl (Fin.ext e)
        have hiff : l.val < n + 1 ↔ l.val < n := by omega
        simp [hl, hiff]
    simp only [hsplit, Finset.sum_add_distrib, Finset.sum_ite_eq', Finset.mem_univ, if_true]

/-- After all twenty slots the count is the number of hits. -/
theorem upTo_all (P : Fin 20 → Prop) [DecidablePred P] :
    upTo P 20 le_rfl = (Finset.univ.filter fun l : Fin 20 => P l).card := by
  rw [upTo_eq_sum, Finset.card_filter]
  refine Finset.sum_congr rfl fun l _ => ?_
  have hl : l.val < 20 := l.isLt
  simp [hl]

end CountChain
-- ==== Proof.KIndex.lean ====
/-
  One quarter of a grid point read at an index, on the extended reals.

  At exact arithmetic an integer id becomes the real number it denotes and a change of float format does nothing,
  so: entry (k, r) of the count rows is the number of the twenty slots of batch row r whose id equals k; entry
  (s, r) of the last 64 rows is 1 at s = 55, the batch row's duration, pitch, tempo at s = 54, 53, 52, and elsewhere
  the indicator of "the style id equals s"; and output entry (r, h) is the sum over the 176 rows of that column
  against column h of the folded table, which splits into the count rows and the last 64 rows.
-/
import proofs.«161131_g50268297232385_cont_8to1c4_788_18_alg».proof.Proof.KBody
import proofs.«161131_g50268297232385_cont_8to1c4_788_18_alg».proof.Proof.LibCountChain
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Body

open Cert.KernelIdeal Cert.KernelIdeal.Gen

/-! ## The float constants of the body -/

theorem bf16_zero : Ideal.ofBits .bf16 0x0000#16 = 0 := by simp [Ideal.ofBits, Ideal.ieee]
theorem bf16_one : Ideal.ofBits .bf16 0x3F80#16 = 1 := by
  simp [Ideal.ofBits, Ideal.ieee]; rw [← EReal.coe_mul, ← EReal.coe_one]; congr 1; norm_num
theorem bf16_52 : Ideal.ofBits .bf16 0x4250#16 = ((52 : ℝ) : EReal) := by
  simp [Ideal.ofBits, Ideal.ieee]; rw [← EReal.coe_mul]; congr 1; norm_num
theorem bf16_53 : Ideal.ofBits .bf16 0x4254#16 = ((53 : ℝ) : EReal) := by
  simp [Ideal.ofBits, Ideal.ieee]; rw [← EReal.coe_mul]; congr 1; norm_num
theorem bf16_54 : Ideal.ofBits .bf16 0x4258#16 = ((54 : ℝ) : EReal) := by
  simp [Ideal.ofBits, Ideal.ieee]; rw [← EReal.coe_mul]; congr 1; norm_num
theorem bf16_55 : Ideal.ofBits .bf16 0x425C#16 = ((55 : ℝ) : EReal) := by
  simp [Ideal.ofBits, Ideal.ieee]; rw [← EReal.coe_mul]; congr 1; norm_num

/-! ## The counts -/

/-- One counting step at entry (k, r): up by one exactly when slot `l`'s id at batch column `r` is the row number. -/
theorem bump_apply (idx : FVec Ideal S20x512 .bf16) (io acc : FVec Ideal S112x512 .bf16) (l : Fin 20) (k : Fin 112)
    (r : Fin 512) :
    bump idx io l acc (ix2 k r) = if idx (ix2 l r) = io (ix2 k r) then acc (ix2 k r) + 1 else acc (ix2 k r) := by
  unfold bump
  rw [select_apply, cmpf_apply, addf_apply, broadcast_apply, broadcastTo_1b_ab_apply,
    slice2_axis0_apply l.val idx (rowSlices l) (0 : Fin 1) r l (by simp)]
  show Scalar.select (Ideal.cmp .oeq (idx (ix2 l r)) (io (ix2 k r))) (acc (ix2 k r) + Ideal.ofBits .bf16 0x3F80#16) (acc (ix2 k r)) = _
  rw [bf16_one]
  by_cases h : idx (ix2 l r) = io (ix2 k r)
  · simp [Ideal.cmp, Scalar.select, h]
  · simp [Ideal.cmp, Scalar.select, h]

/-- The row number at entry (k, r) is k. -/
theorem rowNo112_apply (k : Fin 112) (r : Fin 512) : rowNo112 (F := Ideal) (ix2 k r) = ((k.val : ℝ) : EReal) := by
  unfold rowNo112
  rw [sitofp_apply, iota_single_apply]
  show (((BitVec.ofNat 32 k.val).toInt : ℝ) : EReal) = _
  have hk : k.val < 112 := k.isLt
  have : (BitVec.ofNat 32 k.val).toInt = (k.val : ℤ) := by
    have h1 : (BitVec.ofNat 32 k.val).toNat = k.val := by
      rw [BitVec.toNat_ofNat]; exact Nat.mod_eq_of_lt (by omega)
    unfold BitVec.toInt; rw [h1]; split <;> omega
  rw [this]; norm_cast

theorem rowNo64_apply (s : Fin 64) (r : Fin 512) : rowNo64 (F := Ideal) (ix2 s r) = ((s.val : ℝ) : EReal) := by
  unfold rowNo64
  rw [sitofp_apply, iota_single_apply]
  show (((BitVec.ofNat 32 s.val).toInt : ℝ) : EReal) = _
  have hs : s.val < 64 := s.isLt
  have : (BitVec.ofNat 32 s.val).toInt = (s.val : ℤ) := by
    have h1 : (BitVec.ofNat 32 s.val).toNat = s.val := by
      rw [BitVec.toNat_ofNat]; exact Nat.mod_eq_of_lt (by omega)
    unfold BitVec.toInt; rw [h1]; split <;> omega
  rw [this]; norm_cast

open Classical in
/-- After `n` slots, entry (k, r) of the counts is the number of the first `n` slots whose id at batch column `r` is k. -/
theorem counts_apply (idx : FVec Ideal S20x512 .bf16) (k : Fin 112) (r : Fin 512) :
    ∀ (n : Nat) (hn : n ≤ 20), counts idx (rowNo112 (F := Ideal)) n hn (ix2 k r)
      = (((CountChain.upTo (fun l : Fin 20 => idx (ix2 l r) = ((k.val : ℝ) : EReal)) n hn : ℕ) : ℝ) : EReal)
  | 0, _ => by
    rw [counts, broadcast_apply]
    show Ideal.ofBits .bf16 0x0000#16 = _
    rw [bf16_zero, CountChain.upTo]; norm_cast
  | n + 1, hn => by
    rw [counts, bump_apply, counts_apply idx k r n (by omega), rowNo112_apply, CountChain.upTo]
    by_cases h : idx (ix2 (⟨n, by omega⟩ : Fin 20) r) = ((k.val : ℝ) : EReal)
    · rw [if_pos h, if_pos h]; push_cast; rfl
    · rw [if_neg h, if_neg h]; push_cast; simp

/-! ## The last 64 rows -/

theorem spread_apply (x : Vec Ideal S1x512 .f32) (s : Fin 64) (r : Fin 512) :
    spread x (ix2 s r) = x (ix2 (0 : Fin 1) r) := by
  unfold spread
  rw [broadcastTo_1b_ab_apply, shapeCast_self, truncf_apply, shapeCast_self]

/-- "The row number is the float c" at entry (s, r), for a natural number c. -/
theorem rowIs_apply (w : BitVec 16) (c : ℕ) (hw : Ideal.ofBits .bf16 w = ((c : ℝ) : EReal)) (s : Fin 64) (r : Fin 512) :
    rowIs (F := Ideal) w (ix2 s r) = BitVec.ofBool (decide (s.val = c)) := by
  unfold rowIs
  rw [cmpf_apply, rowNo64_apply, broadcast_apply]
  show Ideal.cmp .oeq _ (Ideal.ofBits .bf16 w) = _
  rw [hw]
  unfold Ideal.cmp
  congr 1
  by_cases h : s.val = c
  · simp [h]
  · have : ¬ (((s.val : ℝ) : EReal) = ((c : ℝ) : EReal)) := by
      intro e; exact h (by exact_mod_cast EReal.coe_injective e)
    simp [h, this]

theorem select_ofBool {α : Type} (p : Prop) [Decidable p] (a b : α) :
    Scalar.select (BitVec.ofBool (decide p)) a b = if p then a else b := by
  by_cases h : p <;> simp [Scalar.select, h]

/-- A one-bit truth value widened to 32 bits and read as a signed integer is 1 or 0. -/
theorem indicator_val (p : Prop) [Decidable p] :
    ((((BitVec.ofBool (decide p)).setWidth 32).toInt : ℝ) : EReal) = if p then 1 else 0 := by
  by_cases h : p <;> simp [h]

open Classical in
/-- Entry (s, r) of the last 64 rows. -/
theorem second_apply (sty : Vec Ideal S1x512 .i32) (te pi du : Vec Ideal S1x512 .f32) (s : Fin 64) (r : Fin 512) :
    second sty te pi du (ix2 s r) =
      if s.val = 55 then 1 else if s.val = 54 then du (ix2 (0 : Fin 1) r) else if s.val = 53 then pi (ix2 (0 : Fin 1) r)
      else if s.val = 52 then te (ix2 (0 : Fin 1) r)
      else if (sty (ix2 (0 : Fin 1) r)).toInt = (s.val : ℤ) then 1 else 0 := by
  unfold second
  rw [select_apply, rowIs_apply _ 55 (by rw [bf16_55]; norm_cast), select_ofBool, broadcast_apply,
    select_apply, rowIs_apply _ 54 (by rw [bf16_54]; norm_cast), select_ofBool, spread_apply,
    select_apply, rowIs_apply _ 53 (by rw [bf16_53]; norm_cast), select_ofBool, spread_apply,
    select_apply, rowIs_apply _ 52 (by rw [bf16_52]; norm_cast), select_ofBool, spread_apply,
    truncf_apply, sitofp_apply, extui_apply, cmpf_apply, broadcastTo_1b_ab_apply, sitofp_apply, shapeCast_self, rowNo64_apply]
  show (if s.val = 55 then Ideal.ofBits .bf16 0x3F80#16 else _) = _
  rw [bf16_one]
  refine if_congr Iff.rfl rfl (if_congr Iff.rfl rfl (if_congr Iff.rfl rfl (if_congr Iff.rfl rfl ?_)))
  show ((((BitVec.ofBool (decide ((((sty (ix2 (0 : Fin 1) r)).toInt : ℝ) : EReal) = ((s.val : ℝ) : EReal)))).setWidth 32).toInt : ℝ) : EReal) = _
  rw [indicator_val]
  refine if_congr ⟨fun e => ?_, fun h => ?_⟩ rfl rfl
  · exact_mod_cast EReal.coe_injective e
  · rw [h]; norm_cast

/-! ## The 176 rows stacked, and the contraction along them -/

theorem stack_top {α : Type} (x₁ : S112x512.Idx → α) (x₂ : S64x512.Idx → α) (k : Fin 112) (r : Fin 512) :
    concatenate S176x512 0 [⟨S112x512, x₁⟩, ⟨S64x512, x₂⟩] concatenates_S112x512_S64x512_S176x512_d0
      (ix2 (⟨k.val, by have := k.isLt; omega⟩ : Fin 176) r) = x₁ (ix2 k r) := by
  refine concatenate_pair_apply_left (t := S176x512) (0 : Fin 2) x₁ x₂ concatenates_S112x512_S64x512_S176x512_d0
    (ix2 (⟨k.val, by have := k.isLt; omega⟩ : Fin 176) r) rfl (ix2 k r) fun b => ?_
  match b with
  | ⟨0, _⟩ => rfl
  | ⟨1, _⟩ => rfl

theorem stack_bot {α : Type} (x₁ : S112x512.Idx → α) (x₂ : S64x512.Idx → α) (s : Fin 64) (r : Fin 512) :
    concatenate S176x512 0 [⟨S112x512, x₁⟩, ⟨S64x512, x₂⟩] concatenates_S112x512_S64x512_S176x512_d0
      (ix2 (⟨112 + s.val, by have := s.isLt; omega⟩ : Fin 176) r) = x₂ (ix2 s r) := by
  refine concatenate_pair_apply_right (t := S176x512) (0 : Fin 2) x₁ x₂ concatenates_S112x512_S64x512_S176x512_d0
    (ix2 (⟨112 + s.val, by have := s.isLt; omega⟩ : Fin 176) r) rfl rfl (ix2 s r) (fun b hb => ?_) ?_
  · match b with
    | ⟨0, _⟩ => exact absurd rfl hb
    | ⟨1, _⟩ => rfl
  · show s.val + 112 = 112 + s.val
    omega

/-- A sum over 176 rows is the sum over the first 112 plus the sum over the last 64. -/
theorem sum_rows (f : Fin 176 → EReal) :
    ∑ k, f k = ∑ k : Fin 112, f ⟨k.val, by have := k.isLt; omega⟩ + ∑ s : Fin 64, f ⟨112 + s.val, by have := s.isLt; omega⟩ := by
  rw [← (finCongr (show 112 + 64 = 176 from rfl)).sum_comp f, Fin.sum_univ_add]
  rfl

/-- The matrix product that contracts the ROWS of both operands: entry (r, h) is the sum over the 176 rows k of
    `M (k, r) · A (k, h)`. -/
theorem contractRows_apply (M : FVec Ideal S176x512 .bf16) (A : FVec Ideal S176x768 .bf16) (r : Fin 512) (h : Fin 768) :
    matmul dot_S176x512_S176x768_S512x768_0_0_1_1_n_n none M A (constant S512x768 .f32 0x00000000#32) (ix2 r h)
      = ∑ k : Fin 176, M (ix2 k r) * A (ix2 k h) := by
  refine (Ideal.matmul_constant_zero_apply dot_S176x512_S176x768_S512x768_0_0_1_1_n_n none M A (ix2 r h)).trans ?_
  rw [← Equiv.sum_comp (contrEquiv1 dot_S176x512_S176x768_S512x768_0_0_1_1_n_n 176 rfl rfl).symm]
  refine Finset.sum_congr rfl fun k _ => ?_
  congr 1
  · congr 1; funext a; apply Fin.ext
    match a with
    | ⟨0, _⟩ =>
      exact (DotDims.lhsIdx_val_of_single _ (cl := (0 : Fin 2)) rfl _ _).trans
        (contrEquiv1_symm_val dot_S176x512_S176x768_S512x768_0_0_1_1_n_n 176 rfl rfl k)
    | ⟨1, _⟩ => rfl
  · congr 1; funext a; apply Fin.ext
    match a with
    | ⟨0, _⟩ =>
      exact (DotDims.rhsIdx_val_of_single _ (cr := (0 : Fin 2)) rfl _ _).trans
        (contrEquiv1_symm_val dot_S176x512_S176x768_S512x768_0_0_1_1_n_n 176 rfl rfl k)
    | ⟨1, _⟩ => rfl

/-- Output entry (r, h) of a quarter: the count rows against rows 0–111 of the table plus the last 64 rows against
    rows 112–175. -/
theorem quarter_apply (idx : FVec Ideal S20x512 .bf16) (sty : Vec Ideal S1x512 .i32) (te pi du : Vec Ideal S1x512 .f32)
    (a : Vec Ideal S176x768 .bf16) (r : Fin 512) (h : Fin 768) :
    quarter idx sty te pi du a (ix2 r h)
      = ∑ k : Fin 112, counts idx (rowNo112 (F := Ideal)) 20 le_rfl (ix2 k r) * a (ix2 (⟨k.val, by have := k.isLt; omega⟩ : Fin 176) h)
        + ∑ s : Fin 64, second sty te pi du (ix2 s r) * a (ix2 (⟨112 + s.val, by have := s.isLt; omega⟩ : Fin 176) h) := by
  unfold quarter
  refine (contractRows_apply _ a r h).trans ?_
  refine (sum_rows _).trans ?_
  refine congrArg₂ (· + ·) (Finset.sum_congr rfl fun k _ => ?_) (Finset.sum_congr rfl fun s _ => ?_)
  · exact congrArg (· * a (ix2 (⟨k.val, by have := k.isLt; omega⟩ : Fin 176) h)) (stack_top _ _ k r)
  · exact congrArg (· * a (ix2 (⟨112 + s.val, by have := s.isLt; omega⟩ : Fin 176) h)) (stack_bot _ _ s r)

end Cert.KernelIdeal.Body

end
-- ==== Proof.KPoint.lean ====
/-
  What one grid point leaves behind, as functions of the blocks it loads.

  The first grid point folds the embeddings and weights into the 176 × 768 table: rows 0–111 are the padded
  instrument table times a slice of the projection, rows 112–175 the sum of three such products (style rows,
  scalar rows, bias row). Every point then writes its 2048 × 768 output block as four quarters, each the quarter's
  sparse matrix against the table — at the first point the table just stored, at a later point the table the
  scratch buffer still holds.
-/
import proofs.«161131_g50268297232385_cont_8to1c4_788_18_alg».proof.Proof.KBody

noncomputable section

open Idealize.ShloMosaic Idealize.ShloMosaic.TcCoe Idealize.SL.Sem

namespace Cert.KernelIdeal.Body

open Cert.KernelIdeal Cert.KernelIdeal.Gen

variable {F : FTy → Type} [FloatOps F]

theorem offsets_zero : (![0, 0] : Fin 2 → Nat) = fun _ => 0 := funext fun a => by fin_cases a <;> rfl

/-- The folded table as the first point's two stores leave it: rows 112–175 over rows 0–111. -/
def table (x5 : Vec F S112x64 .f32) (x6 : Vec F S64x768 .f32) (x7 : Vec F S64x128 .f32) (x8 : Vec F S128x768 .f32)
    (x9 : Vec F S64x192 .f32) (x10 : Vec F S192x768 .f32) (x11 : Vec F S64x8 .f32) (x12 : Vec F S8x768 .f32) :
    Vec F S176x768 .bf16 :=
  View.canon [⟨Rect.unit ![112, 0] ![64, 768] inb_S176x768_S64x768_112_0, k0_pay3 x7 x8 x9 x10 x11 x12⟩,
    ⟨Rect.unit ![0, 0] ![112, 768] inb_S176x768_S112x768_0_0, k0_pay2 x5 x6⟩]

/-- The two stores cover the scratch: rows from 112 on lie in the first rectangle, the rows before in the second. -/
theorem table_cover (w1 : FVec F S64x768 .bf16) (w2 : FVec F S112x768 .bf16) (y : S176x768.Idx) :
    ∃ p ∈ ([⟨Rect.unit ![112, 0] ![64, 768] inb_S176x768_S64x768_112_0, w1⟩,
      ⟨Rect.unit ![0, 0] ![112, 768] inb_S176x768_S112x768_0_0, w2⟩] : List (View.Piece (Elt F) S176x768 .bf16)), y ∈ p.1.set := by
  have h0 : (y 0).val < 176 := (y 0).isLt
  have h1 : (y 1).val < 768 := (y 1).isLt
  by_cases h : (y 0).val < 112
  · refine ⟨_, List.mem_cons_of_mem _ (List.mem_singleton_self _), ?_⟩
    rw [Rect.mem_set_unit]
    intro a
    match a with
    | ⟨0, _⟩ => exact ⟨Nat.zero_le _, by show (y 0).val < 0 + 112; omega⟩
    | ⟨1, _⟩ => exact ⟨Nat.zero_le _, by show (y 1).val < 0 + 768; omega⟩
  · refine ⟨_, List.mem_cons_self .., ?_⟩
    rw [Rect.mem_set_unit]
    intro a
    match a with
    | ⟨0, _⟩ => exact ⟨by show 112 ≤ (y 0).val; omega, by show (y 0).val < 112 + 64; omega⟩
    | ⟨1, _⟩ => exact ⟨Nat.zero_le _, by show (y 1).val < 0 + 768; omega⟩

/-- The quarter of the point's batch rows that starts at column `o` of the loaded blocks. -/
def quarterAt (o : Nat) (hs : S20x2048.Slices ![0, o] S20x512) (hi : ∀ a, (![0, o] : Fin 2 → Nat) a + (![1, 512] : Fin 2 → Nat) a ≤ S1x2048.size a)
    (x0 : Vec F S20x2048 .i32) (x1 : Vec F S1x2048 .i32) (x2 x3 x4 : Vec F S1x2048 .f32) (a : Vec F S176x768 .bf16) :
    FVec F S512x768 .f32 :=
  quarter (extractStridedSlice S20x512 ![0, o] (idsF x0) hs) (View.ld x1 (Rect.unit ![0, o] ![1, 512] hi))
    (View.ld x2 (Rect.unit ![0, o] ![1, 512] hi)) (View.ld x3 (Rect.unit ![0, o] ![1, 512] hi))
    (View.ld x4 (Rect.unit ![0, o] ![1, 512] hi)) a

/-- The point's output block: four quarters of 512 rows, each stored whole. -/
def pointBlock (x0 : Vec F S20x2048 .i32) (x1 : Vec F S1x2048 .i32) (x2 x3 x4 : Vec F S1x2048 .f32) (a : Vec F S176x768 .bf16) :
    Vec F S2048x768 .f32 :=
  View.canon [⟨Rect.unit ![1536, 0] ![512, 768] inb_S2048x768_S512x768_1536_0,
      quarterAt 1536 slices_S20x2048_o0_1536_S20x512 inb_S1x2048_S1x512_0_1536 x0 x1 x2 x3 x4 a⟩,
    ⟨Rect.unit ![1024, 0] ![512, 768] inb_S2048x768_S512x768_1024_0,
      quarterAt 1024 slices_S20x2048_o0_1024_S20x512 inb_S1x2048_S1x512_0_1024 x0 x1 x2 x3 x4 a⟩,
    ⟨Rect.unit ![512, 0] ![512, 768] inb_S2048x768_S512x768_512_0,
      quarterAt 512 slices_S20x2048_o0_512_S20x512 inb_S1x2048_S1x512_0_512 x0 x1 x2 x3 x4 a⟩,
    ⟨Rect.unit ![0, 0] ![512, 768] inb_S2048x768_S512x768_0_0,
      quarterAt 0 slices_S20x2048_o0_0_S20x512 inb_S1x2048_S1x512_0_0 x0 x1 x2 x3 x4 a⟩]

/-- A later point (the table is what the scratch holds): its output block. -/
theorem out_later (c : Dev nD) (i : grid0.Coords) (arg1 : Memref sig .tc .vmem S20x2048 .i32) (harg1 : arg1.IsWhole) (arg2 : Memref sig .tc .vmem S1x2048 .i32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S112x64 .f32) (harg6 : arg6.IsWhole) (arg7 : Memref sig .tc .vmem S64x768 .f32) (harg7 : arg7.IsWhole) (arg8 : Memref sig .tc .vmem S64x128 .f32) (harg8 : arg8.IsWhole) (arg9 : Memref sig .tc .vmem S128x768 .f32) (harg9 : arg9.IsWhole) (arg10 : Memref sig .tc .vmem S64x192 .f32) (harg10 : arg10.IsWhole) (arg11 : Memref sig .tc .vmem S192x768 .f32) (harg11 : arg11.IsWhole) (arg12 : Memref sig .tc .vmem S64x8 .f32) (harg12 : arg12.IsWhole) (arg13 : Memref sig .tc .vmem S8x768 .f32) (harg13 : arg13.IsWhole) (arg14 : Memref sig .tc .vmem S2048x768 .f32) (harg14 : arg14.IsWhole) (arg15 : Memref sig .tc .vmem S176x768 .bf16) (harg15 : arg15.IsWhole) (hc0 : ¬cond0_0 i)
    (x0 : Vec F S20x2048 .i32) (x1 : Vec F S1x2048 .i32) (x2 : Vec F S1x2048 .f32) (x3 : Vec F S1x2048 .f32) (x4 : Vec F S1x2048 .f32) (x5 : Vec F S112x64 .f32) (x6 : Vec F S64x768 .f32) (x7 : Vec F S64x128 .f32) (x8 : Vec F S128x768 .f32) (x9 : Vec F S64x192 .f32) (x10 : Vec F S192x768 .f32) (x11 : Vec F S64x8 .f32) (x12 : Vec F S8x768 .f32) (xs0 : Vec F S176x768 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0 = pointBlock x0 x1 x2 x3 x4 xs0 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 xs0)]
  unfold kernelRun0_B
  dsimp only
  sl_unfold_words
  simp only [View.readAt_eq_ld, harg1.read_unread, harg2.read_unread, harg3.read_unread, harg4.read_unread, harg5.read_unread, harg15.read_unread,
    View.ld_unit_zero (S := S20x2048) offsets_zero, View.ld_unit_zero (S := S176x768) offsets_zero]
  rfl

/-- The first point: what it leaves in the scratch is the folded table. -/
theorem table_first (c : Dev nD) (i : grid0.Coords) (arg1 : Memref sig .tc .vmem S20x2048 .i32) (harg1 : arg1.IsWhole) (arg2 : Memref sig .tc .vmem S1x2048 .i32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S112x64 .f32) (harg6 : arg6.IsWhole) (arg7 : Memref sig .tc .vmem S64x768 .f32) (harg7 : arg7.IsWhole) (arg8 : Memref sig .tc .vmem S64x128 .f32) (harg8 : arg8.IsWhole) (arg9 : Memref sig .tc .vmem S128x768 .f32) (harg9 : arg9.IsWhole) (arg10 : Memref sig .tc .vmem S64x192 .f32) (harg10 : arg10.IsWhole) (arg11 : Memref sig .tc .vmem S192x768 .f32) (harg11 : arg11.IsWhole) (arg12 : Memref sig .tc .vmem S64x8 .f32) (harg12 : arg12.IsWhole) (arg13 : Memref sig .tc .vmem S8x768 .f32) (harg13 : arg13.IsWhole) (arg14 : Memref sig .tc .vmem S2048x768 .f32) (harg14 : arg14.IsWhole) (arg15 : Memref sig .tc .vmem S176x768 .bf16) (harg15 : arg15.IsWhole) (hc0 : cond0_0 i)
    (x0 : Vec F S20x2048 .i32) (x1 : Vec F S1x2048 .i32) (x2 : Vec F S1x2048 .f32) (x3 : Vec F S1x2048 .f32) (x4 : Vec F S1x2048 .f32) (x5 : Vec F S112x64 .f32) (x6 : Vec F S64x768 .f32) (x7 : Vec F S64x128 .f32) (x8 : Vec F S128x768 .f32) (x9 : Vec F S64x192 .f32) (x10 : Vec F S192x768 .f32) (x11 : Vec F S64x8 .f32) (x12 : Vec F S8x768 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 = table x5 x6 x7 x8 x9 x10 x11 x12 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12)]
  unfold kernelRun0_A
  dsimp only
  sl_unfold_words
  simp only [View.readAt_eq_ld, harg6.read_unread, harg7.read_unread, harg8.read_unread, harg9.read_unread, harg10.read_unread, harg11.read_unread, harg12.read_unread, harg13.read_unread,
    View.ld_unit_zero (S := S112x64) offsets_zero, View.ld_unit_zero (S := S64x768) offsets_zero, View.ld_unit_zero (S := S64x128) offsets_zero,
    View.ld_unit_zero (S := S128x768) offsets_zero, View.ld_unit_zero (S := S64x192) offsets_zero, View.ld_unit_zero (S := S192x768) offsets_zero,
    View.ld_unit_zero (S := S64x8) offsets_zero, View.ld_unit_zero (S := S8x768) offsets_zero]
  rfl

/-- The first point: its output block is computed against the table it has just stored. -/
theorem out_first (c : Dev nD) (i : grid0.Coords) (arg1 : Memref sig .tc .vmem S20x2048 .i32) (harg1 : arg1.IsWhole) (arg2 : Memref sig .tc .vmem S1x2048 .i32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S112x64 .f32) (harg6 : arg6.IsWhole) (arg7 : Memref sig .tc .vmem S64x768 .f32) (harg7 : arg7.IsWhole) (arg8 : Memref sig .tc .vmem S64x128 .f32) (harg8 : arg8.IsWhole) (arg9 : Memref sig .tc .vmem S128x768 .f32) (harg9 : arg9.IsWhole) (arg10 : Memref sig .tc .vmem S64x192 .f32) (harg10 : arg10.IsWhole) (arg11 : Memref sig .tc .vmem S192x768 .f32) (harg11 : arg11.IsWhole) (arg12 : Memref sig .tc .vmem S64x8 .f32) (harg12 : arg12.IsWhole) (arg13 : Memref sig .tc .vmem S8x768 .f32) (harg13 : arg13.IsWhole) (arg14 : Memref sig .tc .vmem S2048x768 .f32) (harg14 : arg14.IsWhole) (arg15 : Memref sig .tc .vmem S176x768 .bf16) (harg15 : arg15.IsWhole) (hc0 : cond0_0 i)
    (x0 : Vec F S20x2048 .i32) (x1 : Vec F S1x2048 .i32) (x2 : Vec F S1x2048 .f32) (x3 : Vec F S1x2048 .f32) (x4 : Vec F S1x2048 .f32) (x5 : Vec F S112x64 .f32) (x6 : Vec F S64x768 .f32) (x7 : Vec F S64x128 .f32) (x8 : Vec F S128x768 .f32) (x9 : Vec F S64x192 .f32) (x10 : Vec F S192x768 .f32) (x11 : Vec F S64x8 .f32) (x12 : Vec F S8x768 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12 = pointBlock x0 x1 x2 x3 x4 (table x5 x6 x7 x8 x9 x10 x11 x12) := by
  have hcov := table_cover (F := F) (k0_pay3 x7 x8 x9 x10 x11 x12) (k0_pay2 x5 x6)
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 x11 x12)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S20x2048) offsets_zero,
    View.ld_unit_zero (S := S112x64) offsets_zero, View.ld_unit_zero (S := S64x768) offsets_zero, View.ld_unit_zero (S := S64x128) offsets_zero,
    View.ld_unit_zero (S := S128x768) offsets_zero, View.ld_unit_zero (S := S64x192) offsets_zero, View.ld_unit_zero (S := S192x768) offsets_zero,
    View.ld_unit_zero (S := S64x8) offsets_zero, View.ld_unit_zero (S := S8x768) offsets_zero,
    View.readCov_eq_canon_ld _ _ _ hcov, View.ld_unit_zero (S := S176x768) offsets_zero]
  rfl

end Cert.KernelIdeal.Body

end
-- ==== Proof.Spec.lean ====
/-
  The mathematics of the musical-attributes encoder, by coordinates, over the extended reals.

  One batch row `b` carries twenty instrument ids, one style id and three scalars (tempo, pitch, duration).
  The encoder sums the twenty instrument embeddings, looks up the style embedding, maps each scalar `x` to
  `x · w + c` (a rank-one affine map into 64 coordinates), lays the five pieces side by side as a row of
  384 numbers, and applies one affine map into 768 coordinates: `R`.

  Every piece is linear in a sparse row of 176 numbers — the instrument COUNTS (how often each of 112 ids
  occurs among the twenty), the style indicator, the three scalars and a constant one — so the same
  result is the product of that sparse row with a 176 × 768 table folded once from the embeddings and the
  weights: `K`. That the two are one function on finite data is proved elsewhere; this module only states
  both.
-/
import Idealize.ShloMosaic.PureOps.Ideal
import Idealize.ShloMosaic.Lib.ValueIdx

noncomputable section

namespace Cert.Spec

open Idealize.ShloMosaic Idealize.ShloMosaic.ValueIdx

/-- One problem instance by coordinates: ids as numbers below the table sizes, everything else extended reals. -/
structure Data where
  id : Fin 16384 → Fin 20 → Fin 100
  st : Fin 16384 → Fin 50
  tempo : Fin 16384 → EReal
  pitch : Fin 16384 → EReal
  dur : Fin 16384 → EReal
  T : Fin 100 → Fin 64 → EReal
  S : Fin 50 → Fin 128 → EReal
  Wt : Fin 64 → EReal
  bt : Fin 64 → EReal
  Wp : Fin 64 → EReal
  bp : Fin 64 → EReal
  Wd : Fin 64 → EReal
  bd : Fin 64 → EReal
  W : Fin 768 → Fin 384 → EReal
  bproj : Fin 768 → EReal

/-- An extended real that is a real number. -/
def IsReal (x : EReal) : Prop := ∃ r : ℝ, x = (r : EReal)

/-- Every number of the instance is finite. -/
structure Data.Finite (D : Data) : Prop where
  tempo : ∀ b, IsReal (D.tempo b)
  pitch : ∀ b, IsReal (D.pitch b)
  dur : ∀ b, IsReal (D.dur b)
  T : ∀ k d, IsReal (D.T k d)
  S : ∀ s d, IsReal (D.S s d)
  Wt : ∀ j, IsReal (D.Wt j)
  bt : ∀ j, IsReal (D.bt j)
  Wp : ∀ j, IsReal (D.Wp j)
  bp : ∀ j, IsReal (D.bp j)
  Wd : ∀ j, IsReal (D.Wd j)
  bd : ∀ j, IsReal (D.bd j)
  W : ∀ h j, IsReal (D.W h j)
  bproj : ∀ h, IsReal (D.bproj h)

/-! ## The encoder as written: five pieces side by side, then one affine map -/

/-- Coordinate `j` of the 384-long combined row of batch row `b`: the summed instrument embeddings (0–63), the
    style embedding (64–191), then the three scalar maps (192–255, 256–319, 320–383). -/
def comb (D : Data) (b : Fin 16384) (j : Fin 384) : EReal :=
  if h1 : j.val < 64 then ∑ l : Fin 20, D.T (D.id b l) ⟨j.val, h1⟩
  else if h2 : j.val < 192 then D.S (D.st b) ⟨j.val - 64, by omega⟩
  else if h3 : j.val < 256 then D.tempo b * D.Wt ⟨j.val - 192, by omega⟩ + D.bt ⟨j.val - 192, by omega⟩
  else if h4 : j.val < 320 then D.pitch b * D.Wp ⟨j.val - 256, by omega⟩ + D.bp ⟨j.val - 256, by omega⟩
  else D.dur b * D.Wd ⟨j.val - 320, by have := j.isLt; omega⟩ + D.bd ⟨j.val - 320, by have := j.isLt; omega⟩

/-- The encoder's output at batch row `b`, coordinate `h`. -/
def R (D : Data) (b : Fin 16384) (h : Fin 768) : EReal :=
  (∑ j : Fin 384, comb D b j * D.W h j) + D.bproj h

/-! ## The folded form: a sparse 176-row against a folded table -/

/-- The instrument table padded with zero rows to 112 rows. -/
def instPad (D : Data) (k : Fin 112) (d : Fin 64) : EReal := if h : k.val < 100 then D.T ⟨k.val, h⟩ d else 0

/-- The style table padded with zero rows to 64 rows. -/
def stylePad (D : Data) (s : Fin 64) (d : Fin 128) : EReal := if h : s.val < 50 then D.S ⟨s.val, h⟩ d else 0

/-- The 64 × 192 matrix that places the three rank-one weight vectors on rows 52, 53, 54 (each in its own block of 64
    columns) and the three bias vectors on row 55. -/
def v2 (D : Data) (s : Fin 64) (j : Fin 192) : EReal :=
  if s.val = 52 then (if h : j.val < 64 then D.Wt ⟨j.val, h⟩ else 0)
  else if s.val = 53 then (if h : 64 ≤ j.val ∧ j.val < 128 then D.Wp ⟨j.val - 64, by omega⟩ else 0)
  else if s.val = 54 then (if h : 128 ≤ j.val then D.Wd ⟨j.val - 128, by have := j.isLt; omega⟩ else 0)
  else if s.val = 55 then
    (if h : j.val < 64 then D.bt ⟨j.val, h⟩
     else if h2 : j.val < 128 then D.bp ⟨j.val - 64, by omega⟩
     else D.bd ⟨j.val - 128, by have := j.isLt; omega⟩)
  else 0

/-- The 64 × 8 matrix with a single one at (55, 0). -/
def eOne (s : Fin 64) (e : Fin 8) : EReal := if s.val = 55 ∧ e.val = 0 then 1 else 0

/-- The output bias as row 0 of an 8 × 768 matrix of zeros. -/
def bp2 (D : Data) (e : Fin 8) (h : Fin 768) : EReal := if e.val = 0 then D.bproj h else 0

/-- Rows 0–111 of the folded table: the padded instrument table times the first 64 columns of the projection. -/
def A1 (D : Data) (k : Fin 112) (h : Fin 768) : EReal :=
  ∑ d : Fin 64, instPad D k d * D.W h ⟨d.val, by have := d.isLt; omega⟩

/-- Rows 112–175 of the folded table: style rows, the three scalar rows and the constant row, projected. -/
def A2 (D : Data) (s : Fin 64) (h : Fin 768) : EReal :=
  (∑ d : Fin 128, stylePad D s d * D.W h ⟨64 + d.val, by have := d.isLt; omega⟩
    + ∑ j : Fin 192, v2 D s j * D.W h ⟨192 + j.val, by have := j.isLt; omega⟩)
  + ∑ e : Fin 8, eOne s e * bp2 D e h

/-- How often id `k` occurs among the twenty instruments of batch row `b`. -/
def cnt (D : Data) (b : Fin 16384) (k : Fin 112) : EReal :=
  (((Finset.univ.filter fun l : Fin 20 => (D.id b l).val = k.val).card : ℝ) : EReal)

/-- Entry `s` of the second part of the sparse row: the style indicator, overwritten by the three scalars at 52–54
    and by one at 55. -/
def m2 (D : Data) (b : Fin 16384) (s : Fin 64) : EReal :=
  if s.val = 55 then 1 else if s.val = 54 then D.dur b else if s.val = 53 then D.pitch b
  else if s.val = 52 then D.tempo b else if (D.st b).val = s.val then 1 else 0

/-- The folded form of the output at `(b, h)`. -/
def K (D : Data) (b : Fin 16384) (h : Fin 768) : EReal :=
  ∑ k : Fin 112, cnt D b k * A1 D k h + ∑ s : Fin 64, m2 D b s * A2 D s h

/-! ## From arrays to coordinates -/

/-- The instance the fifteen argument arrays hold, given the ids as numbers below the table sizes. -/
def ofArrays (id : Fin 16384 → Fin 20 → Fin 100) (st : Fin 16384 → Fin 50)
    (a2 a3 a4 : (⟨2, ![16384, 1]⟩ : Shape).Idx → EReal) (a5 : (⟨2, ![100, 64]⟩ : Shape).Idx → EReal)
    (a6 : (⟨2, ![50, 128]⟩ : Shape).Idx → EReal)
    (a7 : (⟨2, ![64, 1]⟩ : Shape).Idx → EReal) (a8 : (⟨1, ![64]⟩ : Shape).Idx → EReal)
    (a9 : (⟨2, ![64, 1]⟩ : Shape).Idx → EReal) (a10 : (⟨1, ![64]⟩ : Shape).Idx → EReal)
    (a11 : (⟨2, ![64, 1]⟩ : Shape).Idx → EReal) (a12 : (⟨1, ![64]⟩ : Shape).Idx → EReal)
    (a13 : (⟨2, ![768, 384]⟩ : Shape).Idx → EReal) (a14 : (⟨1, ![768]⟩ : Shape).Idx → EReal) : Data where
  id := id
  st := st
  tempo := fun b => a2 (ix2 b (0 : Fin 1))
  pitch := fun b => a3 (ix2 b (0 : Fin 1))
  dur := fun b => a4 (ix2 b (0 : Fin 1))
  T := fun k d => a5 (ix2 k d)
  S := fun s d => a6 (ix2 s d)
  Wt := fun j => a7 (ix2 j (0 : Fin 1))
  bt := fun j => a8 (ix1 j)
  Wp := fun j => a9 (ix2 j (0 : Fin 1))
  bp := fun j => a10 (ix1 j)
  Wd := fun j => a11 (ix2 j (0 : Fin 1))
  bd := fun j => a12 (ix1 j)
  W := fun h j => a13 (ix2 h j)
  bproj := fun h => a14 (ix1 h)

/-- The output array: `R` at the two coordinates of the index. -/
def G (D : Data) : (⟨2, ![16384, 768]⟩ : Shape).Idx → EReal := fun i => R D (i 0) (i 1)

end Cert.Spec

end
-- ==== Proof.KQuarter.lean ====
/-
  A quarter of a grid point against the specification.

  Suppose the point's blocks hold the data of an instance D for the 2048 batch rows starting at `base`: the id
  words denote D's ids, the scalar rows are D's tempo, pitch and duration, and the table's rows are D's folded
  rows A1 and A2. Then the quarter that starts at column `o` computes, at (r, h), the folded form of the output
  for batch row base + o + r: its count rows are D's instrument counts and its last 64 rows are D's sparse
  second part.
-/
import proofs.«161131_g50268297232385_cont_8to1c4_788_18_alg».proof.Proof.KIndex
import proofs.«161131_g50268297232385_cont_8to1c4_788_18_alg».proof.Proof.KPoint
import proofs.«161131_g50268297232385_cont_8to1c4_788_18_alg».proof.Proof.Spec

noncomputable section

open Idealize.ShloMosaic Idealize.ShloMosaic.TcCoe Idealize.SL.Sem Idealize.ShloMosaic.ValueIdx

namespace Cert.KernelIdeal.Body

open Cert.KernelIdeal Cert.KernelIdeal.Gen

/-- A load of 512 columns from column `o` of a one-row block reads the block `o` columns further on. -/
theorem ld_row {e : EltTy} (x : Vec Ideal S1x2048 e) (o : Nat)
    (hi : ∀ a, (![0, o] : Fin 2 → Nat) a + (![1, 512] : Fin 2 → Nat) a ≤ S1x2048.size a) (r : Fin 512) (ho : o + r.val < 2048) :
    View.ld x (Rect.unit ![0, o] ![1, 512] hi) (ix2 (0 : Fin 1) r) = x (ix2 (0 : Fin 1) (⟨o + r.val, ho⟩ : Fin 2048)) := by
  show x ((Rect.unit (s := S1x2048) ![0, o] ![1, 512] hi).idx (ix2 (0 : Fin 1) r)) = _
  congr 1; funext a; apply Fin.ext
  match a with
  | ⟨0, _⟩ => rfl
  | ⟨1, _⟩ => show o + 1 * r.val = o + r.val; omega

/-- The ids of the quarter, as floats, at slot `l` and column `r`: the id word `o` columns further on, as a number. -/
theorem ids_apply (x0 : Vec Ideal S20x2048 .i32) (o : Nat) (hs : S20x2048.Slices ![0, o] S20x512) (l : Fin 20) (r : Fin 512)
    (ho : o + r.val < 2048) :
    extractStridedSlice S20x512 ![0, o] (idsF (F := Ideal) x0) hs (ix2 l r)
      = (((x0 (ix2 l (⟨o + r.val, ho⟩ : Fin 2048))).toInt : ℝ) : EReal) := by
  rw [slice2_axis1_apply o (idsF (F := Ideal) x0) hs l r (⟨o + r.val, ho⟩ : Fin 2048) rfl]
  unfold idsF
  rw [sitofp_apply, shapeCast_self]
  rfl

open Classical in
/-- After all twenty slots, entry (k, r) of the counts is the number of slots whose id at batch column `r` is k. -/
theorem counts_all (idx : FVec Ideal S20x512 .bf16) (k : Fin 112) (r : Fin 512) :
    counts idx (rowNo112 (F := Ideal)) 20 le_rfl (ix2 k r)
      = (((Finset.univ.filter fun l : Fin 20 => idx (ix2 l r) = ((k.val : ℝ) : EReal)).card : ℝ) : EReal) := by
  rw [counts_apply, CountChain.upTo_all (fun l : Fin 20 => idx (ix2 l r) = ((k.val : ℝ) : EReal))]

open Classical in
theorem quarterAt_value (D : Cert.Spec.Data) (base : Nat) (hbase : base + 2048 ≤ 16384) (o : Nat) (ho : o + 512 ≤ 2048)
    (hs : S20x2048.Slices ![0, o] S20x512)
    (hi : ∀ a, (![0, o] : Fin 2 → Nat) a + (![1, 512] : Fin 2 → Nat) a ≤ S1x2048.size a)
    (x0 : Vec Ideal S20x2048 .i32) (x1 : Vec Ideal S1x2048 .i32) (x2 x3 x4 : Vec Ideal S1x2048 .f32)
    (a : Vec Ideal S176x768 .bf16)
    (h0 : ∀ (l : Fin 20) (q : Fin 2048), (x0 (ix2 l q)).toInt = ((D.id ⟨base + q.val, by have := q.isLt; omega⟩ l).val : ℤ))
    (h1 : ∀ q : Fin 2048, (x1 (ix2 (0 : Fin 1) q)).toInt = ((D.st ⟨base + q.val, by have := q.isLt; omega⟩).val : ℤ))
    (h2 : ∀ q : Fin 2048, x2 (ix2 (0 : Fin 1) q) = D.tempo ⟨base + q.val, by have := q.isLt; omega⟩)
    (h3 : ∀ q : Fin 2048, x3 (ix2 (0 : Fin 1) q) = D.pitch ⟨base + q.val, by have := q.isLt; omega⟩)
    (h4 : ∀ q : Fin 2048, x4 (ix2 (0 : Fin 1) q) = D.dur ⟨base + q.val, by have := q.isLt; omega⟩)
    (ha1 : ∀ (k : Fin 112) (h : Fin 768), a (ix2 (⟨k.val, by have := k.isLt; omega⟩ : Fin 176) h) = Cert.Spec.A1 D k h)
    (ha2 : ∀ (s : Fin 64) (h : Fin 768), a (ix2 (⟨112 + s.val, by have := s.isLt; omega⟩ : Fin 176) h) = Cert.Spec.A2 D s h)
    (r : Fin 512) (h : Fin 768) :
    quarterAt o hs hi x0 x1 x2 x3 x4 a (ix2 r h)
      = Cert.Spec.K D ⟨base + (o + r.val), by have := r.isLt; omega⟩ h := by
  have hor : o + r.val < 2048 := by have := r.isLt; omega
  unfold quarterAt
  rw [quarter_apply]
  unfold Cert.Spec.K
  congr 1
  · refine Finset.sum_congr rfl fun k _ => ?_
    rw [ha1, counts_all]
    unfold Cert.Spec.cnt
    have hfil : (Finset.univ.filter fun l : Fin 20 =>
          extractStridedSlice S20x512 ![0, o] (idsF (F := Ideal) x0) hs (ix2 l r) = ((k.val : ℝ) : EReal))
        = (Finset.univ.filter fun l : Fin 20 =>
          (D.id ⟨base + (o + r.val), by omega⟩ l).val = k.val) := by
      apply Finset.filter_congr
      intro l _
      rw [ids_apply x0 o hs l r hor, h0 l ⟨o + r.val, hor⟩]
      constructor
      · intro e
        have e' := EReal.coe_injective e
        exact_mod_cast e'
      · intro e
        rw [e]; norm_cast
    rw [hfil]
  · refine Finset.sum_congr rfl fun s _ => ?_
    rw [ha2, second_apply, ld_row x1 o hi r hor, ld_row x2 o hi r hor, ld_row x3 o hi r hor, ld_row x4 o hi r hor,
      h1 ⟨o + r.val, hor⟩, h2 ⟨o + r.val, hor⟩, h3 ⟨o + r.val, hor⟩, h4 ⟨o + r.val, hor⟩]
    congr 1
    unfold Cert.Spec.m2
    refine if_congr Iff.rfl rfl (if_congr Iff.rfl rfl (if_congr Iff.rfl rfl (if_congr Iff.rfl rfl (if_congr ?_ rfl rfl))))
    exact Int.ofNat_inj

end Cert.KernelIdeal.Body

end
-- ==== Proof.KBlock.lean ====
/-
  A grid point's whole output block against the specification.

  The block is four quarters of 512 rows stored one under the other; row y of the block belongs to the quarter
  y / 512, and there it is the folded form of the output for batch row base + y.
-/
import proofs.«161131_g50268297232385_cont_8to1c4_788_18_alg».proof.Proof.KQuarter

noncomputable section

open Idealize.ShloMosaic Idealize.ShloMosaic.TcCoe Idealize.SL.Sem Idealize.ShloMosaic.ValueIdx

namespace Cert.KernelIdeal.Body

open Cert.KernelIdeal Cert.KernelIdeal.Gen

theorem pointBlock_value (D : Cert.Spec.Data) (base : Nat) (hbase : base + 2048 ≤ 16384)
    (x0 : Vec Ideal S20x2048 .i32) (x1 : Vec Ideal S1x2048 .i32) (x2 x3 x4 : Vec Ideal S1x2048 .f32)
    (a : Vec Ideal S176x768 .bf16)
    (h0 : ∀ (l : Fin 20) (q : Fin 2048), (x0 (ix2 l q)).toInt = ((D.id ⟨base + q.val, by have := q.isLt; omega⟩ l).val : ℤ))
    (h1 : ∀ q : Fin 2048, (x1 (ix2 (0 : Fin 1) q)).toInt = ((D.st ⟨base + q.val, by have := q.isLt; omega⟩).val : ℤ))
    (h2 : ∀ q : Fin 2048, x2 (ix2 (0 : Fin 1) q) = D.tempo ⟨base + q.val, by have := q.isLt; omega⟩)
    (h3 : ∀ q : Fin 2048, x3 (ix2 (0 : Fin 1) q) = D.pitch ⟨base + q.val, by have := q.isLt; omega⟩)
    (h4 : ∀ q : Fin 2048, x4 (ix2 (0 : Fin 1) q) = D.dur ⟨base + q.val, by have := q.isLt; omega⟩)
    (ha1 : ∀ (k : Fin 112) (h : Fin 768), a (ix2 (⟨k.val, by have := k.isLt; omega⟩ : Fin 176) h) = Cert.Spec.A1 D k h)
    (ha2 : ∀ (s : Fin 64) (h : Fin 768), a (ix2 (⟨112 + s.val, by have := s.isLt; omega⟩ : Fin 176) h) = Cert.Spec.A2 D s h)
    (y : S2048x768.Idx) :
    pointBlock x0 x1 x2 x3 x4 a y
      = Cert.Spec.K D ⟨base + (y 0).val, by have : (y 0).val < 2048 := (y 0).isLt; omega⟩ (y 1) := by
  have hy0 : (y 0).val < 2048 := (y 0).isLt
  have hy1 : (y 1).val < 768 := (y 1).isLt
  unfold pointBlock
  refine View.canon_apply_of_pieces (Val := Elt Ideal) (S := S2048x768) (e := .f32)
    (fun z : S2048x768.Idx => Cert.Spec.K D ⟨base + (z 0).val, by have : (z 0).val < 2048 := (z 0).isLt; omega⟩ (z 1)) _ ?_ y ?_
  · intro p hp
    simp only [List.mem_cons, List.mem_singleton, List.not_mem_nil, or_false] at hp
    rcases hp with hp | hp | hp | hp
    · subst hp
      intro x
      obtain ⟨r, h, rfl⟩ : ∃ (r : Fin 512) (h : Fin 768), x = ix2 r h := ⟨x 0, x 1, eq_ix2 x⟩
      have hv := quarterAt_value D base hbase 1536 (by omega) slices_S20x2048_o0_1536_S20x512 inb_S1x2048_S1x512_0_1536 x0 x1 x2 x3 x4 a h0 h1 h2 h3 h4 ha1 ha2 r h
      refine hv.trans ?_
      have hr : r.val < 512 := r.isLt
      congr 1
      · apply Fin.ext
        show base + (1536 + r.val) = base + (1536 + 1 * r.val)
        omega
      · apply Fin.ext
        show h.val = 0 + 1 * h.val
        omega
    · subst hp
      intro x
      obtain ⟨r, h, rfl⟩ : ∃ (r : Fin 512) (h : Fin 768), x = ix2 r h := ⟨x 0, x 1, eq_ix2 x⟩
      have hv := quarterAt_value D base hbase 1024 (by omega) slices_S20x2048_o0_1024_S20x512 inb_S1x2048_S1x512_0_1024 x0 x1 x2 x3 x4 a h0 h1 h2 h3 h4 ha1 ha2 r h
      refine hv.trans ?_
      have hr : r.val < 512 := r.isLt
      congr 1
      · apply Fin.ext
        show base + (1024 + r.val) = base + (1024 + 1 * r.val)
        omega
      · apply Fin.ext
        show h.val = 0 + 1 * h.val
        omega
    · subst hp
      intro x
      obtain ⟨r, h, rfl⟩ : ∃ (r : Fin 512) (h : Fin 768), x = ix2 r h := ⟨x 0, x 1, eq_ix2 x⟩
      have hv := quarterAt_value D base hbase 512 (by omega) slices_S20x2048_o0_512_S20x512 inb_S1x2048_S1x512_0_512 x0 x1 x2 x3 x4 a h0 h1 h2 h3 h4 ha1 ha2 r h
      refine hv.trans ?_
      have hr : r.val < 512 := r.isLt
      congr 1
      · apply Fin.ext
        show base + (512 + r.val) = base + (512 + 1 * r.val)
        omega
      · apply Fin.ext
        show h.val = 0 + 1 * h.val
        omega
    · subst hp
      intro x
      obtain ⟨r, h, rfl⟩ : ∃ (r : Fin 512) (h : Fin 768), x = ix2 r h := ⟨x 0, x 1, eq_ix2 x⟩
      have hv := quarterAt_value D base hbase 0 (by omega) slices_S20x2048_o0_0_S20x512 inb_S1x2048_S1x512_0_0 x0 x1 x2 x3 x4 a h0 h1 h2 h3 h4 ha1 ha2 r h
      refine hv.trans ?_
      have hr : r.val < 512 := r.isLt
      congr 1
      · apply Fin.ext
        show base + (0 + r.val) = base + (0 + 1 * r.val)
        omega
      · apply Fin.ext
        show h.val = 0 + 1 * h.val
        omega
  · by_cases c3 : 1536 ≤ (y 0).val
    · refine ⟨_, List.mem_cons_self .., ?_⟩
      rw [Rect.mem_set_unit]
      intro ax
      match ax with
      | ⟨0, _⟩ => exact ⟨by show 1536 ≤ (y 0).val; omega, by show (y 0).val < 1536 + 512; omega⟩
      | ⟨1, _⟩ => exact ⟨Nat.zero_le _, by show (y 1).val < 0 + 768; omega⟩
    by_cases c2 : 1024 ≤ (y 0).val
    · refine ⟨_, List.mem_cons_of_mem _ (List.mem_cons_self ..), ?_⟩
      rw [Rect.mem_set_unit]
      intro ax
      match ax with
      | ⟨0, _⟩ => exact ⟨by show 1024 ≤ (y 0).val; omega, by show (y 0).val < 1024 + 512; omega⟩
      | ⟨1, _⟩ => exact ⟨Nat.zero_le _, by show (y 1).val < 0 + 768; omega⟩
    by_cases c1 : 512 ≤ (y 0).val
    · refine ⟨_, List.mem_cons_of_mem _ (List.mem_cons_of_mem _ (List.mem_cons_self ..)), ?_⟩
      rw [Rect.mem_set_unit]
      intro ax
      match ax with
      | ⟨0, _⟩ => exact ⟨by show 512 ≤ (y 0).val; omega, by show (y 0).val < 512 + 512; omega⟩
      | ⟨1, _⟩ => exact ⟨Nat.zero_le _, by show (y 1).val < 0 + 768; omega⟩
    · refine ⟨_, List.mem_cons_of_mem _ (List.mem_cons_of_mem _ (List.mem_cons_of_mem _ (List.mem_singleton_self _))), ?_⟩
      rw [Rect.mem_set_unit]
      intro ax
      match ax with
      | ⟨0, _⟩ => exact ⟨by show 0 ≤ (y 0).val; omega, by show (y 0).val < 0 + 512; omega⟩
      | ⟨1, _⟩ => exact ⟨Nat.zero_le _, by show (y 1).val < 0 + 768; omega⟩

end Cert.KernelIdeal.Body

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.KTable.lean ====
/-
  The folded table, entry by entry.

  The table is what two stores leave: the 64 rows from 112 on, stored last, hold the sum of three matrix products;
  the 112 rows before hold one product. An entry is read by finding the store whose rectangle holds its row — a row
  below 112 is outside the last store's rectangle and inside the first's — and reading that store's payload at the
  row's position inside the rectangle. On the extended reals a narrowing of the float format changes nothing, a cast
  between equal shapes changes nothing, and a product into the zero matrix at an entry is the sum over the shared
  axis of the products of the two operands' entries.
-/
import proofs.«161131_g50268297232385_cont_8to1c4_788_18_alg».proof.Proof.KPoint
import proofs.«161131_g50268297232385_cont_8to1c4_788_18_alg».proof.Proof.LibPlainMatmul
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.LibPlainMatmul

variable (x5 : Vec Ideal S112x64 .f32) (x6 : Vec Ideal S64x768 .f32) (x7 : Vec Ideal S64x128 .f32)
  (x8 : Vec Ideal S128x768 .f32) (x9 : Vec Ideal S64x192 .f32) (x10 : Vec Ideal S192x768 .f32)
  (x11 : Vec Ideal S64x8 .f32) (x12 : Vec Ideal S8x768 .f32)

/-! ## The two payloads at an entry -/

/-- The first store's payload: one product. -/
theorem pay2_apply (k : Fin 112) (h : Fin 768) :
    k0_pay2 x5 x6 (ix2 k h) = ∑ d : Fin 64, x5 (ix2 k d) * x6 (ix2 d h) := by
  unfold k0_pay2
  simp only [shapeCast_self]
  exact matmul_plain_zero_apply (φ₁ := .f32) (φ₂ := .f32) dot_S112x64_S64x768_S112x768_1_0_0_1_n_n rfl none x5 x6 k h

/-- The last store's payload: the sum of three products. -/
theorem pay3_apply (s : Fin 64) (h : Fin 768) :
    k0_pay3 x7 x8 x9 x10 x11 x12 (ix2 s h)
      = (∑ d : Fin 128, x7 (ix2 s d) * x8 (ix2 d h) + ∑ j : Fin 192, x9 (ix2 s j) * x10 (ix2 j h))
        + ∑ e : Fin 8, x11 (ix2 s e) * x12 (ix2 e h) := by
  unfold k0_pay3
  simp only [shapeCast_self]
  rw [← matmul_plain_zero_apply (φ₁ := .f32) (φ₂ := .f32) dot_S64x128_S128x768_S64x768_1_0_0_1_n_n rfl none x7 x8 s h,
    ← matmul_plain_zero_apply (φ₁ := .f32) (φ₂ := .f32) dot_S64x192_S192x768_S64x768_1_0_0_1_n_n rfl none x9 x10 s h,
    ← matmul_plain_zero_apply (φ₁ := .f32) (φ₂ := .f32) dot_S64x8_S8x768_S64x768_1_0_0_1_n_n rfl none x11 x12 s h]
  rfl

/-! ## Where an entry sits among the two stores -/

/-- Row `112 + s` is position `s` of the last store's rectangle. -/
theorem bot_idx (s : Fin 64) (h : Fin 768) :
    (ix2 (⟨112 + s.val, by have := s.isLt; omega⟩ : Fin 176) h : S176x768.Idx)
      = (Rect.unit (s := S176x768) ![112, 0] ![64, 768] inb_S176x768_S64x768_112_0).emb (ix2 s h) :=
  funext fun a => Fin.ext (by
    match a with
    | ⟨0, _⟩ => show 112 + s.val = 112 + 1 * s.val; omega
    | ⟨1, _⟩ => show h.val = 0 + 1 * h.val; omega)

/-- Row `k < 112` is position `k` of the first store's rectangle. -/
theorem top_idx (k : Fin 112) (h : Fin 768) :
    (ix2 (⟨k.val, by have := k.isLt; omega⟩ : Fin 176) h : S176x768.Idx)
      = (Rect.unit (s := S176x768) ![0, 0] ![112, 768] inb_S176x768_S112x768_0_0).emb (ix2 k h) :=
  funext fun a => Fin.ext (by
    match a with
    | ⟨0, _⟩ => show k.val = 0 + 1 * k.val; omega
    | ⟨1, _⟩ => show h.val = 0 + 1 * h.val; omega)

/-- Row `k < 112` is outside the last store's rectangle. -/
theorem top_not_mem (k : Fin 112) (h : Fin 768) :
    (ix2 (⟨k.val, by have := k.isLt; omega⟩ : Fin 176) h : S176x768.Idx)
      ∉ (Rect.unit (s := S176x768) ![112, 0] ![64, 768] inb_S176x768_S64x768_112_0).set := by
  rw [Rect.mem_set_unit]
  intro H
  have h0 : 112 ≤ k.val := (H 0).1
  have := k.isLt
  omega

/-! ## Which store an entry reads, whatever the two payloads -/

/-- A row below 112 reads the first store's payload at its own position. -/
theorem canon_top (w1 : FVec Ideal S64x768 .bf16) (w2 : FVec Ideal S112x768 .bf16) (k : Fin 112) (h : Fin 768) :
    View.canon ([⟨Rect.unit ![112, 0] ![64, 768] inb_S176x768_S64x768_112_0, w1⟩,
      ⟨Rect.unit ![0, 0] ![112, 768] inb_S176x768_S112x768_0_0, w2⟩] : List (View.Piece (Elt Ideal) S176x768 .bf16))
        (ix2 (⟨k.val, by have := k.isLt; omega⟩ : Fin 176) h) = w2 (ix2 k h) := by
  have hnm := top_not_mem k h
  refine (View.canon_cons_of_not_mem
    (⟨Rect.unit ![112, 0] ![64, 768] inb_S176x768_S64x768_112_0, w1⟩ : View.Piece (Elt Ideal) S176x768 .bf16)
    [⟨Rect.unit ![0, 0] ![112, 768] inb_S176x768_S112x768_0_0, w2⟩] hnm).trans ?_
  rw [top_idx, View.canon_cons_emb]

/-- Row `112 + s` reads the last store's payload at position `s`. -/
theorem canon_bot (w1 : FVec Ideal S64x768 .bf16) (w2 : FVec Ideal S112x768 .bf16) (s : Fin 64) (h : Fin 768) :
    View.canon ([⟨Rect.unit ![112, 0] ![64, 768] inb_S176x768_S64x768_112_0, w1⟩,
      ⟨Rect.unit ![0, 0] ![112, 768] inb_S176x768_S112x768_0_0, w2⟩] : List (View.Piece (Elt Ideal) S176x768 .bf16))
        (ix2 (⟨112 + s.val, by have := s.isLt; omega⟩ : Fin 176) h) = w1 (ix2 s h) := by
  rw [bot_idx, View.canon_cons_emb]

/-! ## The table at an entry -/

/-- Rows 0–111 of the table: the padded instrument table times its slice of the projection. -/
theorem table_top (k : Fin 112) (h : Fin 768) :
    table x5 x6 x7 x8 x9 x10 x11 x12 (ix2 (⟨k.val, by have := k.isLt; omega⟩ : Fin 176) h)
      = ∑ d : Fin 64, x5 (ix2 k d) * x6 (ix2 d h) := by
  unfold table
  rw [canon_top]
  exact pay2_apply x5 x6 k h

/-- Rows 112–175 of the table: the style, scalar and bias products, added. -/
theorem table_bot (s : Fin 64) (h : Fin 768) :
    table x5 x6 x7 x8 x9 x10 x11 x12 (ix2 (⟨112 + s.val, by have := s.isLt; omega⟩ : Fin 176) h)
      = (∑ d : Fin 128, x7 (ix2 s d) * x8 (ix2 d h) + ∑ j : Fin 192, x9 (ix2 s j) * x10 (ix2 j h))
        + ∑ e : Fin 8, x11 (ix2 s e) * x12 (ix2 e h) := by
  unfold table
  rw [canon_bot]
  exact pay3_apply x7 x8 x9 x10 x11 x12 s h

end Cert.KernelIdeal.Body

end
-- ==== Proof.HostTerms.lean ====
/-
  The arrays the one region finds in the buffers the host wrote before it, as terms over the argument arrays.

  Before its region the program pads the two embedding tables with zero rows, cuts the projection matrix into three
  column blocks and transposes each, builds a 64 × 192 matrix holding the three scalar weight vectors on rows 52–54
  and the three scalar biases on row 55, a 64 × 8 matrix with a single one, an 8 × 768 matrix whose first row is the
  output bias, and lays the per-row inputs out with the batch on the last axis. Each of these is a closed term in the
  argument arrays; this module names the terms and shows that the region finds exactly them.
-/
import proofs.«161131_g50268297232385_cont_8to1c4_788_18_alg».proof.Proof.Gen.KernelIdeal.Frame
import Idealize.ShloMosaic.Lib.StableHlo.Run
import Idealize.ShloMosaic.PureOps.Ideal.Laws
import Idealize.ShloMosaic.Lib.ValueIdx

set_option maxRecDepth 16384

noncomputable section

namespace Cert.KernelIdeal.HostValue

open Cert.KernelIdeal Cert.KernelIdeal.Gen Idealize.ShloMosaic Idealize.ShloMosaic.TcCoe Idealize.SL.Sem

/-! ## The terms -/

/-- The scalar zero as a rank-0 array. -/
abbrev zeroS : S_.Idx → EReal := constant (F := Ideal) S_ .f32 0x00000000#32
/-- The scalar one as a rank-0 array. -/
abbrev oneS : S_.Idx → EReal := constant (F := Ideal) S_ .f32 0x3F800000#32
/-- A one-entry integer vector holding `n`. -/
abbrev word (n : BitVec 32) : IVec S1 32 := broadcastInDim S1 ![] bcast_S_S1 (constantI S_ 32 n)
/-- The two-entry integer vector `(r, k)`: a row and a column to start at. -/
abbrev pair (r k : BitVec 32) : IVec S2 32 := concatenate S2 0 [⟨S1, word r⟩, ⟨S1, word k⟩] concatenates_S1_S1_S2_d0

/-- The instrument table written into the top of 112 rows of zeros. -/
def tInst (a5 : S100x64.Idx → EReal) : S112x64.Idx → EReal :=
  Host.scatter scatter_S112x64_S1_S100x64_01_n_0_0 (fun _ b => b) (broadcastInDim S112x64 ![] bcast_S_S112x64 zeroS) (word 0#32) a5
/-- The style table written into the top of 64 rows of zeros. -/
def tStyle (a6 : S50x128.Idx → EReal) : S64x128.Idx → EReal :=
  Host.scatter scatter_S64x128_S1_S50x128_01_n_0_0 (fun _ b => b) (broadcastInDim S64x128 ![] bcast_S_S64x128 zeroS) (word 0#32) a6
/-- Columns 0–63 of the projection matrix, transposed. -/
def tW1 (a13 : S768x384.Idx → EReal) : S64x768.Idx → EReal :=
  transpose S64x768 [1, 0] (extractStridedSlice S768x64 ![0, 0] a13 slices_S768x384_S768x64_0_0) transposes_S768x64_S64x768_1_0
/-- Columns 64–191 of the projection matrix, transposed. -/
def tW2 (a13 : S768x384.Idx → EReal) : S128x768.Idx → EReal :=
  transpose S128x768 [1, 0] (extractStridedSlice S768x128 ![0, 64] a13 slices_S768x384_S768x128_0_64) transposes_S768x128_S128x768_1_0
/-- Columns 192–383 of the projection matrix, transposed. -/
def tW3 (a13 : S768x384.Idx → EReal) : S192x768.Idx → EReal :=
  transpose S192x768 [1, 0] (extractStridedSlice S768x192 ![0, 192] a13 slices_S768x384_S768x192_0_192) transposes_S768x192_S192x768_1_0

/-- The 64 × 192 matrix after the three weight vectors were set on rows 52, 53, 54. -/
def tV27 (a7 a9 a11 : S64x1.Idx → EReal) : S64x192.Idx → EReal :=
  Host.scatter scatter_S64x192_S2_S64_0_0_01_0 (fun _ b => b)
    (Host.scatter scatter_S64x192_S2_S64_0_0_01_0 (fun _ b => b)
      (Host.scatter scatter_S64x192_S2_S64_0_0_01_0 (fun _ b => b)
        (broadcastInDim S64x192 ![] bcast_S_S64x192 zeroS) (pair 52#32 0#32) (shapeCast S64 a7 shapeCasts_S64x1_S64))
      (pair 53#32 64#32) (shapeCast S64 a9 shapeCasts_S64x1_S64))
    (pair 54#32 128#32) (shapeCast S64 a11 shapeCasts_S64x1_S64)

/-- The same after the three bias vectors were added onto row 55. -/
def tV39 (a7 a9 a11 : S64x1.Idx → EReal) (a8 a10 a12 : S64.Idx → EReal) : S64x192.Idx → EReal :=
  Host.scatter scatter_S64x192_S2_S64_0_0_01_0 (FloatOps.addf (F := Ideal) (φ := .f32))
    (Host.scatter scatter_S64x192_S2_S64_0_0_01_0 (FloatOps.addf (F := Ideal) (φ := .f32))
      (Host.scatter scatter_S64x192_S2_S64_0_0_01_0 (FloatOps.addf (F := Ideal) (φ := .f32))
        (tV27 a7 a9 a11) (pair 55#32 0#32) a8)
      (pair 55#32 64#32) a10)
    (pair 55#32 128#32) a12

/-- The 64 × 8 matrix of zeros with a one set at (55, 0). -/
def tOne : S64x8.Idx → EReal :=
  Host.scatter scatter_S64x8_S2_S__n_01_01_0 (fun _ b => b) (broadcastInDim S64x8 ![] bcast_S_S64x8 zeroS) (pair 55#32 0#32) oneS

/-- The output bias set on row 0 of an 8 × 768 matrix of zeros. -/
def tBias (a14 : S768.Idx → EReal) : S8x768.Idx → EReal :=
  Host.scatter scatter_S8x768_S1_S768_0_0_0_0 (fun _ b => b) (broadcastInDim S8x768 ![] bcast_S_S8x768 zeroS) (word 0#32) a14

/-! ## What the region finds -/

variable (m : (ℓ : Loc nD τ sig) → Buf (Elt Ideal) ℓ) (c : Dev nD)

set_option maxHeartbeats 8000000 in
/-- The region finds `main_v48` at its term. -/
theorem e48 : (V m c main_v48 : S20x16384.Idx → BitVec 32) = transpose S20x16384 [1, 0] (m ((c : Thread nD τ).loc main_arg0)) transposes_S16384x20_S20x16384_1_0 := by
  dsimp only [Gen.V, Gen.hostOps0]
  after_results_simp <;> rfl

set_option maxHeartbeats 8000000 in
/-- The region finds `main_v49` at its term. -/
theorem e49 : (V m c main_v49 : S1x16384.Idx → BitVec 32) = shapeCast S1x16384 (m ((c : Thread nD τ).loc main_arg1)) shapeCasts_S16384_S1x16384 := by
  dsimp only [Gen.V, Gen.hostOps0]
  after_results_simp <;> rfl

set_option maxHeartbeats 8000000 in
/-- The region finds `main_v50` at its term. -/
theorem e50 : (V m c main_v50 : S1x16384.Idx → EReal) = shapeCast S1x16384 (m ((c : Thread nD τ).loc main_arg2)) shapeCasts_S16384x1_S1x16384 := by
  dsimp only [Gen.V, Gen.hostOps0]
  after_results_simp <;> rfl

set_option maxHeartbeats 8000000 in
/-- The region finds `main_v51` at its term. -/
theorem e51 : (V m c main_v51 : S1x16384.Idx → EReal) = shapeCast S1x16384 (m ((c : Thread nD τ).loc main_arg3)) shapeCasts_S16384x1_S1x16384 := by
  dsimp only [Gen.V, Gen.hostOps0]
  after_results_simp <;> rfl

set_option maxHeartbeats 8000000 in
/-- The region finds `main_v52` at its term. -/
theorem e52 : (V m c main_v52 : S1x16384.Idx → EReal) = shapeCast S1x16384 (m ((c : Thread nD τ).loc main_arg4)) shapeCasts_S16384x1_S1x16384 := by
  dsimp only [Gen.V, Gen.hostOps0]
  after_results_simp <;> rfl

set_option maxHeartbeats 8000000 in
/-- The region finds `main_v2` at its term. -/
theorem e2 : (V m c main_v2 : S112x64.Idx → EReal) = tInst (m ((c : Thread nD τ).loc main_arg5)) := by
  dsimp only [Gen.V, Gen.hostOps0]
  after_results_simp <;> rfl

set_option maxHeartbeats 8000000 in
/-- The region finds `main_v5` at its term. -/
theorem e5 : (V m c main_v5 : S64x128.Idx → EReal) = tStyle (m ((c : Thread nD τ).loc main_arg6)) := by
  dsimp only [Gen.V, Gen.hostOps0]
  after_results_simp <;> rfl

set_option maxHeartbeats 8000000 in
/-- The region finds `main_v7` at its term. -/
theorem e7 : (V m c main_v7 : S64x768.Idx → EReal) = tW1 (m ((c : Thread nD τ).loc main_arg13)) := by
  dsimp only [Gen.V, Gen.hostOps0]
  after_results_simp <;> rfl

set_option maxHeartbeats 8000000 in
/-- The region finds `main_v9` at its term. -/
theorem e9 : (V m c main_v9 : S128x768.Idx → EReal) = tW2 (m ((c : Thread nD τ).loc main_arg13)) := by
  dsimp only [Gen.V, Gen.hostOps0]
  after_results_simp <;> rfl

set_option maxHeartbeats 8000000 in
/-- The region finds `main_v11` at its term. -/
theorem e11 : (V m c main_v11 : S192x768.Idx → EReal) = tW3 (m ((c : Thread nD τ).loc main_arg13)) := by
  dsimp only [Gen.V, Gen.hostOps0]
  after_results_simp <;> rfl

set_option maxHeartbeats 8000000 in
/-- The region finds `main_v39` at its term. -/
theorem e39 : (V m c main_v39 : S64x192.Idx → EReal) = tV39 (m ((c : Thread nD τ).loc main_arg7)) (m ((c : Thread nD τ).loc main_arg9)) (m ((c : Thread nD τ).loc main_arg11)) (m ((c : Thread nD τ).loc main_arg8)) (m ((c : Thread nD τ).loc main_arg10)) (m ((c : Thread nD τ).loc main_arg12)) := by
  dsimp only [Gen.V, Gen.hostOps0]
  after_results_simp <;> rfl

set_option maxHeartbeats 8000000 in
/-- The region finds `main_v44` at its term. -/
theorem e44 : (V m c main_v44 : S64x8.Idx → EReal) = tOne := by
  dsimp only [Gen.V, Gen.hostOps0]
  after_results_simp <;> rfl

set_option maxHeartbeats 8000000 in
/-- The region finds `main_v47` at its term. -/
theorem e47 : (V m c main_v47 : S8x768.Idx → EReal) = tBias (m ((c : Thread nD τ).loc main_arg14)) := by
  dsimp only [Gen.V, Gen.hostOps0]
  after_results_simp <;> rfl

end Cert.KernelIdeal.HostValue

end
-- ==== Proof.LibScatterSet.lean ====
/-
  A host scatter whose update body returns the update (an `x.at[…].set(v)`), read at ONE index of its result.

  The scatter is a left fold over the update indices in row-major order: each update whose landing index is inside
  the operand overwrites the element there. Read at a fixed result index `i'`:
  * if no update lands on `i'`, the element is the operand's;
  * if some update lands on `i'` and every update that lands there carries the same value `v`, the element is `v`
    (in particular when exactly one update lands there).
  Nothing is assumed of the dimension numbers: which update lands where is the caller's to compute.
-/
import Idealize.ShloMosaic.PureOps

namespace Idealize.ShloMosaic

variable {s si u : Shape} {α : Type} {w : Nat}

/-- One step of the fold of a "set" scatter: update number `n` overwrites the element at its landing index, if it has one. -/
def Host.scatterSetStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- A "set" scatter is the fold of that step over the update numbers in order. -/
theorem Host.scatter_set_eq_foldl (d : ScatterDims s si u) (x : s.Idx → α) (idx : IVec si w) (upd : u.Idx → α) :
    Host.scatter d (fun _ b => b) x idx upd = (List.finRange u.numel).foldl (Host.scatterSetStep d idx upd) x := rfl

/-- A step whose update does not land on `i'` leaves the element at `i'` alone. -/
theorem Host.scatterSetStep_of_ne (d : ScatterDims s si u) (idx : IVec si w) (upd : u.Idx → α) (r : s.Idx → α)
    (n : Fin u.numel) (i' : s.Idx) (h : d.resultIdx? (u.rowMajor.symm n) idx ≠ some i') :
    Host.scatterSetStep d idx upd r n i' = r i' := by
  unfold Host.scatterSetStep
  cases hr : d.resultIdx? (u.rowMajor.symm n) idx with
  | none => rfl
  | some i => exact if_neg fun e => h (by rw [hr, e])

/-- A step whose update lands on `i'` leaves the update's value there. -/
theorem Host.scatterSetStep_of_eq (d : ScatterDims s si u) (idx : IVec si w) (upd : u.Idx → α) (r : s.Idx → α)
    (n : Fin u.numel) (i' : s.Idx) (h : d.resultIdx? (u.rowMajor.symm n) idx = some i') :
    Host.scatterSetStep d idx upd r n i' = upd (u.rowMajor.symm n) := by
  unfold Host.scatterSetStep
  rw [h]
  exact if_pos rfl

/-- Folding steps none of which lands on `i'` leaves the element at `i'` alone. -/
theorem Host.foldl_scatterSetStep_of_miss (d : ScatterDims s si u) (idx : IVec si w) (upd : u.Idx → α) (i' : s.Idx)
    (l : List (Fin u.numel)) (x : s.Idx → α) (h : ∀ n ∈ l, d.resultIdx? (u.rowMajor.symm n) idx ≠ some i') :
    l.foldl (Host.scatterSetStep d idx upd) x i' = x i' := by
  induction l generalizing x with
  | nil => rfl
  | cons a l ih =>
    rw [List.foldl_cons, ih _ fun n hn => h n (List.mem_cons_of_mem _ hn)]
    exact Host.scatterSetStep_of_ne d idx upd x a i' (h a List.mem_cons_self)

/-- Folding steps of which at least one lands on `i'`, all those that do carrying the value `v`, leaves `v` at `i'`:
    the last one to land there wrote it. -/
theorem Host.foldl_scatterSetStep_of_hit (d : ScatterDims s si u) (idx : IVec si w) (upd : u.Idx → α) (i' : s.Idx) (v : α)
    (l : List (Fin u.numel)) (x : s.Idx → α)
    (hex : ∃ n ∈ l, d.resultIdx? (u.rowMajor.symm n) idx = some i')
    (hv : ∀ n ∈ l, d.resultIdx? (u.rowMajor.symm n) idx = some i' → upd (u.rowMajor.symm n) = v) :
    l.foldl (Host.scatterSetStep d idx upd) x i' = v := by
  induction l generalizing x with
  | nil => obtain ⟨n, hn, _⟩ := hex; cases hn
  | cons a l ih =>
    rw [List.foldl_cons]
    by_cases hl : ∃ n ∈ l, d.resultIdx? (u.rowMajor.symm n) idx = some i'
    · exact ih _ hl fun n hn => hv n (List.mem_cons_of_mem _ hn)
    · have hmiss : ∀ n ∈ l, d.resultIdx? (u.rowMajor.symm n) idx ≠ some i' := fun n hn e => hl ⟨n, hn, e⟩
      have ha : d.resultIdx? (u.rowMajor.symm a) idx = some i' := by
        obtain ⟨n, hn, e⟩ := hex
        rcases List.mem_cons.1 hn with rfl | hn'
        · exact e
        · exact absurd e (hmiss n hn')
      rw [Host.foldl_scatterSetStep_of_miss d idx upd i' l _ hmiss, Host.scatterSetStep_of_eq d idx upd x a i' ha]
      exact hv a List.mem_cons_self ha

/-- A "set" scatter read at an index NO update lands on: the operand's element. -/
theorem Host.scatter_set_apply_of_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [Host.scatter_set_eq_foldl]
  exact Host.foldl_scatterSetStep_of_miss d idx upd i' _ x fun n _ => h _

/-- A "set" scatter read at an index some update lands on, every update landing there carrying `v`: it is `v`. -/
theorem Host.scatter_set_apply_of_hit (d : ScatterDims s si u) (x : s.Idx → α) (idx : IVec si w) (upd : u.Idx → α)
    (i' : s.Idx) (v : α) (hex : ∃ j : u.Idx, d.resultIdx? j idx = some i')
    (hv : ∀ j : u.Idx, d.resultIdx? j idx = some i' → upd j = v) :
    Host.scatter d (fun _ b => b) x idx upd i' = v := by
  rw [Host.scatter_set_eq_foldl]
  obtain ⟨j0, hj0⟩ := hex
  exact Host.foldl_scatterSetStep_of_hit d idx upd i' v _ x
    ⟨u.rowMajor j0, List.mem_finRange _, by rw [Equiv.symm_apply_apply]; exact hj0⟩ fun n _ e => hv _ e

/-- Update index `j` lands on `i` exactly when, on every operand axis, its start plus its window coordinate is `i`'s
    coordinate (as integers: the start is read signed). -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hc
      have e := Option.some.inj h
      intro a
      rw [← e]
      exact (Int.toNat_of_nonneg (hc a).1).symm
    · cases h
  · intro h
    have hc : ∀ a, 0 ≤ d.start j idx a + (d.window j a : Int) ∧ d.start j idx a + (d.window j a : Int) < s.size a := fun a => by
      rw [h a]; exact ⟨Int.natCast_nonneg _, by exact_mod_cast (i a).isLt⟩
    rw [dif_pos hc]
    refine congrArg some (funext fun a => Fin.ext ?_)
    show (d.start j idx a + (d.window j a : Int)).toNat = (i a).val
    rw [h a]; exact Int.toNat_natCast _

end Idealize.ShloMosaic
-- ==== Proof.LibScatterOnce.lean ====
/-
  A host scatter with ANY update body, read at ONE index of its result that at most one update lands on.

  The scatter is a left fold over the update indices in row-major order: each update whose landing index is inside
  the operand replaces the element there by the body applied to that element and the update's. Read at a fixed result
  index `i'`:
  * if no update lands on `i'`, the element is the operand's;
  * if exactly one update `j₀` lands on `i'`, the element is the body applied to the operand's element and `j₀`'s.
  This covers an `x.at[…].set(v)` and an `x.at[…].add(v)` over a single scatter index alike: there each element of
  the operand meets at most one update. Nothing is assumed of the dimension numbers: which update lands where is the
  caller's to compute.
-/
import Idealize.ShloMosaic.PureOps

namespace Idealize.ShloMosaic

variable {s si u : Shape} {α : Type} {w : Nat}

/-- One step of the fold: update number `n` combines into the element at its landing index, if it has one. -/
def Host.scatterStep (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

/-- A scatter is the fold of that step over the update numbers in order. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update does not land on `i'` leaves the element at `i'` alone. -/
theorem Host.scatterStep_of_ne (d : ScatterDims s si u) (f : α → α → α) (idx : IVec si w) (upd : u.Idx → α)
    (r : s.Idx → α) (n : Fin u.numel) (i' : s.Idx) (h : d.resultIdx? (u.rowMajor.symm n) idx ≠ some i') :
    Host.scatterStep d f idx upd r n i' = r i' := by
  unfold Host.scatterStep
  cases hr : d.resultIdx? (u.rowMajor.symm n) idx with
  | none => rfl
  | some i => exact if_neg fun e => h (by rw [hr, e])

/-- A step whose update lands on `i'` combines the update's value into the element there. -/
theorem Host.scatterStep_of_eq (d : ScatterDims s si u) (f : α → α → α) (idx : IVec si w) (upd : u.Idx → α)
    (r : s.Idx → α) (n : Fin u.numel) (i' : s.Idx) (h : d.resultIdx? (u.rowMajor.symm n) idx = some i') :
    Host.scatterStep d f idx upd r n i' = f (r i') (upd (u.rowMajor.symm n)) := by
  unfold Host.scatterStep
  rw [h]
  exact if_pos rfl

/-- Folding steps none of which lands on `i'` leaves the element at `i'` alone. -/
theorem Host.foldl_scatterStep_of_miss (d : ScatterDims s si u) (f : α → α → α) (idx : IVec si w) (upd : u.Idx → α)
    (i' : s.Idx) (l : List (Fin u.numel)) (x : s.Idx → α)
    (h : ∀ n ∈ l, d.resultIdx? (u.rowMajor.symm n) idx ≠ some i') :
    l.foldl (Host.scatterStep d f idx upd) x i' = x i' := by
  induction l generalizing x with
  | nil => rfl
  | cons a l ih =>
    rw [List.foldl_cons, ih _ fun n hn => h n (List.mem_cons_of_mem _ hn)]
    exact Host.scatterStep_of_ne d f idx upd x a i' (h a List.mem_cons_self)

/-- Folding steps over a list without repeats of which exactly one, `n₀`, lands on `i'`: the body applied once. -/
theorem Host.foldl_scatterStep_of_once (d : ScatterDims s si u) (f : α → α → α) (idx : IVec si w) (upd : u.Idx → α)
    (i' : s.Idx) (n0 : Fin u.numel) (h0 : d.resultIdx? (u.rowMajor.symm n0) idx = some i')
    (l : List (Fin u.numel)) (hnd : l.Nodup) (hmem : n0 ∈ l)
    (huniq : ∀ n ∈ l, d.resultIdx? (u.rowMajor.symm n) idx = some i' → n = n0) (x : s.Idx → α) :
    l.foldl (Host.scatterStep d f idx upd) x i' = f (x i') (upd (u.rowMajor.symm n0)) := by
  induction l generalizing x with
  | nil => cases hmem
  | cons a l ih =>
    rw [List.foldl_cons]
    have hnd' := List.nodup_cons.1 hnd
    by_cases ha : a = n0
    · have hmiss : ∀ n ∈ l, d.resultIdx? (u.rowMajor.symm n) idx ≠ some i' := fun n hn e => by
        have hn0 := huniq n (List.mem_cons_of_mem _ hn) e
        rw [hn0, ← ha] at hn
        exact hnd'.1 hn
      rw [Host.foldl_scatterStep_of_miss d f idx upd i' l _ hmiss, ha,
        Host.scatterStep_of_eq d f idx upd x n0 i' h0]
    · have hmem' : n0 ∈ l := by
        rcases List.mem_cons.1 hmem with h | h
        · exact absurd h.symm ha
        · exact h
      have hamiss : d.resultIdx? (u.rowMajor.symm a) idx ≠ some i' := fun e => ha (huniq a List.mem_cons_self e)
      rw [ih hnd'.2 hmem' (fun n hn => huniq n (List.mem_cons_of_mem _ hn)),
        Host.scatterStep_of_ne d f idx upd x a i' hamiss]

/-- A scatter read at an index NO update lands on: the operand's element. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [Host.scatter_eq_foldl]
  exact Host.foldl_scatterStep_of_miss d f idx upd i' _ x fun n _ => h _

/-- A scatter read at an index exactly one update `j₀` lands on: the body applied to the operand's element and
    `j₀`'s. -/
theorem Host.scatter_apply_of_once (d : ScatterDims s si u) (f : α → α → α) (x : s.Idx → α) (idx : IVec si w)
    (upd : u.Idx → α) (i' : s.Idx) (j0 : u.Idx) (h0 : d.resultIdx? j0 idx = some i')
    (huniq : ∀ j : u.Idx, d.resultIdx? j idx = some i' → j = j0) :
    Host.scatter d f x idx upd i' = f (x i') (upd j0) := by
  rw [Host.scatter_eq_foldl]
  have key := Host.foldl_scatterStep_of_once d f idx upd i' (u.rowMajor j0)
    (by rw [Equiv.symm_apply_apply]; exact h0) (List.finRange u.numel) (List.nodup_finRange _) (List.mem_finRange _)
    (fun n _ e => by have hj := huniq _ e; rw [← hj, Equiv.apply_symm_apply]) x
  rw [key, Equiv.symm_apply_apply]

end Idealize.ShloMosaic
-- ==== Proof.HostReadDims.lean ====
/-
  Which update of each host scatter lands where.

  Every scatter of this program takes ONE start index (a literal row, or a literal row and column), so update index
  `j` lands on operand index `i` exactly when, axis by axis, the start plus `j`'s window coordinate is `i`'s
  coordinate. This module computes the start and the window coordinate of each of the five dimension-number records
  the program uses, states the landing condition of each in coordinates, and reads the small integer vectors that
  carry the start indices.
-/
import proofs.«161131_g50268297232385_cont_8to1c4_788_18_alg».proof.Proof.HostTerms
import proofs.«161131_g50268297232385_cont_8to1c4_788_18_alg».proof.Proof.LibScatterSet
import proofs.«161131_g50268297232385_cont_8to1c4_788_18_alg».proof.Proof.LibScatterOnce
import Idealize.ShloMosaic.Lib.Pipeline.Value
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.ValueIdx

/-! ## The start indices and the zero fill -/

/-- A one-entry vector holding `n` reads `n`. -/
theorem word_apply (n : BitVec 32) (i : S1.Idx) : word n i = n :=
  (broadcastInDim_apply _ bcast_S_S1 (constantI S_ 32 n) i (fun a => a.elim0) (fun a => a.elim0)).trans rfl

/-- The first entry of `(r, k)`. -/
theorem pair_fst (r k : BitVec 32) : pair r k (ix1 (0 : Fin 2)) = r := by
  have h := concatenate_pair_apply_left (t := S2) (s₁ := S1) (s₂ := S1) 0 (word r) (word k) concatenates_S1_S1_S2_d0
    (ix1 (0 : Fin 2)) rfl (ix1 (0 : Fin 1)) (fun b => by match b with | ⟨0, _⟩ => rfl)
  exact h.trans (word_apply r _)

/-- The second entry of `(r, k)`. -/
theorem pair_snd (r k : BitVec 32) : pair r k (ix1 (1 : Fin 2)) = k := by
  have h := concatenate_pair_apply_right (t := S2) (s₁ := S1) (s₂ := S1) 0 (word r) (word k) concatenates_S1_S1_S2_d0
    (ix1 (1 : Fin 2)) rfl rfl (ix1 (0 : Fin 1)) (fun b hb => by match b with | ⟨0, _⟩ => exact absurd rfl hb) rfl
  exact h.trans (word_apply k _)

/-- A zero fill reads zero. -/
theorem zeros_apply {t : Shape} (h : S_.BroadcastsInDim t ![]) (i : t.Idx) : broadcastInDim t ![] h zeroS i = 0 :=
  (broadcastInDim_apply _ h zeroS i (fun a => a.elim0) (fun a => a.elim0)).trans Ideal.ofBits_zero_f32

/-! ## A 64-vector written along a row of the 64 × 192 matrix from a start `(r, k)` -/

section Row
variable (j : S64.Idx) (idx : IVec S2 32)

theorem row_start0 : scatter_S64x192_S2_S64_0_0_01_0.start j idx 0 = (idx (ix1 (0 : Fin 2))).toInt := by
  unfold ScatterDims.start
  rw [dif_pos (show (0 : Fin 2) ∈ scatter_S64x192_S2_S64_0_0_01_0.scatterDimsToOperandDims from by decide)]
  have hsi : scatter_S64x192_S2_S64_0_0_01_0.siIdx j ⟨List.idxOf (0 : Fin 2) scatter_S64x192_S2_S64_0_0_01_0.scatterDimsToOperandDims,
      List.idxOf_lt_length_iff.2 (by decide)⟩ = ix1 (0 : Fin 2) := by
    funext b; refine Fin.ext ?_
    match b with
    | ⟨0, _⟩ => rfl
  rw [hsi]

theorem row_start1 : scatter_S64x192_S2_S64_0_0_01_0.start j idx 1 = (idx (ix1 (1 : Fin 2))).toInt := by
  unfold ScatterDims.start
  rw [dif_pos (show (1 : Fin 2) ∈ scatter_S64x192_S2_S64_0_0_01_0.scatterDimsToOperandDims from by decide)]
  have hsi : scatter_S64x192_S2_S64_0_0_01_0.siIdx j ⟨List.idxOf (1 : Fin 2) scatter_S64x192_S2_S64_0_0_01_0.scatterDimsToOperandDims,
      List.idxOf_lt_length_iff.2 (by decide)⟩ = ix1 (1 : Fin 2) := by
    funext b; refine Fin.ext ?_
    match b with
    | ⟨0, _⟩ => rfl
  rw [hsi]

theorem row_window0 : scatter_S64x192_S2_S64_0_0_01_0.window j 0 = 0 := by
  unfold ScatterDims.window
  rw [dif_neg (show (0 : Fin 2) ∉ scatter_S64x192_S2_S64_0_0_01_0.sKept from by decide)]

theorem row_window1 : scatter_S64x192_S2_S64_0_0_01_0.window j 1 = (j 0).val := by
  unfold ScatterDims.window
  rw [dif_pos (show (1 : Fin 2) ∈ scatter_S64x192_S2_S64_0_0_01_0.sKept from by decide)]
  rfl

/-- Entry `j` of the vector lands on `(s, q)` exactly when the start row is `s` and the start column plus `j` is `q`. -/
theorem row_lands (i : S64x192.Idx) :
    scatter_S64x192_S2_S64_0_0_01_0.resultIdx? j idx = some i ↔
      (idx (ix1 (0 : Fin 2))).toInt = ((i 0).val : Int) ∧ (idx (ix1 (1 : Fin 2))).toInt + ((j 0).val : Int) = ((i 1).val : Int) := by
  rw [ScatterDims.resultIdx?_eq_some_iff]
  constructor
  · intro h
    have h0 := h 0
    have h1 := h 1
    rw [row_start0, row_window0] at h0
    rw [row_start1, row_window1] at h1
    exact ⟨by simpa using h0, h1⟩
  · rintro ⟨h0, h1⟩ a
    rcases a with ⟨_ | _ | a, ha⟩
    · show scatter_S64x192_S2_S64_0_0_01_0.start j idx 0 + ((scatter_S64x192_S2_S64_0_0_01_0.window j 0 : ℕ) : Int) = ((i 0).val : Int)
      rw [row_start0, row_window0]; simpa using h0
    · show scatter_S64x192_S2_S64_0_0_01_0.start j idx 1 + ((scatter_S64x192_S2_S64_0_0_01_0.window j 1 : ℕ) : Int) = ((i 1).val : Int)
      rw [row_start1, row_window1]; exact h1
    · exact absurd ha (Nat.not_lt.2 (Nat.le_add_left 2 a))

end Row

/-! ## The 100 × 64 table written into the 112 × 64 matrix from a start row -/

section InstTable
variable (j : S100x64.Idx) (idx : IVec S1 32)

theorem inst_start0 : scatter_S112x64_S1_S100x64_01_n_0_0.start j idx 0 = (idx (ix1 (0 : Fin 1))).toInt := by
  unfold ScatterDims.start
  rw [dif_pos (show (0 : Fin 2) ∈ scatter_S112x64_S1_S100x64_01_n_0_0.scatterDimsToOperandDims from by decide)]
  have hsi : scatter_S112x64_S1_S100x64_01_n_0_0.siIdx j ⟨List.idxOf (0 : Fin 2) scatter_S112x64_S1_S100x64_01_n_0_0.scatterDimsToOperandDims,
      List.idxOf_lt_length_iff.2 (by decide)⟩ = ix1 (0 : Fin 1) := by
    funext b; refine Fin.ext ?_
    match b with
    | ⟨0, _⟩ => rfl
  rw [hsi]

theorem inst_start1 : scatter_S112x64_S1_S100x64_01_n_0_0.start j idx 1 = 0 := by
  unfold ScatterDims.start
  rw [dif_neg (show (1 : Fin 2) ∉ scatter_S112x64_S1_S100x64_01_n_0_0.scatterDimsToOperandDims from by decide)]

theorem inst_window0 : scatter_S112x64_S1_S100x64_01_n_0_0.window j 0 = (j 0).val := by
  unfold ScatterDims.window
  rw [dif_pos (show (0 : Fin 2) ∈ scatter_S112x64_S1_S100x64_01_n_0_0.sKept from by decide)]
  rfl

theorem inst_window1 : scatter_S112x64_S1_S100x64_01_n_0_0.window j 1 = (j 1).val := by
  unfold ScatterDims.window
  rw [dif_pos (show (1 : Fin 2) ∈ scatter_S112x64_S1_S100x64_01_n_0_0.sKept from by decide)]
  rfl

/-- Entry `(r, e)` of the table lands on `(s, q)` exactly when the start row plus `r` is `s` and `e` is `q`. -/
theorem inst_lands (i : S112x64.Idx) :
    scatter_S112x64_S1_S100x64_01_n_0_0.resultIdx? j idx = some i ↔
      (idx (ix1 (0 : Fin 1))).toInt + ((j 0).val : Int) = ((i 0).val : Int) ∧ ((j 1).val : Int) = ((i 1).val : Int) := by
  rw [ScatterDims.resultIdx?_eq_some_iff]
  constructor
  · intro h
    have h0 := h 0
    have h1 := h 1
    rw [inst_start0, inst_window0] at h0
    rw [inst_start1, inst_window1] at h1
    exact ⟨h0, by simpa using h1⟩
  · rintro ⟨h0, h1⟩ a
    rcases a with ⟨_ | _ | a, ha⟩
    · show scatter_S112x64_S1_S100x64_01_n_0_0.start j idx 0 + ((scatter_S112x64_S1_S100x64_01_n_0_0.window j 0 : ℕ) : Int) = ((i 0).val : Int)
      rw [inst_start0, inst_window0]; exact h0
    · show scatter_S112x64_S1_S100x64_01_n_0_0.start j idx 1 + ((scatter_S112x64_S1_S100x64_01_n_0_0.window j 1 : ℕ) : Int) = ((i 1).val : Int)
      rw [inst_start1, inst_window1]; simpa using h1
    · exact absurd ha (Nat.not_lt.2 (Nat.le_add_left 2 a))

end InstTable

/-! ## The 50 × 128 table written into the 64 × 128 matrix from a start row -/

section StyleTable
variable (j : S50x128.Idx) (idx : IVec S1 32)

theorem style_start0 : scatter_S64x128_S1_S50x128_01_n_0_0.start j idx 0 = (idx (ix1 (0 : Fin 1))).toInt := by
  unfold ScatterDims.start
  rw [dif_pos (show (0 : Fin 2) ∈ scatter_S64x128_S1_S50x128_01_n_0_0.scatterDimsToOperandDims from by decide)]
  have hsi : scatter_S64x128_S1_S50x128_01_n_0_0.siIdx j ⟨List.idxOf (0 : Fin 2) scatter_S64x128_S1_S50x128_01_n_0_0.scatterDimsToOperandDims,
      List.idxOf_lt_length_iff.2 (by decide)⟩ = ix1 (0 : Fin 1) := by
    funext b; refine Fin.ext ?_
    match b with
    | ⟨0, _⟩ => rfl
  rw [hsi]

theorem style_start1 : scatter_S64x128_S1_S50x128_01_n_0_0.start j idx 1 = 0 := by
  unfold ScatterDims.start
  rw [dif_neg (show (1 : Fin 2) ∉ scatter_S64x128_S1_S50x128_01_n_0_0.scatterDimsToOperandDims from by decide)]

theorem style_window0 : scatter_S64x128_S1_S50x128_01_n_0_0.window j 0 = (j 0).val := by
  unfold ScatterDims.window
  rw [dif_pos (show (0 : Fin 2) ∈ scatter_S64x128_S1_S50x128_01_n_0_0.sKept from by decide)]
  rfl

theorem style_window1 : scatter_S64x128_S1_S50x128_01_n_0_0.window j 1 = (j 1).val := by
  unfold ScatterDims.window
  rw [dif_pos (show (1 : Fin 2) ∈ scatter_S64x128_S1_S50x128_01_n_0_0.sKept from by decide)]
  rfl

/-- Entry `(r, e)` of the table lands on `(s, q)` exactly when the start row plus `r` is `s` and `e` is `q`. -/
theorem style_lands (i : S64x128.Idx) :
    scatter_S64x128_S1_S50x128_01_n_0_0.resultIdx? j idx = some i ↔
      (idx (ix1 (0 : Fin 1))).toInt + ((j 0).val : Int) = ((i 0).val : Int) ∧ ((j 1).val : Int) = ((i 1).val : Int) := by
  rw [ScatterDims.resultIdx?_eq_some_iff]
  constructor
  · intro h
    have h0 := h 0
    have h1 := h 1
    rw [style_start0, style_window0] at h0
    rw [style_start1, style_window1] at h1
    exact ⟨h0, by simpa using h1⟩
  · rintro ⟨h0, h1⟩ a
    rcases a with ⟨_ | _ | a, ha⟩
    · show scatter_S64x128_S1_S50x128_01_n_0_0.start j idx 0 + ((scatter_S64x128_S1_S50x128_01_n_0_0.window j 0 : ℕ) : Int) = ((i 0).val : Int)
      rw [style_start0, style_window0]; exact h0
    · show scatter_S64x128_S1_S50x128_01_n_0_0.start j idx 1 + ((scatter_S64x128_S1_S50x128_01_n_0_0.window j 1 : ℕ) : Int) = ((i 1).val : Int)
      rw [style_start1, style_window1]; simpa using h1
    · exact absurd ha (Nat.not_lt.2 (Nat.le_add_left 2 a))

end StyleTable

/-! ## One scalar written at a start `(r, k)` of the 64 × 8 matrix -/

section Cell
variable (j : S_.Idx) (idx : IVec S2 32)

theorem cell_start0 : scatter_S64x8_S2_S__n_01_01_0.start j idx 0 = (idx (ix1 (0 : Fin 2))).toInt := by
  unfold ScatterDims.start
  rw [dif_pos (show (0 : Fin 2) ∈ scatter_S64x8_S2_S__n_01_01_0.scatterDimsToOperandDims from by decide)]
  have hsi : scatter_S64x8_S2_S__n_01_01_0.siIdx j ⟨List.idxOf (0 : Fin 2) scatter_S64x8_S2_S__n_01_01_0.scatterDimsToOperandDims,
      List.idxOf_lt_length_iff.2 (by decide)⟩ = ix1 (0 : Fin 2) := by
    funext b; refine Fin.ext ?_
    match b with
    | ⟨0, _⟩ => rfl
  rw [hsi]

theorem cell_start1 : scatter_S64x8_S2_S__n_01_01_0.start j idx 1 = (idx (ix1 (1 : Fin 2))).toInt := by
  unfold ScatterDims.start
  rw [dif_pos (show (1 : Fin 2) ∈ scatter_S64x8_S2_S__n_01_01_0.scatterDimsToOperandDims from by decide)]
  have hsi : scatter_S64x8_S2_S__n_01_01_0.siIdx j ⟨List.idxOf (1 : Fin 2) scatter_S64x8_S2_S__n_01_01_0.scatterDimsToOperandDims,
      List.idxOf_lt_length_iff.2 (by decide)⟩ = ix1 (1 : Fin 2) := by
    funext b; refine Fin.ext ?_
    match b with
    | ⟨0, _⟩ => rfl
  rw [hsi]

theorem cell_window0 : scatter_S64x8_S2_S__n_01_01_0.window j 0 = 0 := by
  unfold ScatterDims.window
  rw [dif_neg (show (0 : Fin 2) ∉ scatter_S64x8_S2_S__n_01_01_0.sKept from by decide)]

theorem cell_window1 : scatter_S64x8_S2_S__n_01_01_0.window j 1 = 0 := by
  unfold ScatterDims.window
  rw [dif_neg (show (1 : Fin 2) ∉ scatter_S64x8_S2_S__n_01_01_0.sKept from by decide)]

/-- The scalar lands on `(s, q)` exactly when the start is `(s, q)`. -/
theorem cell_lands (i : S64x8.Idx) :
    scatter_S64x8_S2_S__n_01_01_0.resultIdx? j idx = some i ↔
      (idx (ix1 (0 : Fin 2))).toInt = ((i 0).val : Int) ∧ (idx (ix1 (1 : Fin 2))).toInt = ((i 1).val : Int) := by
  rw [ScatterDims.resultIdx?_eq_some_iff]
  constructor
  · intro h
    have h0 := h 0
    have h1 := h 1
    rw [cell_start0, cell_window0] at h0
    rw [cell_start1, cell_window1] at h1
    exact ⟨by simpa using h0, by simpa using h1⟩
  · rintro ⟨h0, h1⟩ a
    rcases a with ⟨_ | _ | a, ha⟩
    · show scatter_S64x8_S2_S__n_01_01_0.start j idx 0 + ((scatter_S64x8_S2_S__n_01_01_0.window j 0 : ℕ) : Int) = ((i 0).val : Int)
      rw [cell_start0, cell_window0]; simpa using h0
    · show scatter_S64x8_S2_S__n_01_01_0.start j idx 1 + ((scatter_S64x8_S2_S__n_01_01_0.window j 1 : ℕ) : Int) = ((i 1).val : Int)
      rw [cell_start1, cell_window1]; simpa using h1
    · exact absurd ha (Nat.not_lt.2 (Nat.le_add_left 2 a))

end Cell

/-! ## A 768-vector written along a row of the 8 × 768 matrix from a start row -/

section BiasRow
variable (j : S768.Idx) (idx : IVec S1 32)

theorem brow_start0 : scatter_S8x768_S1_S768_0_0_0_0.start j idx 0 = (idx (ix1 (0 : Fin 1))).toInt := by
  unfold ScatterDims.start
  rw [dif_pos (show (0 : Fin 2) ∈ scatter_S8x768_S1_S768_0_0_0_0.scatterDimsToOperandDims from by decide)]
  have hsi : scatter_S8x768_S1_S768_0_0_0_0.siIdx j ⟨List.idxOf (0 : Fin 2) scatter_S8x768_S1_S768_0_0_0_0.scatterDimsToOperandDims,
      List.idxOf_lt_length_iff.2 (by decide)⟩ = ix1 (0 : Fin 1) := by
    funext b; refine Fin.ext ?_
    match b with
    | ⟨0, _⟩ => rfl
  rw [hsi]

theorem brow_start1 : scatter_S8x768_S1_S768_0_0_0_0.start j idx 1 = 0 := by
  unfold ScatterDims.start
  rw [dif_neg (show (1 : Fin 2) ∉ scatter_S8x768_S1_S768_0_0_0_0.scatterDimsToOperandDims from by decide)]

theorem brow_window0 : scatter_S8x768_S1_S768_0_0_0_0.window j 0 = 0 := by
  unfold ScatterDims.window
  rw [dif_neg (show (0 : Fin 2) ∉ scatter_S8x768_S1_S768_0_0_0_0.sKept from by decide)]

theorem brow_window1 : scatter_S8x768_S1_S768_0_0_0_0.window j 1 = (j 0).val := by
  unfold ScatterDims.window
  rw [dif_pos (show (1 : Fin 2) ∈ scatter_S8x768_S1_S768_0_0_0_0.sKept from by decide)]
  rfl

/-- Entry `j` of the vector lands on `(s, q)` exactly when the start row is `s` and `j` is `q`. -/
theorem brow_lands (i : S8x768.Idx) :
    scatter_S8x768_S1_S768_0_0_0_0.resultIdx? j idx = some i ↔
      (idx (ix1 (0 : Fin 1))).toInt = ((i 0).val : Int) ∧ ((j 0).val : Int) = ((i 1).val : Int) := by
  rw [ScatterDims.resultIdx?_eq_some_iff]
  constructor
  · intro h
    have h0 := h 0
    have h1 := h 1
    rw [brow_start0, brow_window0] at h0
    rw [brow_start1, brow_window1] at h1
    exact ⟨by simpa using h0, by simpa using h1⟩
  · rintro ⟨h0, h1⟩ a
    rcases a with ⟨_ | _ | a, ha⟩
    · show scatter_S8x768_S1_S768_0_0_0_0.start j idx 0 + ((scatter_S8x768_S1_S768_0_0_0_0.window j 0 : ℕ) : Int) = ((i 0).val : Int)
      rw [brow_start0, brow_window0]; simpa using h0
    · show scatter_S8x768_S1_S768_0_0_0_0.start j idx 1 + ((scatter_S8x768_S1_S768_0_0_0_0.window j 1 : ℕ) : Int) = ((i 1).val : Int)
      rw [brow_start1, brow_window1]; simpa using h1
    · exact absurd ha (Nat.not_lt.2 (Nat.le_add_left 2 a))

end BiasRow

end Cert.KernelIdeal.HostValue

end
-- ==== Proof.HostRead.lean ====
/-
  The arrays the host wrote before the region, read at an index.

  Each of the thirteen arrays the region's windows stage is read here at one index and found to be the entry the
  mathematics names: the ids and scalars with the batch on the last axis, the two embedding tables padded with zero
  rows, the three transposed column blocks of the projection matrix, the 64 × 192 matrix of the scalar weights and
  biases, the 64 × 8 matrix with its single one, and the output bias as the first row of an 8 × 768 matrix.

  The 64 × 192 matrix is built by six writes of a 64-vector along a row: three that set the weights on rows 52–54 and
  three that add the biases onto row 55, which held zeros — so the sums are `0 + b`.
-/
import proofs.«161131_g50268297232385_cont_8to1c4_788_18_alg».proof.Proof.HostReadDims
import proofs.«161131_g50268297232385_cont_8to1c4_788_18_alg».proof.Proof.Spec

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.ValueIdx

/-! ## The literal start indices, and the literal one -/

theorem toInt_0 : (0#32 : BitVec 32).toInt = ((0 : ℕ) : Int) := by decide
theorem toInt_52 : (52#32 : BitVec 32).toInt = ((52 : ℕ) : Int) := by decide
theorem toInt_53 : (53#32 : BitVec 32).toInt = ((53 : ℕ) : Int) := by decide
theorem toInt_54 : (54#32 : BitVec 32).toInt = ((54 : ℕ) : Int) := by decide
theorem toInt_55 : (55#32 : BitVec 32).toInt = ((55 : ℕ) : Int) := by decide
theorem toInt_64 : (64#32 : BitVec 32).toInt = ((64 : ℕ) : Int) := by decide
theorem toInt_128 : (128#32 : BitVec 32).toInt = ((128 : ℕ) : Int) := by decide

/-- The word `0x3F800000` is the number one. -/
theorem oneS_apply (i : S_.Idx) : oneS i = 1 := by
  show Ideal.ofBits .f32 0x3F800000#32 = 1
  simp [Ideal.ofBits, Ideal.ieee, -EReal.coe_mul]; norm_num

/-! ## Layout operations -/

/-- A column `[n, 1]` cast to a vector `[n]` reads, at `t`, the column at `(t, 0)`. -/
theorem shapeCast_col_apply (a : S64x1.Idx → EReal) (h : S64x1.ShapeCasts S64) (t : Fin 64) :
    shapeCast S64 a h (ix1 t) = a (ix2 t (0 : Fin 1)) :=
  shapeCast_apply a h _ _ (by
    rw [Shape.rowMajor_val_two, Shape.rowMajor_val_one]
    show t.val * 1 + 0 = t.val
    omega)

/-- A column `[n, 1]` cast to a row `[1, n]` reads, at `(0, b)`, the column at `(b, 0)`. -/
theorem shapeCast_col_row_apply (a : S16384x1.Idx → EReal) (h : S16384x1.ShapeCasts S1x16384) (b : Fin 16384) :
    shapeCast S1x16384 a h (ix2 (0 : Fin 1) b) = a (ix2 b (0 : Fin 1)) :=
  shapeCast_apply a h _ _ (by
    rw [Shape.rowMajor_val_two, Shape.rowMajor_val_two]
    show b.val * 1 + 0 = 0 * 16384 + b.val
    omega)

/-! ## One write of a 64-vector along a row of the 64 × 192 matrix -/

section RowWrite
variable (f : EReal → EReal → EReal) (x : S64x192.Idx → EReal) (r k : BitVec 32) (R K : ℕ)
  (hr : r.toInt = (R : Int)) (hk : k.toInt = (K : Int)) (u : S64.Idx → EReal) (s : Fin 64) (q : Fin 192)

include hr hk in
theorem row_lands' (j : S64.Idx) : scatter_S64x192_S2_S64_0_0_01_0.resultIdx? j (pair r k) = some (ix2 s q) ↔
    (R : Int) = (s.val : Int) ∧ (K : Int) + ((j 0).val : Int) = (q.val : Int) := by
  rw [row_lands, pair_fst, pair_snd, hr, hk]

include hr hk in
/-- On row `R`, columns `K … K + 63`: the body applied to what was there and the vector's entry. -/
theorem row_on (t : Fin 64) (hs : s.val = R) (ht : K + t.val = q.val) :
    Host.scatter scatter_S64x192_S2_S64_0_0_01_0 f x (pair r k) u (ix2 s q) = f (x (ix2 s q)) (u (ix1 t)) := by
  refine Host.scatter_apply_of_once _ f x _ u _ (ix1 t) ((row_lands' r k R K hr hk s q _).2 ⟨by omega, ?_⟩) ?_
  · show (K : Int) + (t.val : Int) = (q.val : Int)
    omega
  · intro j hj
    have hj' := (row_lands' r k R K hr hk s q j).1 hj
    have e0 : j 0 = t := Fin.ext (by omega)
    exact (eq_ix1 j).trans (congrArg ix1 e0)

include hr hk in
/-- Elsewhere: what was there. -/
theorem row_off (h : ¬(s.val = R ∧ K ≤ q.val ∧ q.val < K + 64)) :
    Host.scatter scatter_S64x192_S2_S64_0_0_01_0 f x (pair r k) u (ix2 s q) = x (ix2 s q) := by
  refine Host.scatter_apply_of_miss _ f x _ u _ fun j hj => h ?_
  have hj' := (row_lands' r k R K hr hk s q j).1 hj
  have hlt : (j 0).val < 64 := (j 0).isLt
  omega

end RowWrite

/-! ## The padded tables -/

/-- The instrument table over zero rows: rows below 100 are the table's, the rest zero. -/
theorem tInst_apply (a : S100x64.Idx → EReal) (k : Fin 112) (e : Fin 64) :
    tInst a (ix2 k e) = if h : k.val < 100 then a (ix2 ⟨k.val, h⟩ e) else 0 := by
  unfold tInst
  have hl : ∀ j : S100x64.Idx, scatter_S112x64_S1_S100x64_01_n_0_0.resultIdx? j (word 0#32) = some (ix2 k e) ↔
      ((j 0).val : Int) = (k.val : Int) ∧ ((j 1).val : Int) = (e.val : Int) := by
    intro j
    rw [inst_lands, word_apply, toInt_0]
    constructor
    · rintro ⟨h0, h1⟩; exact ⟨by simpa using h0, h1⟩
    · rintro ⟨h0, h1⟩; exact ⟨by simpa using h0, h1⟩
  by_cases h : k.val < 100
  · rw [dif_pos h]
    refine Host.scatter_apply_of_once _ _ _ _ a _ (ix2 ⟨k.val, h⟩ e) ((hl _).2 ⟨rfl, rfl⟩) ?_
    intro j hj
    have hj' := (hl j).1 hj
    have e0 : j 0 = ⟨k.val, h⟩ := Fin.ext (by have := hj'.1; simp only []; omega)
    have e1 : j 1 = e := Fin.ext (by have := hj'.2; omega)
    exact (eq_ix2 j).trans (congrArg₂ ix2 e0 e1)
  · rw [dif_neg h, Host.scatter_apply_of_miss _ _ _ _ a _ (fun j hj => by
      have hj' := (hl j).1 hj
      have hlt : (j 0).val < 100 := (j 0).isLt
      omega)]
    exact zeros_apply _ _

/-- The style table over zero rows: rows below 50 are the table's, the rest zero. -/
theorem tStyle_apply (a : S50x128.Idx → EReal) (k : Fin 64) (e : Fin 128) :
    tStyle a (ix2 k e) = if h : k.val < 50 then a (ix2 ⟨k.val, h⟩ e) else 0 := by
  unfold tStyle
  have hl : ∀ j : S50x128.Idx, scatter_S64x128_S1_S50x128_01_n_0_0.resultIdx? j (word 0#32) = some (ix2 k e) ↔
      ((j 0).val : Int) = (k.val : Int) ∧ ((j 1).val : Int) = (e.val : Int) := by
    intro j
    rw [style_lands, word_apply, toInt_0]
    constructor
    · rintro ⟨h0, h1⟩; exact ⟨by simpa using h0, h1⟩
    · rintro ⟨h0, h1⟩; exact ⟨by simpa using h0, h1⟩
  by_cases h : k.val < 50
  · rw [dif_pos h]
    refine Host.scatter_apply_of_once _ _ _ _ a _ (ix2 ⟨k.val, h⟩ e) ((hl _).2 ⟨rfl, rfl⟩) ?_
    intro j hj
    have hj' := (hl j).1 hj
    have e0 : j 0 = ⟨k.val, h⟩ := Fin.ext (by have := hj'.1; simp only []; omega)
    have e1 : j 1 = e := Fin.ext (by have := hj'.2; omega)
    exact (eq_ix2 j).trans (congrArg₂ ix2 e0 e1)
  · rw [dif_neg h, Host.scatter_apply_of_miss _ _ _ _ a _ (fun j hj => by
      have hj' := (hl j).1 hj
      have hlt : (j 0).val < 50 := (j 0).isLt
      omega)]
    exact zeros_apply _ _

/-! ## The transposed column blocks of the projection matrix -/

theorem tW1_apply (a13 : S768x384.Idx → EReal) (e : Fin 64) (h : Fin 768) (he : e.val < 384) :
    tW1 a13 (ix2 e h) = a13 (ix2 h ⟨e.val, he⟩) := by
  unfold tW1
  rw [transpose_ix2_apply]
  exact slice2_axis1_apply 0 a13 _ h e ⟨e.val, he⟩ (by simp)

theorem tW2_apply (a13 : S768x384.Idx → EReal) (e : Fin 128) (h : Fin 768) (he : 64 + e.val < 384) :
    tW2 a13 (ix2 e h) = a13 (ix2 h ⟨64 + e.val, he⟩) := by
  unfold tW2
  rw [transpose_ix2_apply]
  exact slice2_axis1_apply 64 a13 _ h e ⟨64 + e.val, he⟩ rfl

theorem tW3_apply (a13 : S768x384.Idx → EReal) (e : Fin 192) (h : Fin 768) (he : 192 + e.val < 384) :
    tW3 a13 (ix2 e h) = a13 (ix2 h ⟨192 + e.val, he⟩) := by
  unfold tW3
  rw [transpose_ix2_apply]
  exact slice2_axis1_apply 192 a13 _ h e ⟨192 + e.val, he⟩ rfl

/-! ## The single one and the bias row -/

theorem tOne_apply (s : Fin 64) (e : Fin 8) : tOne (ix2 s e) = Spec.eOne s e := by
  unfold tOne Spec.eOne
  have hl : ∀ j : S_.Idx, scatter_S64x8_S2_S__n_01_01_0.resultIdx? j (pair 55#32 0#32) = some (ix2 s e) ↔
      ((55 : ℕ) : Int) = (s.val : Int) ∧ ((0 : ℕ) : Int) = (e.val : Int) := by
    intro j
    rw [cell_lands, pair_fst, pair_snd, toInt_55, toInt_0]
  by_cases h : s.val = 55 ∧ e.val = 0
  · rw [if_pos h]
    refine (Host.scatter_apply_of_once _ _ _ _ oneS _ ix0 ((hl _).2 ⟨by omega, by omega⟩)
      (fun j _ => funext fun a => a.elim0)).trans ?_
    exact oneS_apply _
  · rw [if_neg h, Host.scatter_apply_of_miss _ _ _ _ oneS _ (fun j hj => h (by
      have hj' := (hl j).1 hj
      omega))]
    exact zeros_apply _ _

theorem tBias_apply (a14 : S768.Idx → EReal) (e : Fin 8) (h : Fin 768) :
    tBias a14 (ix2 e h) = if e.val = 0 then a14 (ix1 h) else 0 := by
  unfold tBias
  have hl : ∀ j : S768.Idx, scatter_S8x768_S1_S768_0_0_0_0.resultIdx? j (word 0#32) = some (ix2 e h) ↔
      ((0 : ℕ) : Int) = (e.val : Int) ∧ ((j 0).val : Int) = (h.val : Int) := by
    intro j
    rw [brow_lands, word_apply, toInt_0]
  by_cases he : e.val = 0
  · rw [if_pos he]
    refine Host.scatter_apply_of_once _ _ _ _ a14 _ (ix1 h) ((hl _).2 ⟨by omega, rfl⟩) ?_
    intro j hj
    have hj' := (hl j).1 hj
    have e0 : j 0 = h := Fin.ext (by omega)
    exact (eq_ix1 j).trans (congrArg ix1 e0)
  · rw [if_neg he, Host.scatter_apply_of_miss _ _ _ _ a14 _ (fun j hj => he (by
      have hj' := (hl j).1 hj
      omega))]
    exact zeros_apply _ _

/-! ## The 64 × 192 matrix of the scalar weights and biases -/

/-- Rows 52, 53, 54 hold the tempo, pitch and duration weight vectors in columns 0–63, 64–127, 128–191; row 55 holds the
    three bias vectors side by side, each added onto zero; everything else is zero. -/
theorem tV39_apply (id : Fin 16384 → Fin 20 → Fin 100) (st : Fin 16384 → Fin 50)
    (a2 a3 a4 : S16384x1.Idx → EReal) (a5 : S100x64.Idx → EReal) (a6 : S50x128.Idx → EReal)
    (a7 : S64x1.Idx → EReal) (a8 : S64.Idx → EReal) (a9 : S64x1.Idx → EReal) (a10 : S64.Idx → EReal)
    (a11 : S64x1.Idx → EReal) (a12 : S64.Idx → EReal) (a13 : S768x384.Idx → EReal) (a14 : S768.Idx → EReal)
    (s : Fin 64) (q : Fin 192) :
    tV39 a7 a9 a11 a8 a10 a12 (ix2 s q) = Spec.v2 (Spec.ofArrays id st a2 a3 a4 a5 a6 a7 a8 a9 a10 a11 a12 a13 a14) s q := by
  unfold tV39 tV27 Spec.v2
  have hq := q.isLt
  by_cases h52 : s.val = 52
  · rw [row_off _ _ _ _ 55 128 toInt_55 toInt_128 _ s q (by omega),
      row_off _ _ _ _ 55 64 toInt_55 toInt_64 _ s q (by omega),
      row_off _ _ _ _ 55 0 toInt_55 toInt_0 _ s q (by omega),
      row_off _ _ _ _ 54 128 toInt_54 toInt_128 _ s q (by omega),
      row_off _ _ _ _ 53 64 toInt_53 toInt_64 _ s q (by omega), if_pos h52]
    by_cases hq1 : q.val < 64
    · rw [row_on _ _ _ _ 52 0 toInt_52 toInt_0 _ s q ⟨q.val, hq1⟩ (by omega) (by simp only []; omega), dif_pos hq1]
      exact shapeCast_col_apply a7 _ _
    · rw [row_off _ _ _ _ 52 0 toInt_52 toInt_0 _ s q (by omega), zeros_apply, dif_neg hq1]
  · rw [if_neg h52]
    by_cases h53 : s.val = 53
    · rw [row_off _ _ _ _ 55 128 toInt_55 toInt_128 _ s q (by omega),
      row_off _ _ _ _ 55 64 toInt_55 toInt_64 _ s q (by omega),
      row_off _ _ _ _ 55 0 toInt_55 toInt_0 _ s q (by omega),
      row_off _ _ _ _ 54 128 toInt_54 toInt_128 _ s q (by omega), if_pos h53]
      by_cases hq2 : 64 ≤ q.val ∧ q.val < 128
      · rw [row_on _ _ _ _ 53 64 toInt_53 toInt_64 _ s q ⟨q.val - 64, by omega⟩ (by omega) (by simp only []; omega), dif_pos hq2]
        exact shapeCast_col_apply a9 _ _
      · rw [row_off _ _ _ _ 53 64 toInt_53 toInt_64 _ s q (by omega),
      row_off _ _ _ _ 52 0 toInt_52 toInt_0 _ s q (by omega), zeros_apply, dif_neg hq2]
    · rw [if_neg h53]
      by_cases h54 : s.val = 54
      · rw [row_off _ _ _ _ 55 128 toInt_55 toInt_128 _ s q (by omega),
      row_off _ _ _ _ 55 64 toInt_55 toInt_64 _ s q (by omega),
      row_off _ _ _ _ 55 0 toInt_55 toInt_0 _ s q (by omega), if_pos h54]
        by_cases hq3 : 128 ≤ q.val
        · rw [row_on _ _ _ _ 54 128 toInt_54 toInt_128 _ s q ⟨q.val - 128, by omega⟩ (by omega) (by simp only []; omega), dif_pos hq3]
          exact shapeCast_col_apply a11 _ _
        · rw [row_off _ _ _ _ 54 128 toInt_54 toInt_128 _ s q (by omega),
      row_off _ _ _ _ 53 64 toInt_53 toInt_64 _ s q (by omega),
      row_off _ _ _ _ 52 0 toInt_52 toInt_0 _ s q (by omega), zeros_apply, dif_neg hq3]
      · rw [if_neg h54]
        by_cases h55 : s.val = 55
        · rw [if_pos h55]
          by_cases hq1 : q.val < 64
          · rw [row_off _ _ _ _ 55 128 toInt_55 toInt_128 _ s q (by omega),
      row_off _ _ _ _ 55 64 toInt_55 toInt_64 _ s q (by omega),
              row_on _ _ _ _ 55 0 toInt_55 toInt_0 _ s q ⟨q.val, hq1⟩ (by omega) (by simp only []; omega),
              row_off _ _ _ _ 54 128 toInt_54 toInt_128 _ s q (by omega),
      row_off _ _ _ _ 53 64 toInt_53 toInt_64 _ s q (by omega),
      row_off _ _ _ _ 52 0 toInt_52 toInt_0 _ s q (by omega), zeros_apply, dif_pos hq1]
            exact zero_add _
          · rw [dif_neg hq1]
            by_cases hq2 : q.val < 128
            · rw [row_off _ _ _ _ 55 128 toInt_55 toInt_128 _ s q (by omega),
                row_on _ _ _ _ 55 64 toInt_55 toInt_64 _ s q ⟨q.val - 64, by omega⟩ (by omega) (by simp only []; omega),
                row_off _ _ _ _ 55 0 toInt_55 toInt_0 _ s q (by omega),
      row_off _ _ _ _ 54 128 toInt_54 toInt_128 _ s q (by omega),
      row_off _ _ _ _ 53 64 toInt_53 toInt_64 _ s q (by omega),
      row_off _ _ _ _ 52 0 toInt_52 toInt_0 _ s q (by omega), zeros_apply, dif_pos hq2]
              exact zero_add _
            · rw [row_on _ _ _ _ 55 128 toInt_55 toInt_128 _ s q ⟨q.val - 128, by omega⟩ (by omega) (by simp only []; omega),
                row_off _ _ _ _ 55 64 toInt_55 toInt_64 _ s q (by omega),
      row_off _ _ _ _ 55 0 toInt_55 toInt_0 _ s q (by omega),
      row_off _ _ _ _ 54 128 toInt_54 toInt_128 _ s q (by omega),
      row_off _ _ _ _ 53 64 toInt_53 toInt_64 _ s q (by omega),
      row_off _ _ _ _ 52 0 toInt_52 toInt_0 _ s q (by omega), zeros_apply, dif_neg hq2]
              exact zero_add _
        · rw [if_neg h55, row_off _ _ _ _ 55 128 toInt_55 toInt_128 _ s q (by omega),
      row_off _ _ _ _ 55 64 toInt_55 toInt_64 _ s q (by omega),
      row_off _ _ _ _ 55 0 toInt_55 toInt_0 _ s q (by omega),
      row_off _ _ _ _ 54 128 toInt_54 toInt_128 _ s q (by omega),
      row_off _ _ _ _ 53 64 toInt_53 toInt_64 _ s q (by omega),
      row_off _ _ _ _ 52 0 toInt_52 toInt_0 _ s q (by omega), zeros_apply]

/-! ## The thirteen arrays the region stages, at an index -/

variable (m : (ℓ : Loc nD τ sig) → Buf (Elt Ideal) ℓ) (c : Dev nD)

/-- The instance the argument buffers hold at launch, the ids being given as numbers. -/
abbrev D (id : Fin 16384 → Fin 20 → Fin 100) (st : Fin 16384 → Fin 50) : Spec.Data :=
  Spec.ofArrays id st (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

variable (id : Fin 16384 → Fin 20 → Fin 100) (st : Fin 16384 → Fin 50)

/-- The ids, transposed: instrument slot first, batch row last. -/
theorem V_main_v48_apply (l : Fin 20) (b : Fin 16384) :
    (V m c main_v48 : S20x16384.Idx → BitVec 32) (ix2 l b) = (m ((c : Thread nD τ).loc main_arg0) : S16384x20.Idx → BitVec 32) (ix2 b l) :=
  (congrFun (e48 m c) _).trans (transpose_ix2_apply _ _ l b)

/-- The style ids as one row. -/
theorem V_main_v49_apply (b : Fin 16384) :
    (V m c main_v49 : S1x16384.Idx → BitVec 32) (ix2 (0 : Fin 1) b) = (m ((c : Thread nD τ).loc main_arg1) : S16384.Idx → BitVec 32) (ix1 b) :=
  (congrFun (e49 m c) _).trans (shapeCast_a_1a_apply _ _ 0 b)

/-- The tempo column as one row. -/
theorem V_main_v50_apply (b : Fin 16384) :
    (V m c main_v50 : S1x16384.Idx → EReal) (ix2 (0 : Fin 1) b) = (m ((c : Thread nD τ).loc main_arg2) : S16384x1.Idx → EReal) (ix2 b (0 : Fin 1)) :=
  (congrFun (e50 m c) _).trans (shapeCast_col_row_apply _ _ b)

/-- The pitch column as one row. -/
theorem V_main_v51_apply (b : Fin 16384) :
    (V m c main_v51 : S1x16384.Idx → EReal) (ix2 (0 : Fin 1) b) = (m ((c : Thread nD τ).loc main_arg3) : S16384x1.Idx → EReal) (ix2 b (0 : Fin 1)) :=
  (congrFun (e51 m c) _).trans (shapeCast_col_row_apply _ _ b)

/-- The duration column as one row. -/
theorem V_main_v52_apply (b : Fin 16384) :
    (V m c main_v52 : S1x16384.Idx → EReal) (ix2 (0 : Fin 1) b) = (m ((c : Thread nD τ).loc main_arg4) : S16384x1.Idx → EReal) (ix2 b (0 : Fin 1)) :=
  (congrFun (e52 m c) _).trans (shapeCast_col_row_apply _ _ b)

/-- The padded instrument table. -/
theorem V_main_v2_apply (k : Fin 112) (e : Fin 64) :
    (V m c main_v2 : S112x64.Idx → EReal) (ix2 k e) = Spec.instPad (D m c id st) k e :=
  (congrFun (e2 m c) _).trans (tInst_apply _ k e)

/-- The padded style table. -/
theorem V_main_v5_apply (s : Fin 64) (e : Fin 128) :
    (V m c main_v5 : S64x128.Idx → EReal) (ix2 s e) = Spec.stylePad (D m c id st) s e :=
  (congrFun (e5 m c) _).trans (tStyle_apply _ s e)

/-- Columns 0–63 of the projection matrix, transposed. -/
theorem V_main_v7_apply (e : Fin 64) (h : Fin 768) (he : e.val < 384) :
    (V m c main_v7 : S64x768.Idx → EReal) (ix2 e h) = (D m c id st).W h ⟨e.val, he⟩ :=
  (congrFun (e7 m c) _).trans (tW1_apply _ e h he)

/-- Columns 64–191 of the projection matrix, transposed. -/
theorem V_main_v9_apply (e : Fin 128) (h : Fin 768) (he : 64 + e.val < 384) :
    (V m c main_v9 : S128x768.Idx → EReal) (ix2 e h) = (D m c id st).W h ⟨64 + e.val, he⟩ :=
  (congrFun (e9 m c) _).trans (tW2_apply _ e h he)

/-- Columns 192–383 of the projection matrix, transposed. -/
theorem V_main_v11_apply (j : Fin 192) (h : Fin 768) (hj : 192 + j.val < 384) :
    (V m c main_v11 : S192x768.Idx → EReal) (ix2 j h) = (D m c id st).W h ⟨192 + j.val, hj⟩ :=
  (congrFun (e11 m c) _).trans (tW3_apply _ j h hj)

/-- The matrix of the scalar weights and biases. -/
theorem V_main_v39_apply (s : Fin 64) (j : Fin 192) :
    (V m c main_v39 : S64x192.Idx → EReal) (ix2 s j) = Spec.v2 (D m c id st) s j :=
  (congrFun (e39 m c) _).trans (tV39_apply id st (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) s j)

/-- The matrix with its single one. -/
theorem V_main_v44_apply (s : Fin 64) (e : Fin 8) :
    (V m c main_v44 : S64x8.Idx → EReal) (ix2 s e) = Spec.eOne s e :=
  (congrFun (e44 m c) _).trans (tOne_apply s e)

/-- The output bias as the first of eight rows. -/
theorem V_main_v47_apply (e : Fin 8) (h : Fin 768) :
    (V m c main_v47 : S8x768.Idx → EReal) (ix2 e h) = Spec.bp2 (D m c id st) e h :=
  (congrFun (e47 m c) _).trans (tBias_apply _ e h)

end Cert.KernelIdeal.HostValue

end
-- ==== Proof.KGlue.lean ====
/-
  The folded table of the arrays the region finds is the folded table of the mathematics.

  The first point folds eight arrays into the table: the padded instrument table against columns 0–63 of the
  projection (transposed), and the padded style table, the matrix of scalar weights and biases and the matrix with
  its single one against columns 64–191, columns 192–383 and the row holding the output bias. Each of the eight,
  read at an index, is the entry the mathematics names, so an entry of the table — a sum of products of such
  entries — is the mathematics' sum term by term: rows 0–111 are the first part of the folded table, rows 112–175
  the second.
-/
import proofs.«161131_g50268297232385_cont_8to1c4_788_18_alg».proof.Proof.KTable
import proofs.«161131_g50268297232385_cont_8to1c4_788_18_alg».proof.Proof.HostRead
import proofs.«161131_g50268297232385_cont_8to1c4_788_18_alg».proof.Proof.Spec

set_option maxRecDepth 16384

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.KernelIdeal.HostValue

variable (m : (ℓ : Loc nD τ sig) → Buf (Elt Ideal) ℓ) (c : Dev nD)
  (id : Fin 16384 → Fin 20 → Fin 100) (st : Fin 16384 → Fin 50)

/-- Rows 0–111: the first part of the folded table. -/
theorem table_host_top (k : Fin 112) (h : Fin 768) :
    table (V m c main_v2) (V m c main_v7) (V m c main_v5) (V m c main_v9) (V m c main_v39) (V m c main_v11)
        (V m c main_v44) (V m c main_v47) (ix2 (⟨k.val, by have := k.isLt; omega⟩ : Fin 176) h)
      = Cert.Spec.A1 (HostValue.D m c id st) k h := by
  rw [table_top]
  unfold Cert.Spec.A1
  exact Finset.sum_congr rfl fun d _ =>
    congrArg₂ (· * ·) (V_main_v2_apply m c id st k d) (V_main_v7_apply m c id st d h (by have := d.isLt; omega))

/-- Rows 112–175: the second part of the folded table. -/
theorem table_host_bot (s : Fin 64) (h : Fin 768) :
    table (V m c main_v2) (V m c main_v7) (V m c main_v5) (V m c main_v9) (V m c main_v39) (V m c main_v11)
        (V m c main_v44) (V m c main_v47) (ix2 (⟨112 + s.val, by have := s.isLt; omega⟩ : Fin 176) h)
      = Cert.Spec.A2 (HostValue.D m c id st) s h := by
  rw [table_bot]
  unfold Cert.Spec.A2
  exact congrArg₂ (· + ·)
    (congrArg₂ (· + ·)
      (Finset.sum_congr rfl fun d _ =>
        congrArg₂ (· * ·) (V_main_v5_apply m c id st s d) (V_main_v9_apply m c id st d h (by have := d.isLt; omega)))
      (Finset.sum_congr rfl fun j _ =>
        congrArg₂ (· * ·) (V_main_v39_apply m c id st s j) (V_main_v11_apply m c id st j h (by have := j.isLt; omega))))
    (Finset.sum_congr rfl fun e _ =>
      congrArg₂ (· * ·) (V_main_v44_apply m c s e) (V_main_v47_apply m c id st e h))

end Cert.KernelIdeal.Body

end
-- ==== Proof.KRunIdx.lean ====
/-
  Which entries of the arrays each grid point sees.

  The kernel runs on eight grid points. Eight of its input windows stage a whole array (the block is the array, at block
  index (0, 0) at every point); five are cut along the 16384 batch columns into eight blocks of 2048, point t taking
  columns 2048 t … 2048 t + 2047; the output is cut the same way along its 16384 rows. A block's entry at the
  coordinate y inside the block is the array's entry at (block index × block extent + y) on each axis.
-/
import proofs.«161131_g50268297232385_cont_8to1c4_788_18_alg».proof.Proof.KPoint
import proofs.«161131_g50268297232385_cont_8to1c4_788_18_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Value
open Idealize.ShloMosaic.ValueIdx

variable {F : FTy → Type} [FloatOps F]
variable (m : (ℓ : Loc nD τ sig) → Buf (Elt F) ℓ)

/-- The grid has eight points. -/
theorem N_eq : cfg0.N = 8 := N_0

/-- Column `r` of point `t`'s block of 2048 is column `2048 t + r` of the 16384. -/
theorem col_lt (t : Fin cfg0.N) (n : Nat) (h : n < 2048) : 2048 * t.val + n < 16384 := by
  have := t.isLt; have := N_eq; omega

/-- The printed index maps, decided once over the grid: the windows that stage a whole array sit at block (0, 0), the
    windows cut along the batch axis at block (0, t), the output window at block (t, 0). -/
theorem index_facts : ∀ t : Fin cfg0.N,
    ((win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0))
    ∧ ((win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val))
    ∧ (win0_13.index t (0 : Fin 2) = t.val ∧ win0_13.index t (1 : Fin 2) = 0) :=
  (by decide +kernel : ∀ t : Fin grid0.N, _)

/-! ## The windows that stage a whole array -/

theorem iblk5 (c : Dev nD) (t : Fin cfg0.N) : (iblk m c 5 t : Vec F S112x64 .f32) = V m c main_v2 := by
  obtain ⟨⟨⟨e0, e1⟩, -, -, -, -, -, -, -⟩, -, -⟩ := index_facts t
  funext y
  show V m c main_v2 (((cfg0.win 5).blk t).view.emb y) = V m c main_v2 y
  refine congrArg (V m c main_v2) ?_
  funext a
  apply Fin.ext
  match a with
  | ⟨0, _⟩ => show win0_5.index t (0 : Fin 2) * 112 + 1 * (y 0).val = (y 0).val; omega
  | ⟨1, _⟩ => show win0_5.index t (1 : Fin 2) * 64 + 1 * (y 1).val = (y 1).val; omega

theorem iblk6 (c : Dev nD) (t : Fin cfg0.N) : (iblk m c 6 t : Vec F S64x768 .f32) = V m c main_v7 := by
  obtain ⟨⟨-, ⟨e0, e1⟩, -, -, -, -, -, -⟩, -, -⟩ := index_facts t
  funext y
  show V m c main_v7 (((cfg0.win 6).blk t).view.emb y) = V m c main_v7 y
  refine congrArg (V m c main_v7) ?_
  funext a
  apply Fin.ext
  match a with
  | ⟨0, _⟩ => show win0_6.index t (0 : Fin 2) * 64 + 1 * (y 0).val = (y 0).val; omega
  | ⟨1, _⟩ => show win0_6.index t (1 : Fin 2) * 768 + 1 * (y 1).val = (y 1).val; omega

theorem iblk7 (c : Dev nD) (t : Fin cfg0.N) : (iblk m c 7 t : Vec F S64x128 .f32) = V m c main_v5 := by
  obtain ⟨⟨-, -, ⟨e0, e1⟩, -, -, -, -, -⟩, -, -⟩ := index_facts t
  funext y
  show V m c main_v5 (((cfg0.win 7).blk t).view.emb y) = V m c main_v5 y
  refine congrArg (V m c main_v5) ?_
  funext a
  apply Fin.ext
  match a with
  | ⟨0, _⟩ => show win0_7.index t (0 : Fin 2) * 64 + 1 * (y 0).val = (y 0).val; omega
  | ⟨1, _⟩ => show win0_7.index t (1 : Fin 2) * 128 + 1 * (y 1).val = (y 1).val; omega

theorem iblk8 (c : Dev nD) (t : Fin cfg0.N) : (iblk m c 8 t : Vec F S128x768 .f32) = V m c main_v9 := by
  obtain ⟨⟨-, -, -, ⟨e0, e1⟩, -, -, -, -⟩, -, -⟩ := index_facts t
  funext y
  show V m c main_v9 (((cfg0.win 8).blk t).view.emb y) = V m c main_v9 y
  refine congrArg (V m c main_v9) ?_
  funext a
  apply Fin.ext
  match a with
  | ⟨0, _⟩ => show win0_8.index t (0 : Fin 2) * 128 + 1 * (y 0).val = (y 0).val; omega
  | ⟨1, _⟩ => show win0_8.index t (1 : Fin 2) * 768 + 1 * (y 1).val = (y 1).val; omega

theorem iblk9 (c : Dev nD) (t : Fin cfg0.N) : (iblk m c 9 t : Vec F S64x192 .f32) = V m c main_v39 := by
  obtain ⟨⟨-, -, -, -, ⟨e0, e1⟩, -, -, -⟩, -, -⟩ := index_facts t
  funext y
  show V m c main_v39 (((cfg0.win 9).blk t).view.emb y) = V m c main_v39 y
  refine congrArg (V m c main_v39) ?_
  funext a
  apply Fin.ext
  match a with
  | ⟨0, _⟩ => show win0_9.index t (0 : Fin 2) * 64 + 1 * (y 0).val = (y 0).val; omega
  | ⟨1, _⟩ => show win0_9.index t (1 : Fin 2) * 192 + 1 * (y 1).val = (y 1).val; omega

theorem iblk10 (c : Dev nD) (t : Fin cfg0.N) : (iblk m c 10 t : Vec F S192x768 .f32) = V m c main_v11 := by
  obtain ⟨⟨-, -, -, -, -, ⟨e0, e1⟩, -, -⟩, -, -⟩ := index_facts t
  funext y
  show V m c main_v11 (((cfg0.win 10).blk t).view.emb y) = V m c main_v11 y
  refine congrArg (V m c main_v11) ?_
  funext a
  apply Fin.ext
  match a with
  | ⟨0, _⟩ => show win0_10.index t (0 : Fin 2) * 192 + 1 * (y 0).val = (y 0).val; omega
  | ⟨1, _⟩ => show win0_10.index t (1 : Fin 2) * 768 + 1 * (y 1).val = (y 1).val; omega

theorem iblk11 (c : Dev nD) (t : Fin cfg0.N) : (iblk m c 11 t : Vec F S64x8 .f32) = V m c main_v44 := by
  obtain ⟨⟨-, -, -, -, -, -, ⟨e0, e1⟩, -⟩, -, -⟩ := index_facts t
  funext y
  show V m c main_v44 (((cfg0.win 11).blk t).view.emb y) = V m c main_v44 y
  refine congrArg (V m c main_v44) ?_
  funext a
  apply Fin.ext
  match a with
  | ⟨0, _⟩ => show win0_11.index t (0 : Fin 2) * 64 + 1 * (y 0).val = (y 0).val; omega
  | ⟨1, _⟩ => show win0_11.index t (1 : Fin 2) * 8 + 1 * (y 1).val = (y 1).val; omega

theorem iblk12 (c : Dev nD) (t : Fin cfg0.N) : (iblk m c 12 t : Vec F S8x768 .f32) = V m c main_v47 := by
  obtain ⟨⟨-, -, -, -, -, -, -, ⟨e0, e1⟩⟩, -, -⟩ := index_facts t
  funext y
  show V m c main_v47 (((cfg0.win 12).blk t).view.emb y) = V m c main_v47 y
  refine congrArg (V m c main_v47) ?_
  funext a
  apply Fin.ext
  match a with
  | ⟨0, _⟩ => show win0_12.index t (0 : Fin 2) * 8 + 1 * (y 0).val = (y 0).val; omega
  | ⟨1, _⟩ => show win0_12.index t (1 : Fin 2) * 768 + 1 * (y 1).val = (y 1).val; omega

/-! ## The windows cut along the batch axis -/

theorem iblk0 (c : Dev nD) (t : Fin cfg0.N) (l : Fin 20) (r : Fin 2048) :
    (iblk m c 0 t : Vec F S20x2048 .i32) (ix2 l r) = V m c main_v48 (ix2 l ⟨2048 * t.val + r.val, col_lt t r.val r.isLt⟩) := by
  obtain ⟨-, ⟨⟨e0, e1⟩, -, -, -, -⟩, -⟩ := index_facts t
  show V m c main_v48 (((cfg0.win 0).blk t).view.emb (ix2 l r)) = V m c main_v48 (ix2 l ⟨2048 * t.val + r.val, col_lt t r.val r.isLt⟩)
  refine congrArg (V m c main_v48) ?_
  funext a
  apply Fin.ext
  match a with
  | ⟨0, _⟩ => show win0_0.index t (0 : Fin 2) * 20 + 1 * l.val = l.val; omega
  | ⟨1, _⟩ => show win0_0.index t (1 : Fin 2) * 2048 + 1 * r.val = 2048 * t.val + r.val; omega

theorem iblk1 (c : Dev nD) (t : Fin cfg0.N)  (r : Fin 2048) :
    (iblk m c 1 t : Vec F S1x2048 .i32) (ix2 (0 : Fin 1) r) = V m c main_v49 (ix2 (0 : Fin 1) ⟨2048 * t.val + r.val, col_lt t r.val r.isLt⟩) := by
  obtain ⟨-, ⟨-, ⟨e0, e1⟩, -, -, -⟩, -⟩ := index_facts t
  show V m c main_v49 (((cfg0.win 1).blk t).view.emb (ix2 (0 : Fin 1) r)) = V m c main_v49 (ix2 (0 : Fin 1) ⟨2048 * t.val + r.val, col_lt t r.val r.isLt⟩)
  refine congrArg (V m c main_v49) ?_
  funext a
  apply Fin.ext
  match a with
  | ⟨0, _⟩ => show win0_1.index t (0 : Fin 2) * 1 + 1 * 0 = 0; omega
  | ⟨1, _⟩ => show win0_1.index t (1 : Fin 2) * 2048 + 1 * r.val = 2048 * t.val + r.val; omega

theorem iblk2 (c : Dev nD) (t : Fin cfg0.N)  (r : Fin 2048) :
    (iblk m c 2 t : Vec F S1x2048 .f32) (ix2 (0 : Fin 1) r) = V m c main_v50 (ix2 (0 : Fin 1) ⟨2048 * t.val + r.val, col_lt t r.val r.isLt⟩) := by
  obtain ⟨-, ⟨-, -, ⟨e0, e1⟩, -, -⟩, -⟩ := index_facts t
  show V m c main_v50 (((cfg0.win 2).blk t).view.emb (ix2 (0 : Fin 1) r)) = V m c main_v50 (ix2 (0 : Fin 1) ⟨2048 * t.val + r.val, col_lt t r.val r.isLt⟩)
  refine congrArg (V m c main_v50) ?_
  funext a
  apply Fin.ext
  match a with
  | ⟨0, _⟩ => show win0_2.index t (0 : Fin 2) * 1 + 1 * 0 = 0; omega
  | ⟨1, _⟩ => show win0_2.index t (1 : Fin 2) * 2048 + 1 * r.val = 2048 * t.val + r.val; omega

theorem iblk3 (c : Dev nD) (t : Fin cfg0.N)  (r : Fin 2048) :
    (iblk m c 3 t : Vec F S1x2048 .f32) (ix2 (0 : Fin 1) r) = V m c main_v51 (ix2 (0 : Fin 1) ⟨2048 * t.val + r.val, col_lt t r.val r.isLt⟩) := by
  obtain ⟨-, ⟨-, -, -, ⟨e0, e1⟩, -⟩, -⟩ := index_facts t
  show V m c main_v51 (((cfg0.win 3).blk t).view.emb (ix2 (0 : Fin 1) r)) = V m c main_v51 (ix2 (0 : Fin 1) ⟨2048 * t.val + r.val, col_lt t r.val r.isLt⟩)
  refine congrArg (V m c main_v51) ?_
  funext a
  apply Fin.ext
  match a with
  | ⟨0, _⟩ => show win0_3.index t (0 : Fin 2) * 1 + 1 * 0 = 0; omega
  | ⟨1, _⟩ => show win0_3.index t (1 : Fin 2) * 2048 + 1 * r.val = 2048 * t.val + r.val; omega

theorem iblk4 (c : Dev nD) (t : Fin cfg0.N)  (r : Fin 2048) :
    (iblk m c 4 t : Vec F S1x2048 .f32) (ix2 (0 : Fin 1) r) = V m c main_v52 (ix2 (0 : Fin 1) ⟨2048 * t.val + r.val, col_lt t r.val r.isLt⟩) := by
  obtain ⟨-, ⟨-, -, -, -, ⟨e0, e1⟩⟩, -⟩ := index_facts t
  show V m c main_v52 (((cfg0.win 4).blk t).view.emb (ix2 (0 : Fin 1) r)) = V m c main_v52 (ix2 (0 : Fin 1) ⟨2048 * t.val + r.val, col_lt t r.val r.isLt⟩)
  refine congrArg (V m c main_v52) ?_
  funext a
  apply Fin.ext
  match a with
  | ⟨0, _⟩ => show win0_4.index t (0 : Fin 2) * 1 + 1 * 0 = 0; omega
  | ⟨1, _⟩ => show win0_4.index t (1 : Fin 2) * 2048 + 1 * r.val = 2048 * t.val + r.val; omega

end Cert.KernelIdeal.Body

end
-- ==== Proof.KRun.lean ====
/-
  From the grid points to the output array.

  The first grid point folds the 176 × 768 table from the eight whole arrays it stages and leaves it in the scratch
  buffer; every later point finds it there. So after any point the output block is the point's four quarters computed
  against that one table (induction on the point), and since the eight blocks of 2048 rows tile the 16384 rows of the
  output, a function of the output's index that agrees with every point's block is what the output array ends holding.
-/
import proofs.«161131_g50268297232385_cont_8to1c4_788_18_alg».proof.Proof.KPoint
import proofs.«161131_g50268297232385_cont_8to1c4_788_18_alg».proof.Proof.KRunIdx
import proofs.«161131_g50268297232385_cont_8to1c4_788_18_alg».proof.Proof.Gen.KernelIdeal.Value
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Value
open Idealize.ShloMosaic.ValueIdx

variable {F : FTy → Type} [FloatOps F]
variable (m : (ℓ : Loc nD τ sig) → Buf (Elt F) ℓ)

/-! ## The folded table and the induction over the grid points -/

/-- The folded table as a function of the eight staged arrays. -/
def tableOf (c : Dev nD) : Vec F S176x768 .bf16 :=
  table (V m c main_v2) (V m c main_v7) (V m c main_v5) (V m c main_v9) (V m c main_v39) (V m c main_v11) (V m c main_v44) (V m c main_v47)

/-- At every point the eight whole-array blocks are the arrays, so the table folded from them is the one table. -/
theorem table_at (c : Dev nD) (t : Fin cfg0.N) :
    table (iblk m c 5 t) (iblk m c 6 t) (iblk m c 7 t) (iblk m c 8 t) (iblk m c 9 t) (iblk m c 10 t) (iblk m c 11 t) (iblk m c 12 t) = tableOf m c := by
  unfold tableOf
  rw [iblk5 m c t, iblk6 m c t, iblk7 m c t, iblk8 m c t, iblk9 m c t, iblk10 m c t, iblk11 m c t, iblk12 m c t]

/-- The first point folds the table, stores it, and computes its output block against it. -/
theorem first_point (c : Dev nD) (t : Fin cfg0.N) (h0 : t.val % 8 = 0) :
    outsAt0 m c t.val t.isLt = (pointBlock (iblk m c 0 t) (iblk m c 1 t) (iblk m c 2 t) (iblk m c 3 t) (iblk m c 4 t) (tableOf m c), tableOf m c) := by
  rw [outsAt0_A m c t h0, Prod.mk.injEq]
  constructor
  · refine (out_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).trans ?_
    exact congrArg (pointBlock (iblk m c 0 t) (iblk m c 1 t) (iblk m c 2 t) (iblk m c 3 t) (iblk m c 4 t)) (table_at m c t)
  · refine (table_first (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).trans ?_
    exact table_at m c t

/-- A later point finds the table where the point before left it, computes its output block against it and leaves it. -/
theorem later_point (c : Dev nD) (t : Fin cfg0.N) (h0 : ¬t.val % 8 = 0)
    (ih : (outsAt0 m c (t.val - 1) (Nat.lt_of_le_of_lt (Nat.sub_le _ _) t.isLt)).2 = tableOf m c) :
    outsAt0 m c t.val t.isLt = (pointBlock (iblk m c 0 t) (iblk m c 1 t) (iblk m c 2 t) (iblk m c 3 t) (iblk m c 4 t) (tableOf m c), tableOf m c) := by
  rw [outsAt0_B m c t h0, ih, Prod.mk.injEq]
  constructor
  · exact out_later (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (tableOf m c)
  · first | (unfold sout0_B_0; done) | (unfold sout0_B_0; rfl)

/-- After every point the output block is the point's four quarters against the one table, and the scratch holds that
    table; by induction on the point. -/
theorem point_inv (c : Dev nD) : ∀ (n : ℕ) (hn : n < cfg0.N),
    outsAt0 m c n hn = (pointBlock (iblk m c 0 ⟨n, hn⟩) (iblk m c 1 ⟨n, hn⟩) (iblk m c 2 ⟨n, hn⟩) (iblk m c 3 ⟨n, hn⟩) (iblk m c 4 ⟨n, hn⟩) (tableOf m c), tableOf m c)
  | 0, hn => first_point m c ⟨0, hn⟩ (Nat.zero_mod 8)
  | k + 1, hn => later_point m c ⟨k + 1, hn⟩ (by show ¬(k + 1) % 8 = 0; have := N_eq; omega)
      (by show (outsAt0 m c k (Nat.lt_of_succ_lt hn)).2 = tableOf m c
          rw [point_inv c k (Nat.lt_of_succ_lt hn)])

/-- The output block after point `t`. -/
theorem block_at (c : Dev nD) (t : Fin cfg0.N) :
    (outsAt0 m c t.val t.isLt).1 = pointBlock (iblk m c 0 t) (iblk m c 1 t) (iblk m c 2 t) (iblk m c 3 t) (iblk m c 4 t) (tableOf m c) := by
  rw [point_inv m c t.val t.isLt]

/-- The scratch after point `t`. -/
theorem scratch_at (c : Dev nD) (t : Fin cfg0.N) : (outsAt0 m c t.val t.isLt).2 = tableOf m c := by
  rw [point_inv m c t.val t.isLt]

/-! ## From the eight blocks to the array -/

/-- The entry of the output at coordinate `y` of point `t`'s block is the output's entry at row `2048 t + y₀`,
    column `y₁`. -/
theorem out_emb (t : Fin cfg0.N) (y : S2048x768.Idx) :
    ((cfg0.win 13).blk t).view.emb y = ix2 ⟨2048 * t.val + (y 0).val, col_lt t (y 0).val (idx2_lt0 y)⟩ (y 1) := by
  obtain ⟨-, -, ⟨e0, e1⟩⟩ := index_facts t
  funext a
  apply Fin.ext
  match a with
  | ⟨0, _⟩ => show win0_13.index t (0 : Fin 2) * 2048 + 1 * (y 0).val = 2048 * t.val + (y 0).val; omega
  | ⟨1, _⟩ => show win0_13.index t (1 : Fin 2) * 768 + 1 * (y 1).val = (y 1).val; omega

/-- An index of the output is in point `t`'s block iff each coordinate is in the block's range on its axis. -/
theorem mem_out_blk (t : Fin cfg0.N) (i : S16384x768.Idx) :
    i ∈ ((cfg0.win 13).blk t).view.set ↔ ∀ a : Fin 2, win0_13.index t a * S2048x768.size a ≤ (i a).val ∧ (i a).val < win0_13.index t a * S2048x768.size a + S2048x768.size a := by
  show i ∈ ((View.whole main_v53).slice (win0_13.rect t)).set ↔ _
  rw [View.set_slice_whole, Rect.mem_set_unit]
  exact Iff.rfl

/-- Every row of the output is in the block of the point its 2048-row band belongs to. -/
theorem out_cover (i : S16384x768.Idx) : ∃ t : Fin cfg0.N, (cfg0.win 13).flush t = true ∧ i ∈ ((cfg0.win 13).blk t).view.set := by
  have hi0 : (i 0).val < 16384 := idx2_lt0 i
  have hi1 : (i 1).val < 768 := idx2_lt1 i
  have hN := N_eq
  refine ⟨⟨(i 0).val / 2048, by omega⟩, flush0_13 _, ?_⟩
  obtain ⟨-, -, ⟨e0, e1⟩⟩ := index_facts (⟨(i 0).val / 2048, by omega⟩ : Fin cfg0.N)
  rw [mem_out_blk]
  intro a
  match a with
  | ⟨0, _⟩ =>
    show win0_13.index _ (0 : Fin 2) * 2048 ≤ (i 0).val ∧ (i 0).val < win0_13.index _ (0 : Fin 2) * 2048 + 2048
    rw [e0]; show (i 0).val / 2048 * 2048 ≤ (i 0).val ∧ (i 0).val < (i 0).val / 2048 * 2048 + 2048; omega
  | ⟨1, _⟩ =>
    show win0_13.index _ (1 : Fin 2) * 768 ≤ (i 1).val ∧ (i 1).val < win0_13.index _ (1 : Fin 2) * 768 + 768
    rw [e1]; omega

/-- What point `t` writes back is its output block. -/
theorem flushed_at (c : Dev nD) (t : Fin cfg0.N) :
    (dats m 0 c).flushed 13 t = (cfg0.win 13).cut (grid0.coords t) (pointBlock (iblk m c 0 t) (iblk m c 1 t) (iblk m c 2 t) (iblk m c 3 t) (iblk m c 4 t) (tableOf m c)) := by
  rw [flushed13 m c t, block_at m c t]

/-- BLOCKS TO THE ARRAY. If a function `G` of the output's index agrees with every point's block, read at the block's
    rows, the output array ends holding `G`. -/
theorem array_eq (c : Dev nD) (G : S16384x768.Idx → Elt F .f32)
    (hG : ∀ (t : Fin cfg0.N) (y : S2048x768.Idx),
      pointBlock (iblk m c 0 t) (iblk m c 1 t) (iblk m c 2 t) (iblk m c 3 t) (iblk m c 4 t) (tableOf m c) y = G (ix2 ⟨2048 * t.val + (y 0).val, col_lt t (y 0).val (idx2_lt0 y)⟩ (y 1))) :
    (dats m 0 c).arrAt 13 cfg0.N = G := by
  refine (dats m 0 c).arrAt_eq_of_cover 13 G (fun t _ => ?_) out_cover
  rw [flushed_at m c t]
  funext y
  show pointBlock (iblk m c 0 t) (iblk m c 1 t) (iblk m c 2 t) (iblk m c 3 t) (iblk m c 4 t) (tableOf m c) y = G (((cfg0.win 13).blk t).view.emb y)
  exact (hG t y).trans (congrArg G (out_emb t y).symm)

end Cert.KernelIdeal.Body

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibCountSum.lean ====
/-
  Finite sums regrouped: splitting a sum over an initial segment of the naturals into consecutive blocks,
  picking the one live term of a sum of indicator terms, and the counting identity

    ∑ k, (number of l with i l = k) · a k  =  ∑ l, a (i l)

  together with its consequence for a product of a padded table with a weight vector. The statements that
  mention extended reals are about images of REAL numbers only: there the image of a sum is the sum of the
  images and of a product the product of the images, so each identity is its real counterpart read on the
  extended reals.
-/
import Mathlib.Data.EReal.Basic
import Mathlib.Data.EReal.Operations
import Mathlib.Algebra.BigOperators.Fin
import Mathlib.Algebra.BigOperators.Ring.Finset
import Mathlib.Algebra.BigOperators.Group.Finset.Sigma
import proofs.«161131_g50268297232385_cont_8to1c4_788_18_alg».proof.Proof.LibSumSwap

open scoped BigOperators

namespace CountSum

/-! ## Blocks -/

/-- A sum over `Fin c` with `c = a + b` is the sum over the first `a` indices plus the sum over the last `b`. -/
theorem sum_fin_split {M : Type*} [AddCommMonoid M] (a b c : ℕ) (hc : c = a + b) (f : Fin c → M) :
    ∑ j, f j = (∑ j : Fin a, f ⟨j.val, by have := j.isLt; omega⟩)
      + ∑ j : Fin b, f ⟨a + j.val, by have := j.isLt; omega⟩ := by
  subst hc
  rw [Fin.sum_univ_add]
  rfl

/-- 192 = 64 + 64 + 64. -/
theorem sum_fin192_three {M : Type*} [AddCommMonoid M] (f : Fin 192 → M) :
    ∑ j, f j = (∑ j : Fin 64, f ⟨j.val, by have := j.isLt; omega⟩)
      + (∑ j : Fin 64, f ⟨64 + j.val, by have := j.isLt; omega⟩)
      + (∑ j : Fin 64, f ⟨128 + j.val, by have := j.isLt; omega⟩) := by
  rw [sum_fin_split 64 128 192 rfl f,
    sum_fin_split 64 64 128 rfl (fun j : Fin 128 => f ⟨64 + j.val, by have := j.isLt; omega⟩), add_assoc]
  congr 2

/-- 384 = 64 + 128 + 64 + 64 + 64. -/
theorem sum_fin384_five {M : Type*} [AddCommMonoid M] (f : Fin 384 → M) :
    ∑ j, f j = (∑ j : Fin 64, f ⟨j.val, by have := j.isLt; omega⟩)
      + (∑ j : Fin 128, f ⟨64 + j.val, by have := j.isLt; omega⟩)
      + (∑ j : Fin 64, f ⟨192 + j.val, by have := j.isLt; omega⟩)
      + (∑ j : Fin 64, f ⟨256 + j.val, by have := j.isLt; omega⟩)
      + (∑ j : Fin 64, f ⟨320 + j.val, by have := j.isLt; omega⟩) := by
  rw [sum_fin_split 64 320 384 rfl f,
    sum_fin_split 128 192 320 rfl (fun j : Fin 320 => f ⟨64 + j.val, by have := j.isLt; omega⟩),
    sum_fin192_three (fun j : Fin 192 => f ⟨64 + (128 + j.val), by have := j.isLt; omega⟩)]
  simp only [← add_assoc]

/-! ## One live term -/

/-- Of the terms `if s = n then G s else 0` only the one at `n` is alive. -/
theorem sum_ite_val_eq {N : ℕ} {M : Type*} [AddCommMonoid M] (n : ℕ) (hn : n < N) (G : Fin N → M) :
    ∑ s : Fin N, (if s.val = n then G s else 0) = G ⟨n, hn⟩ := by
  rw [Finset.sum_eq_single (⟨n, hn⟩ : Fin N)]
  · simp
  · intro s _ hs
    have : s.val ≠ n := fun e => hs (Fin.ext e)
    simp [this]
  · simp

/-- The same with the equation turned around. -/
theorem sum_ite_eq_val {N : ℕ} {M : Type*} [AddCommMonoid M] (n : ℕ) (hn : n < N) (G : Fin N → M) :
    ∑ s : Fin N, (if n = s.val then G s else 0) = G ⟨n, hn⟩ := by
  rw [← sum_ite_val_eq n hn G]
  exact Finset.sum_congr rfl fun s _ => by simp only [eq_comm]

/-! ## Counting -/

/-- Weighting `a k` by how often `k` occurs among the `i l` and summing over `k` is summing `a (i l)` over `l`. -/
theorem count_sum (i : Fin 20 → Fin 100) (a : Fin 112 → ℝ) :
    ∑ k : Fin 112, ((Finset.univ.filter fun l : Fin 20 => (i l).val = k.val).card : ℝ) * a k
      = ∑ l : Fin 20, a ⟨(i l).val, by have := (i l).isLt; omega⟩ := by
  have h1 : ∀ k : Fin 112, ((Finset.univ.filter fun l : Fin 20 => (i l).val = k.val).card : ℝ) * a k
      = ∑ l : Fin 20, (if (i l).val = k.val then a k else 0) := fun k => by
    rw [Finset.card_filter, Nat.cast_sum, Finset.sum_mul]
    exact Finset.sum_congr rfl fun l _ => by split_ifs <;> simp
  simp only [h1]
  rw [Finset.sum_comm]
  exact Finset.sum_congr rfl fun l _ => sum_ite_eq_val (i l).val (by have := (i l).isLt; omega) a

/-- The counts against a zero-padded table times a weight vector: the sum over the ids of the table rows, times the
    weights. Real numbers, read on the extended reals. -/
theorem count_fold (i : Fin 20 → Fin 100) (T : Fin 100 → Fin 64 → ℝ) (w : Fin 64 → ℝ) :
    ∑ k : Fin 112, (((Finset.univ.filter fun l : Fin 20 => (i l).val = k.val).card : ℝ) : EReal)
        * ∑ d : Fin 64, (if h : k.val < 100 then (T ⟨k.val, h⟩ d : EReal) else 0) * (w d : EReal)
      = ∑ d : Fin 64, (∑ l : Fin 20, (T (i l) d : EReal)) * (w d : EReal) := by
  have hp : ∀ (k : Fin 112) (d : Fin 64), (if h : k.val < 100 then (T ⟨k.val, h⟩ d : EReal) else 0)
      = ((if h : k.val < 100 then T ⟨k.val, h⟩ d else 0 : ℝ) : EReal) := fun k d => by
    split_ifs <;> simp
  simp only [hp, ← EReal.coe_mul, ← SumSwap.coe_sum]
  congr 1
  rw [count_sum i (fun k => ∑ d : Fin 64, (if h : k.val < 100 then T ⟨k.val, h⟩ d else 0) * w d), Finset.sum_comm]
  refine Finset.sum_congr rfl fun d _ => ?_
  rw [Finset.sum_mul]
  refine Finset.sum_congr rfl fun l _ => ?_
  rw [dif_pos (i l).isLt]

/-- A scalar times a weighted sum plus a second weighted sum, as one weighted sum of affine terms. Real numbers,
    read on the extended reals. -/
theorem affine_fold (x : ℝ) (w c u : Fin 64 → ℝ) :
    (x : EReal) * (∑ j : Fin 64, (w j : EReal) * (u j : EReal)) + ∑ j : Fin 64, (c j : EReal) * (u j : EReal)
      = ∑ j : Fin 64, ((x : EReal) * (w j : EReal) + (c j : EReal)) * (u j : EReal) := by
  simp only [← EReal.coe_mul, ← EReal.coe_add, ← SumSwap.coe_sum]
  congr 1
  rw [Finset.mul_sum, ← Finset.sum_add_distrib]
  exact Finset.sum_congr rfl fun j _ => by ring

end CountSum
-- ==== Proof.Algebra1.lean ====
/-
  The folded table, row by row, and the encoder's sum, block by block — the part of the comparison that holds for
  arbitrary extended reals, because it only uses that zero annihilates, one is neutral and sums may be regrouped.

  The second part of the sparse row has at most five live entries: the style id (below 50), the three scalars at
  52, 53, 54 and the constant one at 55. Row `s < 50` of the folded table is the style row against columns 64–191
  of the projection; rows 52, 53, 54 are the three weight vectors against columns 192–255, 256–319, 320–383; row 55
  is the three bias vectors against the same three blocks, plus the output bias.
-/
import proofs.«161131_g50268297232385_cont_8to1c4_788_18_alg».proof.Proof.Spec
import proofs.«161131_g50268297232385_cont_8to1c4_788_18_alg».proof.Proof.LibCountSum

noncomputable section

namespace Cert.Spec

open CountSum

/-! ## The live entries of the second part of the sparse row -/

/-- Against any column `F`, the second part of the sparse row picks the style row, the three scalar rows scaled by
    the scalars, and row 55. -/
theorem m2_sum (D : Data) (b : Fin 16384) (F : Fin 64 → EReal) :
    ∑ s : Fin 64, m2 D b s * F s
      = F ⟨(D.st b).val, by have := (D.st b).isLt; omega⟩ + D.tempo b * F ⟨52, by norm_num⟩
        + D.pitch b * F ⟨53, by norm_num⟩ + D.dur b * F ⟨54, by norm_num⟩ + F ⟨55, by norm_num⟩ := by
  have hst := (D.st b).isLt
  have key : ∀ s : Fin 64, m2 D b s * F s
      = (if (D.st b).val = s.val then F s else 0) + (if s.val = 52 then D.tempo b * F s else 0)
        + (if s.val = 53 then D.pitch b * F s else 0) + (if s.val = 54 then D.dur b * F s else 0)
        + (if s.val = 55 then F s else 0) := fun s => by
    unfold m2
    split_ifs <;> first | omega | simp
  simp only [key, Finset.sum_add_distrib]
  rw [sum_ite_eq_val (D.st b).val (by omega) F, sum_ite_val_eq 52 (by norm_num) (fun s => D.tempo b * F s),
    sum_ite_val_eq 53 (by norm_num) (fun s => D.pitch b * F s),
    sum_ite_val_eq 54 (by norm_num) (fun s => D.dur b * F s), sum_ite_val_eq 55 (by norm_num) F]

/-! ## The rows of the folded table -/

/-- The style row. -/
theorem A2_style (D : Data) (b : Fin 16384) (h : Fin 768) :
    A2 D ⟨(D.st b).val, by have := (D.st b).isLt; omega⟩ h
      = ∑ d : Fin 128, D.S (D.st b) d * D.W h ⟨64 + d.val, by have := d.isLt; omega⟩ := by
  have hst := (D.st b).isLt
  have n52 : (D.st b).val ≠ 52 := by omega
  have n53 : (D.st b).val ≠ 53 := by omega
  have n54 : (D.st b).val ≠ 54 := by omega
  have n55 : (D.st b).val ≠ 55 := by omega
  simp [A2, stylePad, v2, eOne, hst, n52, n53, n54, n55]

/-- The one live entry of the constant column: at row 55 it reads the output bias. -/
theorem eOne_55 (D : Data) (h : Fin 768) : ∑ e : Fin 8, eOne ⟨55, by norm_num⟩ e * bp2 D e h = D.bproj h := by
  have key : ∀ e : Fin 8, eOne ⟨55, by norm_num⟩ e * bp2 D e h = if e.val = 0 then D.bproj h else 0 := fun e => by
    unfold eOne bp2
    split_ifs <;> simp_all
  simp only [key]
  exact sum_ite_val_eq 0 (by norm_num) (fun _ => D.bproj h)

/-- Row 52: the tempo weights against columns 192–255. -/
theorem A2_52 (D : Data) (h : Fin 768) :
    A2 D ⟨52, by norm_num⟩ h = ∑ j : Fin 64, D.Wt j * D.W h ⟨192 + j.val, by have := j.isLt; omega⟩ := by
  have hn : ∀ j : Fin 64, ¬ (64 + j.val < 64) := fun j => by omega
  have hn2 : ∀ j : Fin 64, ¬ (128 + j.val < 64) := fun j => by omega
  unfold A2
  rw [sum_fin192_three]
  simp [stylePad, v2, eOne, hn, hn2]

/-- Row 53: the pitch weights against columns 256–319. -/
theorem A2_53 (D : Data) (h : Fin 768) :
    A2 D ⟨53, by norm_num⟩ h = ∑ j : Fin 64, D.Wp j * D.W h ⟨256 + j.val, by have := j.isLt; omega⟩ := by
  have hn : ∀ j : Fin 64, ¬ (64 ≤ j.val) := fun j => by have := j.isLt; omega
  have hn2 : ∀ j : Fin 64, ¬ (128 + j.val < 128) := fun j => by omega
  have hp : ∀ j : Fin 64, 64 + j.val < 128 := fun j => by have := j.isLt; omega
  unfold A2
  rw [sum_fin192_three]
  simp [stylePad, v2, eOne, hn, hn2, hp]
  simp only [← Nat.add_assoc]

/-- Row 54: the duration weights against columns 320–383. -/
theorem A2_54 (D : Data) (h : Fin 768) :
    A2 D ⟨54, by norm_num⟩ h = ∑ j : Fin 64, D.Wd j * D.W h ⟨320 + j.val, by have := j.isLt; omega⟩ := by
  have hn : ∀ j : Fin 64, ¬ (128 ≤ j.val) := fun j => by have := j.isLt; omega
  have hn2 : ∀ j : Fin 64, ¬ (128 ≤ 64 + j.val) := fun j => by have := j.isLt; omega
  unfold A2
  rw [sum_fin192_three]
  simp [stylePad, v2, eOne, hn, hn2]
  exact Finset.sum_congr rfl fun j _ => by congr 2; exact Fin.ext (by first | omega | (simp only []; omega))

/-- Row 55: the three bias vectors against the three scalar blocks, plus the output bias. -/
theorem A2_55 (D : Data) (h : Fin 768) :
    A2 D ⟨55, by norm_num⟩ h
      = ((∑ j : Fin 64, D.bt j * D.W h ⟨192 + j.val, by have := j.isLt; omega⟩)
          + (∑ j : Fin 64, D.bp j * D.W h ⟨256 + j.val, by have := j.isLt; omega⟩)
          + (∑ j : Fin 64, D.bd j * D.W h ⟨320 + j.val, by have := j.isLt; omega⟩))
        + D.bproj h := by
  have hn : ∀ j : Fin 64, ¬ (64 + j.val < 64) := fun j => by omega
  have hn2 : ∀ j : Fin 64, ¬ (128 + j.val < 64) := fun j => by omega
  have hn3 : ∀ j : Fin 64, ¬ (128 + j.val < 128) := fun j => by omega
  have hp : ∀ j : Fin 64, 64 + j.val < 128 := fun j => by have := j.isLt; omega
  unfold A2
  rw [sum_fin192_three, eOne_55]
  simp [stylePad, v2, hn, hn2, hn3, hp]
  simp only [← Nat.add_assoc]

end Cert.Spec

end
-- ==== Proof.Algebra2.lean ====
/-
  The encoder's sum, block by block. The combined row of 384 numbers is five pieces side by side, so the sum against
  a row of the projection is the sum of five sums, in each of which the case distinction that defines the combined
  row has been decided: columns 0–63 carry the summed instrument embeddings, 64–191 the style embedding, and the
  three blocks of 64 from 192 on the three scalar maps.
-/
import proofs.«161131_g50268297232385_cont_8to1c4_788_18_alg».proof.Proof.Spec
import proofs.«161131_g50268297232385_cont_8to1c4_788_18_alg».proof.Proof.LibCountSum

noncomputable section

namespace Cert.Spec

open CountSum

/-- Columns 0–63: the summed instrument embeddings. -/
theorem comb_0 (D : Data) (b : Fin 16384) (j : Fin 64) :
    comb D b ⟨j.val, by have := j.isLt; omega⟩ = ∑ l : Fin 20, D.T (D.id b l) j := by
  simp [comb]

/-- Columns 64–191: the style embedding. -/
theorem comb_64 (D : Data) (b : Fin 16384) (j : Fin 128) :
    comb D b ⟨64 + j.val, by have := j.isLt; omega⟩ = D.S (D.st b) j := by
  have h1 : ¬ (64 + j.val < 64) := by omega
  have h2 : 64 + j.val < 192 := by have := j.isLt; omega
  simp [comb, h1, h2]

/-- Columns 192–255: the tempo map. -/
theorem comb_192 (D : Data) (b : Fin 16384) (j : Fin 64) :
    comb D b ⟨192 + j.val, by have := j.isLt; omega⟩ = D.tempo b * D.Wt j + D.bt j := by
  have h1 : ¬ (192 + j.val < 64) := by omega
  have h2 : ¬ (192 + j.val < 192) := by omega
  have h3 : 192 + j.val < 256 := by have := j.isLt; omega
  simp [comb, h1, h2, h3]

/-- Columns 256–319: the pitch map. -/
theorem comb_256 (D : Data) (b : Fin 16384) (j : Fin 64) :
    comb D b ⟨256 + j.val, by have := j.isLt; omega⟩ = D.pitch b * D.Wp j + D.bp j := by
  have h1 : ¬ (256 + j.val < 64) := by omega
  have h2 : ¬ (256 + j.val < 192) := by omega
  have h3 : ¬ (256 + j.val < 256) := by omega
  have h4 : 256 + j.val < 320 := by have := j.isLt; omega
  simp [comb, h1, h2, h3, h4]

/-- Columns 320–383: the duration map. -/
theorem comb_320 (D : Data) (b : Fin 16384) (j : Fin 64) :
    comb D b ⟨320 + j.val, by have := j.isLt; omega⟩ = D.dur b * D.Wd j + D.bd j := by
  have h1 : ¬ (320 + j.val < 64) := by omega
  have h2 : ¬ (320 + j.val < 192) := by omega
  have h3 : ¬ (320 + j.val < 256) := by omega
  have h4 : ¬ (320 + j.val < 320) := by omega
  simp [comb, h1, h2, h3, h4]

/-- The encoder's output as five block sums plus the output bias. -/
theorem R_split (D : Data) (b : Fin 16384) (h : Fin 768) :
    R D b h
      = ((∑ d : Fin 64, (∑ l : Fin 20, D.T (D.id b l) d) * D.W h ⟨d.val, by have := d.isLt; omega⟩)
          + (∑ d : Fin 128, D.S (D.st b) d * D.W h ⟨64 + d.val, by have := d.isLt; omega⟩)
          + (∑ j : Fin 64, (D.tempo b * D.Wt j + D.bt j) * D.W h ⟨192 + j.val, by have := j.isLt; omega⟩)
          + (∑ j : Fin 64, (D.pitch b * D.Wp j + D.bp j) * D.W h ⟨256 + j.val, by have := j.isLt; omega⟩)
          + (∑ j : Fin 64, (D.dur b * D.Wd j + D.bd j) * D.W h ⟨320 + j.val, by have := j.isLt; omega⟩))
        + D.bproj h := by
  unfold R
  rw [sum_fin384_five]
  simp only [comb_0, comb_64, comb_192, comb_256, comb_320]

end Cert.Spec

end
-- ==== Proof.Algebra.lean ====
/-
  The folded form equals the encoder as written, on finite data.

  Both sides have been brought to sums over the same blocks: the folded form is the instrument counts against the
  first 112 rows of the folded table, plus the style row, plus each scalar times its weight row, plus the bias row;
  the encoder is five block sums plus the output bias. Two steps use that the numbers are real, because they use
  distributivity, which fails at infinities: the counts against the padded instrument table are the summed
  embeddings (counting how often an id occurs and weighting by it is summing over the occurrences), and a scalar
  times a weighted sum plus a weighted sum of biases is one weighted sum of affine terms. The rest is regrouping a
  sum of nine terms.
-/
import proofs.«161131_g50268297232385_cont_8to1c4_788_18_alg».proof.Proof.Algebra1
import proofs.«161131_g50268297232385_cont_8to1c4_788_18_alg».proof.Proof.Algebra2

noncomputable section

namespace Cert.Spec

open CountSum

/-- The instrument counts against the first part of the folded table are the summed instrument embeddings against
    columns 0–63 of the projection, when the table and the projection are real. -/
theorem count_part (D : Data) (hD : D.Finite) (b : Fin 16384) (h : Fin 768) :
    ∑ k : Fin 112, cnt D b k * A1 D k h
      = ∑ d : Fin 64, (∑ l : Fin 20, D.T (D.id b l) d) * D.W h ⟨d.val, by have := d.isLt; omega⟩ := by
  choose T hT using hD.T
  choose W hW using hD.W
  unfold cnt A1 instPad
  simp only [hT, hW]
  exact count_fold (D.id b) T (fun d => W h ⟨d.val, by have := d.isLt; omega⟩)

/-- One scalar block: the scalar times its weight row plus the bias row is the block sum of the affine terms, when
    the numbers are real. -/
theorem affine_part (x : EReal) (w c : Fin 64 → EReal) (u : Fin 64 → EReal) (hx : IsReal x)
    (hw : ∀ j, IsReal (w j)) (hc : ∀ j, IsReal (c j)) (hu : ∀ j, IsReal (u j)) :
    x * (∑ j : Fin 64, w j * u j) + ∑ j : Fin 64, c j * u j = ∑ j : Fin 64, (x * w j + c j) * u j := by
  obtain ⟨x', rfl⟩ := hx
  choose w' hw' using hw
  choose c' hc' using hc
  choose u' hu' using hu
  simp only [hw', hc', hu']
  exact affine_fold x' w' c' u'

/-- The folded form and the encoder as written are one function on finite data. -/
theorem K_eq_R (D : Data) (hD : D.Finite) (b : Fin 16384) (h : Fin 768) : K D b h = R D b h := by
  rw [R_split]
  unfold K
  rw [m2_sum, A2_style, A2_52, A2_53, A2_54, A2_55, count_part D hD]
  rw [← affine_part (D.tempo b) D.Wt D.bt (fun j => D.W h ⟨192 + j.val, by have := j.isLt; omega⟩)
      (hD.tempo b) hD.Wt hD.bt (fun j => hD.W h _),
    ← affine_part (D.pitch b) D.Wp D.bp (fun j => D.W h ⟨256 + j.val, by have := j.isLt; omega⟩)
      (hD.pitch b) hD.Wp hD.bp (fun j => hD.W h _),
    ← affine_part (D.dur b) D.Wd D.bd (fun j => D.W h ⟨320 + j.val, by have := j.isLt; omega⟩)
      (hD.dur b) hD.Wd hD.bd (fun j => hD.W h _)]
  abel

end Cert.Spec

end
-- ==== Proof.PreDecode.lean ====
/-
  The precondition, read back as facts about the numbers.

  The precondition is a conjunction of fifteen tests, each a conjunction over every entry of one argument array:
  thirteen say |x| < +∞ of a float entry, two say 0 ≤ k < n of an integer entry read signed (n = 100 for the
  instrument ids, n = 50 for the style ids). Over the extended reals |x| = max x (−x) is below +∞ exactly when x
  is a real number (both infinities have |x| = +∞). An integer word in [0, n) is the natural number its signed
  reading has, so the ids become functions into Fin 100 and Fin 50 whose values are the words read signed.
-/
import proofs.«161131_g50268297232385_cont_8to1c4_788_18_alg».proof.Defs
import proofs.«161131_g50268297232385_cont_8to1c4_788_18_alg».proof.Proof.Gen.Pre_finite_inputs
import proofs.«161131_g50268297232385_cont_8to1c4_788_18_alg».proof.Proof.Spec
import Idealize.ShloMosaic.Lib.ReduceAll
import Idealize.ShloMosaic.Lib.ValueIdx

noncomputable section

namespace Cert.KernelIdeal.PreValue

open Idealize.ShloMosaic Idealize.ShloMosaic.ValueIdx Idealize.SL.Sem
/-- The pattern 0x7F800000 (sign clear, exponent all ones, fraction zero) denotes +∞. -/
theorem top_pat : Ideal.ofBits .f32 0x7F800000#32 = (⊤ : EReal) := by
  simp [Ideal.ofBits, Ideal.ieee]

/-- A decided bit is 1 exactly when the decision is true. -/
theorem ofBool_one (b : Bool) : BitVec.ofBool b = 1#1 ↔ b = true := by cases b <;> decide

/-- |x| < +∞ over the extended reals: x is neither infinity, so it is a real number. -/
theorem isReal_of_abs_lt_top (x : EReal)
    (h : FloatOps.cmpf (F := Ideal) (φ := .f32) .olt (FloatOps.hostAbsf (F := Ideal) (φ := .f32) x) (FloatOps.ofBits (F := Ideal) .f32 0x7F800000#32) = 1#1) :
    Cert.Spec.IsReal x := by
  have h1 : Ideal.cmp .olt (max x (-x)) (Ideal.ofBits .f32 0x7F800000#32) = 1#1 := h
  rw [top_pat] at h1
  have h2 : max x (-x) < (⊤ : EReal) := by
    simpa [Ideal.cmp, ofBool_one] using h1
  induction x using EReal.rec with
  | bot => simp at h2
  | coe r => exact ⟨r, rfl⟩
  | top => simp at h2

/-- If the conjunction over all entries of |x| < +∞ holds, every entry of x is a real number; at any shape. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] bc (constant (F := Ideal) Cert.Pre_finite_inputs.S_ .f32 0x7F800000#32)))
          (constantI Cert.Pre_finite_inputs.S_ 1 1#1) hr hu ix0 = 1#1)
    (i : s.Idx) : Cert.Spec.IsReal (x i) := by
  haveI : Subsingleton Cert.Pre_finite_inputs.S_.Idx := ⟨fun a b => funext fun d => d.elim0⟩
  have h := Host.reduce_andi_all _ _ hr hu ix0 e i
  exact isReal_of_abs_lt_top (x i) h

/-- A word that tests 0 ≤ w and w < n signed, with n below 2³¹, reads signed as an integer in [0, n). -/
theorem range_of_cmp (w : BitVec 32) (n : Nat) (hn : n < 2 ^ 31)
    (h0 : IntOp.cmpi .sge w 0#32 = 1#1) (h1 : IntOp.cmpi .slt w (BitVec.ofNat 32 n) = 1#1) :
    0 ≤ w.toInt ∧ w.toInt < n := by
  rw [IntOp.cmpi_sge] at h0
  rw [IntOp.cmpi_slt] at h1
  have e0 : (0#32 : BitVec 32).toInt = 0 := by decide
  have en : (BitVec.ofNat 32 n).toInt = n := by
    rw [BitVec.toInt_ofNat']; exact Int.bmod_eq_of_le (by omega) (by omega)
  rw [e0] at h0; rw [en] at h1
  exact ⟨h0, h1⟩

/-- If the conjunction over all entries of (0 ≤ x) ∧ (x < n) holds, every entry read signed lies in [0, n); at any shape. -/
theorem all_range {s : Shape} {axes : List (Fin s.rank)} (x : IVec s 32) (n : Nat) (hn : n < 2 ^ 31)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (andi (cmpi .sge x (broadcastInDim s ![] bc (constantI Cert.Pre_finite_inputs.S_ 32 0#32)))
                (cmpi .slt x (broadcastInDim s ![] bc (constantI Cert.Pre_finite_inputs.S_ 32 (BitVec.ofNat 32 n)))))
          (constantI Cert.Pre_finite_inputs.S_ 1 1#1) hr hu ix0 = 1#1)
    (i : s.Idx) : 0 ≤ (x i).toInt ∧ (x i).toInt < n := by
  haveI : Subsingleton Cert.Pre_finite_inputs.S_.Idx := ⟨fun a b => funext fun d => d.elim0⟩
  have h := Host.reduce_andi_all _ _ hr hu ix0 e i
  obtain ⟨h0, h1⟩ := IntOp.andi_eq_one.1 h
  exact range_of_cmp (x i) n hn h0 h1

/-- The precondition decoded on one device: the instrument and style ids are numbers below 100 and 50 (the words read
    signed), and every float argument entry is a real number, so the instance the arrays hold is finite. -/
theorem decode [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (id : Fin 16384 → Fin 20 → Fin 100) (st : Fin 16384 → Fin 50),
      (∀ b l, ((m ((c.tc : Thread Cert.KernelIdeal.nD Cert.KernelIdeal.τ).loc Cert.KernelIdeal.main_arg0)) (ix2 b l)).toInt = ((id b l).val : ℤ))
      ∧ (∀ b, ((m ((c.tc : Thread Cert.KernelIdeal.nD Cert.KernelIdeal.τ).loc Cert.KernelIdeal.main_arg1)) (ix1 b)).toInt = ((st b).val : ℤ))
      ∧ (Cert.Spec.ofArrays id st (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).Finite := by
  have e := congrFun (hpre c) ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, h1⟩ := IntOp.andi_eq_one.1 e
  obtain ⟨e, h0⟩ := IntOp.andi_eq_one.1 e
  obtain ⟨e, h14⟩ := IntOp.andi_eq_one.1 e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h2, h3⟩ := IntOp.andi_eq_one.1 e
  have r0 := all_range (m ((c.tc : Thread Cert.KernelIdeal.nD Cert.KernelIdeal.τ).loc Cert.KernelIdeal.main_arg0)) 100 (by norm_num) _ _ _ h0
  have r1 := all_range (m ((c.tc : Thread Cert.KernelIdeal.nD Cert.KernelIdeal.τ).loc Cert.KernelIdeal.main_arg1)) 50 (by norm_num) _ _ _ h1
  refine ⟨fun b l => ⟨((m ((c.tc : Thread Cert.KernelIdeal.nD Cert.KernelIdeal.τ).loc Cert.KernelIdeal.main_arg0)) (ix2 b l)).toInt.toNat, ?_⟩,
          fun b => ⟨((m ((c.tc : Thread Cert.KernelIdeal.nD Cert.KernelIdeal.τ).loc Cert.KernelIdeal.main_arg1)) (ix1 b)).toInt.toNat, ?_⟩, ?_, ?_, ?_⟩
  · have := r0 (ix2 b l); omega
  · have := r1 (ix1 b); omega
  · intro b l
    exact (Int.toNat_of_nonneg (r0 (ix2 b l)).1).symm
  · intro b
    exact (Int.toNat_of_nonneg (r1 (ix1 b)).1).symm
  · exact {
      tempo := fun b => all_real (m ((c.tc : Thread Cert.KernelIdeal.nD Cert.KernelIdeal.τ).loc Cert.KernelIdeal.main_arg2)) _ _ _ h2 _
      pitch := fun b => all_real (m ((c.tc : Thread Cert.KernelIdeal.nD Cert.KernelIdeal.τ).loc Cert.KernelIdeal.main_arg3)) _ _ _ h3 _
      dur := fun b => all_real (m ((c.tc : Thread Cert.KernelIdeal.nD Cert.KernelIdeal.τ).loc Cert.KernelIdeal.main_arg4)) _ _ _ h4 _
      T := fun k d => all_real (m ((c.tc : Thread Cert.KernelIdeal.nD Cert.KernelIdeal.τ).loc Cert.KernelIdeal.main_arg5)) _ _ _ h5 _
      S := fun s d => all_real (m ((c.tc : Thread Cert.KernelIdeal.nD Cert.KernelIdeal.τ).loc Cert.KernelIdeal.main_arg6)) _ _ _ h6 _
      Wt := fun j => all_real (m ((c.tc : Thread Cert.KernelIdeal.nD Cert.KernelIdeal.τ).loc Cert.KernelIdeal.main_arg7)) _ _ _ h7 _
      bt := fun j => all_real (m ((c.tc : Thread Cert.KernelIdeal.nD Cert.KernelIdeal.τ).loc Cert.KernelIdeal.main_arg8)) _ _ _ h8 _
      Wp := fun j => all_real (m ((c.tc : Thread Cert.KernelIdeal.nD Cert.KernelIdeal.τ).loc Cert.KernelIdeal.main_arg9)) _ _ _ h9 _
      bp := fun j => all_real (m ((c.tc : Thread Cert.KernelIdeal.nD Cert.KernelIdeal.τ).loc Cert.KernelIdeal.main_arg10)) _ _ _ h10 _
      Wd := fun j => all_real (m ((c.tc : Thread Cert.KernelIdeal.nD Cert.KernelIdeal.τ).loc Cert.KernelIdeal.main_arg11)) _ _ _ h11 _
      bd := fun j => all_real (m ((c.tc : Thread Cert.KernelIdeal.nD Cert.KernelIdeal.τ).loc Cert.KernelIdeal.main_arg12)) _ _ _ h12 _
      W := fun h j => all_real (m ((c.tc : Thread Cert.KernelIdeal.nD Cert.KernelIdeal.τ).loc Cert.KernelIdeal.main_arg13)) _ _ _ h13 _
      bproj := fun h => all_real (m ((c.tc : Thread Cert.KernelIdeal.nD Cert.KernelIdeal.τ).loc Cert.KernelIdeal.main_arg14)) _ _ _ h14 _ }

end Cert.KernelIdeal.PreValue

end
-- ==== Proof.KFinal.lean ====
/-
  The kernel's result array is the encoder's output.

  Grid point t covers batch rows 2048·t … 2048·t + 2047. Its id, style and scalar blocks are the corresponding
  columns of the transposed inputs, the table every point multiplies by is the one folded from the padded
  embeddings and the sliced projection, and so (by the block lemma) the point's block is the folded form K of
  the output on its rows. On finite data the folded form is the encoder as written, R; the blocks tile the
  array; hence the array is R everywhere.
-/
import proofs.«161131_g50268297232385_cont_8to1c4_788_18_alg».proof.Proof.KBlock
import proofs.«161131_g50268297232385_cont_8to1c4_788_18_alg».proof.Proof.KGlue
import proofs.«161131_g50268297232385_cont_8to1c4_788_18_alg».proof.Proof.KRun
import proofs.«161131_g50268297232385_cont_8to1c4_788_18_alg».proof.Proof.Algebra
import proofs.«161131_g50268297232385_cont_8to1c4_788_18_alg».proof.Proof.PreDecode

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.KernelIdeal.Value Cert.KernelIdeal.HostValue

variable (m : (ℓ : Loc nD τ sig) → Buf (Elt Ideal) ℓ)

theorem kernel_array (c : Dev nD) (id : Fin 16384 → Fin 20 → Fin 100) (st : Fin 16384 → Fin 50)
    (hid : ∀ b l, ((m ((c : Thread nD τ).loc main_arg0) : S16384x20.Idx → BitVec 32) (ix2 b l)).toInt = ((id b l).val : ℤ))
    (hst : ∀ b, ((m ((c : Thread nD τ).loc main_arg1) : S16384.Idx → BitVec 32) (ix1 b)).toInt = ((st b).val : ℤ))
    (hfin : (HostValue.D m c id st).Finite) :
    (dats m 0 c).arrAt 13 cfg0.N = Cert.Spec.G (HostValue.D m c id st) := by
  refine array_eq m c _ fun t y => ?_
  have ht : t.val < 8 := lt_of_lt_of_eq t.isLt N_eq
  have hv := pointBlock_value (HostValue.D m c id st) (2048 * t.val) (by omega)
    (iblk m c 0 t) (iblk m c 1 t) (iblk m c 2 t) (iblk m c 3 t) (iblk m c 4 t) (tableOf m c)
    (fun l q => by rw [iblk0 m c t l q, V_main_v48_apply m c l _]; exact hid _ l)
    (fun q => by rw [iblk1 m c t q, V_main_v49_apply m c _]; exact hst _)
    (fun q => by rw [iblk2 m c t q, V_main_v50_apply m c _]; rfl)
    (fun q => by rw [iblk3 m c t q, V_main_v51_apply m c _]; rfl)
    (fun q => by rw [iblk4 m c t q, V_main_v52_apply m c _]; rfl)
    (fun k h => table_host_top m c id st k h)
    (fun s h => table_host_bot m c id st s h)
    y
  refine hv.trans ?_
  exact Cert.Spec.K_eq_R (HostValue.D m c id st) hfin _ _

end Cert.KernelIdeal.Body

end
-- ==== Proof.RefOps.lean ====
/-
  The reference encoder's program as one straight line of host operations.

  The program calls two row-lookup functions (one per embedding table), each of which calls a selection function; a call
  executes the callee's body on the operands, so the line lists the callees' operations in place, over the buffers of
  that call. Beside the list: the program IS that line, every operation touches device buffers only, and the list of
  the buffers the line writes, none of them an argument, so that an argument keeps its contents.
-/
import proofs.«161131_g50268297232385_cont_8to1c4_788_18_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's 69 operations, in order: the 23 of the instrument lookup (index wrap, bounds test, row gather,
    selection against the fill value), the 23 of the style lookup, then the three scalar maps, the sum over the
    twenty instruments, the concatenation, and the final affine map. -/
abbrev ops : List (HloOp τ sig (Elt F)) :=
  [
    TRef.nullary main_call0.c (constantI S_ 32 0#32),
    TRef.unary main_call0.c main_call0.v0 (broadcastInDim S16384x20 ![] bcast_S_S16384x20),
    TRef.binary (.of main_arg0 : TRef sig ⟨S16384x20, .i32⟩) main_call0.v0 main_call0.v1 (cmpi .slt),
    TRef.nullary main_call0.c_0 (constantI S_ 32 100#32),
    TRef.unary main_call0.c_0 main_call0.v2 (broadcastInDim S16384x20 ![] bcast_S_S16384x20),
    TRef.binary (.of main_arg0 : TRef sig ⟨S16384x20, .i32⟩) main_call0.v2 main_call0.v3 addi,
    TRef.ternary main_call0.v1 main_call0.v3 (.of main_arg0 : TRef sig ⟨S16384x20, .i32⟩) main_call0.call0.v0 select,
    TRef.unary main_call0.call0.v0 main_call0.v5 (broadcastInDim S16384x20x1 ![0, 1] bcast_S16384x20_S16384x20x1_0_1),
    TRef.nullary main_call0.c_1 (constantI S1 32 99#32),
    TRef.nullary main_call0.c_2 (constantI S_ 32 0#32),
    TRef.unary main_call0.c_2 main_call0.v6 (broadcastInDim S16384x20x1 ![] bcast_S_S16384x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x20x1 ![0, 1, 2] bcast_S1x1x1_S16384x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x20x1_S16384x20_d2 h_S_),
    TRef.binary (.of main_arg5 : TRef sig ⟨S100x64, .f32⟩) main_call0.v5 main_call0.v13 (fun x i => Host.gather gather_S100x64_S16384x20x1_S16384x20x64_2_0_n_n_0_2_164 x i),
    TRef.unary main_call0.v12 main_call0.v14 (broadcastInDim S16384x20x64 ![0, 1] bcast_S16384x20_S16384x20x64_0_1),
    TRef.nullary main_call0.cst (constant S_ .f32 0x7FC00000#32),
    TRef.unary main_call0.cst main_call0.v15 (broadcastInDim S16384x20x64 ![] bcast_S_S16384x20x64),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1 : TRef sig ⟨S16384, .i32⟩) main_call1.v0 main_call1.v1 (cmpi .slt),
    TRef.nullary main_call1.c_0 (constantI S_ 32 50#32),
    TRef.unary main_call1.c_0 main_call1.v2 (broadcastInDim S16384 ![] bcast_S_S16384),
    TRef.binary (.of main_arg1 : TRef sig ⟨S16384, .i32⟩) main_call1.v2 main_call1.v3 addi,
    TRef.ternary main_call1.v1 main_call1.v3 (.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 49#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg6 : TRef sig ⟨S50x128, .f32⟩) main_call1.v5 main_call1.v13 (fun x i => Host.gather gather_S50x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    unary main_arg7 main_v2 ((transpose S1x64 [1, 0] · transposes_S64x1_S1x64_1_0) : (⟨S64x1, .f32⟩ : BufTy).Contents (Elt F) → (⟨S1x64, .f32⟩ : BufTy).Contents (Elt F)),
    binary main_arg2 main_v2 main_v3 ((fun l r => Host.dotGeneral dot_S16384x1_S1x64_S16384x64_1_0_0_1_n_n none l r) : (⟨S16384x1, .f32⟩ : BufTy).Contents (Elt F) → (⟨S1x64, .f32⟩ : BufTy).Contents (Elt F) → (⟨S16384x64, .f32⟩ : BufTy).Contents (Elt F)),
    unary main_arg8 main_v4 (broadcastInDim S1x64 ![1] bcast_S64_S1x64_1 : (⟨S64, .f32⟩ : BufTy).Contents (Elt F) → (⟨S1x64, .f32⟩ : BufTy).Contents (Elt F)),
    unary main_v4 main_v5 (broadcastInDim S16384x64 ![0, 1] bcast_S1x64_S16384x64_0_1 : (⟨S1x64, .f32⟩ : BufTy).Contents (Elt F) → (⟨S16384x64, .f32⟩ : BufTy).Contents (Elt F)),
    binary main_v3 main_v5 main_v6 (addf : (⟨S16384x64, .f32⟩ : BufTy).Contents (Elt F) → (⟨S16384x64, .f32⟩ : BufTy).Contents (Elt F) → (⟨S16384x64, .f32⟩ : BufTy).Contents (Elt F)),
    unary main_arg9 main_v7 ((transpose S1x64 [1, 0] · transposes_S64x1_S1x64_1_0) : (⟨S64x1, .f32⟩ : BufTy).Contents (Elt F) → (⟨S1x64, .f32⟩ : BufTy).Contents (Elt F)),
    binary main_arg3 main_v7 main_v8 ((fun l r => Host.dotGeneral dot_S16384x1_S1x64_S16384x64_1_0_0_1_n_n none l r) : (⟨S16384x1, .f32⟩ : BufTy).Contents (Elt F) → (⟨S1x64, .f32⟩ : BufTy).Contents (Elt F) → (⟨S16384x64, .f32⟩ : BufTy).Contents (Elt F)),
    unary main_arg10 main_v9 (broadcastInDim S1x64 ![1] bcast_S64_S1x64_1 : (⟨S64, .f32⟩ : BufTy).Contents (Elt F) → (⟨S1x64, .f32⟩ : BufTy).Contents (Elt F)),
    unary main_v9 main_v10 (broadcastInDim S16384x64 ![0, 1] bcast_S1x64_S16384x64_0_1 : (⟨S1x64, .f32⟩ : BufTy).Contents (Elt F) → (⟨S16384x64, .f32⟩ : BufTy).Contents (Elt F)),
    binary main_v8 main_v10 main_v11 (addf : (⟨S16384x64, .f32⟩ : BufTy).Contents (Elt F) → (⟨S16384x64, .f32⟩ : BufTy).Contents (Elt F) → (⟨S16384x64, .f32⟩ : BufTy).Contents (Elt F)),
    unary main_arg11 main_v12 ((transpose S1x64 [1, 0] · transposes_S64x1_S1x64_1_0) : (⟨S64x1, .f32⟩ : BufTy).Contents (Elt F) → (⟨S1x64, .f32⟩ : BufTy).Contents (Elt F)),
    binary main_arg4 main_v12 main_v13 ((fun l r => Host.dotGeneral dot_S16384x1_S1x64_S16384x64_1_0_0_1_n_n none l r) : (⟨S16384x1, .f32⟩ : BufTy).Contents (Elt F) → (⟨S1x64, .f32⟩ : BufTy).Contents (Elt F) → (⟨S16384x64, .f32⟩ : BufTy).Contents (Elt F)),
    unary main_arg12 main_v14 (broadcastInDim S1x64 ![1] bcast_S64_S1x64_1 : (⟨S64, .f32⟩ : BufTy).Contents (Elt F) → (⟨S1x64, .f32⟩ : BufTy).Contents (Elt F)),
    unary main_v14 main_v15 (broadcastInDim S16384x64 ![0, 1] bcast_S1x64_S16384x64_0_1 : (⟨S1x64, .f32⟩ : BufTy).Contents (Elt F) → (⟨S16384x64, .f32⟩ : BufTy).Contents (Elt F)),
    binary main_v13 main_v15 main_v16 (addf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v0 main_cst main_v17 ((fun x v => Host.reduceAdd x v reducesTo_S16384x20x64_S16384x64_d1 h_S_) : (⟨S16384x20x64, .f32⟩ : BufTy).Contents (Elt F) → (⟨S_, .f32⟩ : BufTy).Contents (Elt F) → (⟨S16384x64, .f32⟩ : BufTy).Contents (Elt F)),
    nary ![main_v17, main_v1, main_v6, main_v11, main_v16] main_v18 (fun u => concatenate S16384x384 1 [⟨S16384x64, u 0⟩, ⟨S16384x128, u 1⟩, ⟨S16384x64, u 2⟩, ⟨S16384x64, u 3⟩, ⟨S16384x64, u 4⟩] concatenates_S16384x64_S16384x128_S16384x64_S16384x64_S16384x64_S16384x384_d1),
    unary main_arg13 main_v19 ((transpose S384x768 [1, 0] · transposes_S768x384_S384x768_1_0) : (⟨S768x384, .f32⟩ : BufTy).Contents (Elt F) → (⟨S384x768, .f32⟩ : BufTy).Contents (Elt F)),
    binary main_v18 main_v19 main_v20 ((fun l r => Host.dotGeneral dot_S16384x384_S384x768_S16384x768_1_0_0_1_n_n none l r) : (⟨S16384x384, .f32⟩ : BufTy).Contents (Elt F) → (⟨S384x768, .f32⟩ : BufTy).Contents (Elt F) → (⟨S16384x768, .f32⟩ : BufTy).Contents (Elt F)),
    unary main_arg14 main_v21 (broadcastInDim S1x768 ![1] bcast_S768_S1x768_1 : (⟨S768, .f32⟩ : BufTy).Contents (Elt F) → (⟨S1x768, .f32⟩ : BufTy).Contents (Elt F)),
    unary main_v21 main_v22 (broadcastInDim S16384x768 ![0, 1] bcast_S1x768_S16384x768_0_1 : (⟨S1x768, .f32⟩ : BufTy).Contents (Elt F) → (⟨S16384x768, .f32⟩ : BufTy).Contents (Elt F)),
    binary main_v20 main_v22 main_v23 (addf : (⟨S16384x768, .f32⟩ : BufTy).Contents (Elt F) → (⟨S16384x768, .f32⟩ : BufTy).Contents (Elt F) → (⟨S16384x768, .f32⟩ : BufTy).Contents (Elt F)) ]

set_option maxRecDepth 8192 in
set_option maxHeartbeats 1000000 in
/-- The program is that straight line: a call runs the callee's body, so unfolding the called functions at their calls
    leaves the same chain of steps on both sides. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nary_bufs_sub .., unary_bufs_sub .., binary_bufs_sub .., unary_bufs_sub .., unary_bufs_sub .., binary_bufs_sub ..⟩

/-! ## The buffers the line writes -/

/-- Every buffer the line writes: one per operation, none of them an argument. -/
def written : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1, main_v2, main_v3, main_v4, main_v5, main_v6, main_v7, main_v8, main_v9, main_v10, main_v11, main_v12, main_v13, main_v14, main_v15, main_v16, main_cst, main_v17, main_v18, main_v19, main_v20, main_v21, main_v22, main_v23]

theorem writes_sub_of_mem {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

theorem ops_writes : (ops : List (HloOp τ sig (Elt F))).Forall fun op =>
    op.writes ⊆ (written.map (Proc.devRef (τ := τ) .tc)).toFinset :=
  ⟨writes_sub_of_mem (y := main_call0_c) (by decide), writes_sub_of_mem (y := main_call0_v0) (by decide), writes_sub_of_mem (y := main_call0_v1) (by decide), writes_sub_of_mem (y := main_call0_c_0) (by decide), writes_sub_of_mem (y := main_call0_v2) (by decide), writes_sub_of_mem (y := main_call0_v3) (by decide), writes_sub_of_mem (y := main_call0_v4) (by decide), writes_sub_of_mem (y := main_call0_v5) (by decide), writes_sub_of_mem (y := main_call0_c_1) (by decide), writes_sub_of_mem (y := main_call0_c_2) (by decide), writes_sub_of_mem (y := main_call0_v6) (by decide), writes_sub_of_mem (y := main_call0_v7) (by decide), writes_sub_of_mem (y := main_call0_v8) (by decide), writes_sub_of_mem (y := main_call0_v9) (by decide), writes_sub_of_mem (y := main_call0_v10) (by decide), writes_sub_of_mem (y := main_call0_v11) (by decide), writes_sub_of_mem (y := main_call0_c_3) (by decide), writes_sub_of_mem (y := main_call0_v12) (by decide), writes_sub_of_mem (y := main_call0_v13) (by decide), writes_sub_of_mem (y := main_call0_v14) (by decide), writes_sub_of_mem (y := main_call0_cst) (by decide), writes_sub_of_mem (y := main_call0_v15) (by decide), writes_sub_of_mem (y := main_v0) (by decide), writes_sub_of_mem (y := main_call1_c) (by decide), writes_sub_of_mem (y := main_call1_v0) (by decide), writes_sub_of_mem (y := main_call1_v1) (by decide), writes_sub_of_mem (y := main_call1_c_0) (by decide), writes_sub_of_mem (y := main_call1_v2) (by decide), writes_sub_of_mem (y := main_call1_v3) (by decide), writes_sub_of_mem (y := main_call1_v4) (by decide), writes_sub_of_mem (y := main_call1_v5) (by decide), writes_sub_of_mem (y := main_call1_c_1) (by decide), writes_sub_of_mem (y := main_call1_c_2) (by decide), writes_sub_of_mem (y := main_call1_v6) (by decide), writes_sub_of_mem (y := main_call1_v7) (by decide), writes_sub_of_mem (y := main_call1_v8) (by decide), writes_sub_of_mem (y := main_call1_v9) (by decide), writes_sub_of_mem (y := main_call1_v10) (by decide), writes_sub_of_mem (y := main_call1_v11) (by decide), writes_sub_of_mem (y := main_call1_c_3) (by decide), writes_sub_of_mem (y := main_call1_v12) (by decide), writes_sub_of_mem (y := main_call1_v13) (by decide), writes_sub_of_mem (y := main_call1_v14) (by decide), writes_sub_of_mem (y := main_call1_cst) (by decide), writes_sub_of_mem (y := main_call1_v15) (by decide), writes_sub_of_mem (y := main_v1) (by decide), writes_sub_of_mem (y := main_v2) (by decide), writes_sub_of_mem (y := main_v3) (by decide), writes_sub_of_mem (y := main_v4) (by decide), writes_sub_of_mem (y := main_v5) (by decide), writes_sub_of_mem (y := main_v6) (by decide), writes_sub_of_mem (y := main_v7) (by decide), writes_sub_of_mem (y := main_v8) (by decide), writes_sub_of_mem (y := main_v9) (by decide), writes_sub_of_mem (y := main_v10) (by decide), writes_sub_of_mem (y := main_v11) (by decide), writes_sub_of_mem (y := main_v12) (by decide), writes_sub_of_mem (y := main_v13) (by decide), writes_sub_of_mem (y := main_v14) (by decide), writes_sub_of_mem (y := main_v15) (by decide), writes_sub_of_mem (y := main_v16) (by decide), writes_sub_of_mem (y := main_cst) (by decide), writes_sub_of_mem (y := main_v17) (by decide), writes_sub_of_mem (y := main_v18) (by decide), writes_sub_of_mem (y := main_v19) (by decide), writes_sub_of_mem (y := main_v20) (by decide), writes_sub_of_mem (y := main_v21) (by decide), writes_sub_of_mem (y := main_v22) (by decide), writes_sub_of_mem (y := main_v23) (by decide)⟩

/-- A buffer the line does not write keeps its contents. -/
theorem arg_keep (V : Valuation τ sig (Elt F)) (r : Ref sig .tc) (hr : r ∉ written) :
    after (ops (F := F)) V (Proc.devRef .tc r) = V (Proc.devRef .tc r) :=
  after_of_writes_sub ops V ops_writes hr

end Cert.ReferenceIdeal.RefValue

end
-- ==== Proof.RefTerm.lean ====
/-
  The reference encoder's composed term, stage by stage, at the ideal instance.

  Each definition is one stretch of the program's straight line read as a function of the arguments' contents: the
  instrument lookup (index wrap, bounds test, row gather, selection against the fill value), the style lookup, a
  scalar's affine map, the sum over the twenty instruments, the five pieces side by side, and the final affine map.
-/
import proofs.«161131_g50268297232385_cont_8to1c4_788_18_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The instrument ids, a negative one moved up by the table's length. -/
def idWrap (a0 : S16384x20.Idx → BitVec 32) : S16384x20.Idx → BitVec 32 :=
  select (cmpi .slt a0 (broadcastInDim S16384x20 ![] bcast_S_S16384x20 (constantI S_ 32 0#32)))
    (addi a0 (broadcastInDim S16384x20 ![] bcast_S_S16384x20 (constantI S_ 32 100#32))) a0

/-- The same with a trailing unit axis: the start indices of the row lookup. -/
def idStart (a0 : S16384x20.Idx → BitVec 32) : S16384x20x1.Idx → BitVec 32 :=
  broadcastInDim S16384x20x1 ![0, 1] bcast_S16384x20_S16384x20x1_0_1 (idWrap a0)

/-- Whether each moved id lies between 0 and 99. -/
def idOk (a0 : S16384x20.Idx → BitVec 32) : S16384x20.Idx → BitVec 1 :=
  Host.reduce IntOp.andi
    (andi (cmpi .sge (idStart a0) (broadcastInDim S16384x20x1 ![] bcast_S_S16384x20x1 (constantI S_ 32 0#32)))
      (cmpi .sle (idStart a0) (broadcastInDim S16384x20x1 ![0, 1, 2] bcast_S1x1x1_S16384x20x1_0_1_2
        (broadcastInDim S1x1x1 ![2] bcast_S1_S1x1x1_2 (constantI S1 32 99#32)))))
    (constantI S_ 1 1#1) reducesTo_S16384x20x1_S16384x20_d2 h_S_

/-- The instrument rows: the table's row where the id is in range, the fill value elsewhere. -/
def instRows (a5 : S100x64.Idx → EReal) (a0 : S16384x20.Idx → BitVec 32) : S16384x20x64.Idx → EReal :=
  select (broadcastInDim S16384x20x64 ![0, 1] bcast_S16384x20_S16384x20x64_0_1 (idOk a0))
    (Host.gather gather_S100x64_S16384x20x1_S16384x20x64_2_0_n_n_0_2_164 a5 (idStart a0))
    (broadcastInDim S16384x20x64 ![] bcast_S_S16384x20x64 (constant (F := Ideal) S_ .f32 0x7FC00000#32))

/-- The style ids, a negative one moved up by the table's length. -/
def stWrap (a1 : S16384.Idx → BitVec 32) : S16384.Idx → BitVec 32 :=
  select (cmpi .slt a1 (broadcastInDim S16384 ![] bcast_S_S16384 (constantI S_ 32 0#32)))
    (addi a1 (broadcastInDim S16384 ![] bcast_S_S16384 (constantI S_ 32 50#32))) a1

/-- The same with a trailing unit axis. -/
def stStart (a1 : S16384.Idx → BitVec 32) : S16384x1.Idx → BitVec 32 :=
  broadcastInDim S16384x1 ![0] bcast_S16384_S16384x1_0 (stWrap a1)

/-- Whether each moved style id lies between 0 and 49. -/
def stOk (a1 : S16384.Idx → BitVec 32) : S16384.Idx → BitVec 1 :=
  Host.reduce IntOp.andi
    (andi (cmpi .sge (stStart a1) (broadcastInDim S16384x1 ![] bcast_S_S16384x1 (constantI S_ 32 0#32)))
      (cmpi .sle (stStart a1) (broadcastInDim S16384x1 ![0, 1] bcast_S1x1_S16384x1_0_1
        (broadcastInDim S1x1 ![1] bcast_S1_S1x1_1 (constantI S1 32 49#32)))))
    (constantI S_ 1 1#1) reducesTo_S16384x1_S16384_d1 h_S_

/-- The style rows. -/
def styleRows (a6 : S50x128.Idx → EReal) (a1 : S16384.Idx → BitVec 32) : S16384x128.Idx → EReal :=
  select (broadcastInDim S16384x128 ![0] bcast_S16384_S16384x128_0 (stOk a1))
    (Host.gather gather_S50x128_S16384x1_S16384x128_1_0_n_n_0_1_1128 a6 (stStart a1))
    (broadcastInDim S16384x128 ![] bcast_S_S16384x128 (constant (F := Ideal) S_ .f32 0x7FC00000#32))

/-- One scalar's affine map into 64 coordinates: the column of scalars times the transposed weight column, plus the
    bias row repeated down the batch. -/
def scalarMap (x : S16384x1.Idx → EReal) (w : S64x1.Idx → EReal) (c : S64.Idx → EReal) : S16384x64.Idx → EReal :=
  addf (F := Ideal) (φ := .f32)
    (Host.dotGeneral (F := Ideal) (φ₁ := .f32) (φ₂ := .f32) dot_S16384x1_S1x64_S16384x64_1_0_0_1_n_n none x
      (transpose S1x64 [1, 0] w transposes_S64x1_S1x64_1_0))
    (broadcastInDim S16384x64 ![0, 1] bcast_S1x64_S16384x64_0_1 (broadcastInDim S1x64 ![1] bcast_S64_S1x64_1 c))

/-- The instrument rows summed over the twenty instruments, from zero. -/
def instSum (a5 : S100x64.Idx → EReal) (a0 : S16384x20.Idx → BitVec 32) : S16384x64.Idx → EReal :=
  Host.reduceAdd (F := Ideal) (φ := .f32) (instRows a5 a0) (constant (F := Ideal) S_ .f32 0x00000000#32)
    reducesTo_S16384x20x64_S16384x64_d1 h_S_

/-- Five arrays of widths 64, 128, 64, 64, 64 laid side by side. -/
def sideBySide (x0 : S16384x64.Idx → EReal) (x1 : S16384x128.Idx → EReal) (x2 x3 x4 : S16384x64.Idx → EReal) :
    S16384x384.Idx → EReal :=
  concatenate S16384x384 1 [⟨S16384x64, x0⟩, ⟨S16384x128, x1⟩, ⟨S16384x64, x2⟩, ⟨S16384x64, x3⟩, ⟨S16384x64, x4⟩]
    concatenates_S16384x64_S16384x128_S16384x64_S16384x64_S16384x64_S16384x384_d1

/-- The five pieces side by side: 384 coordinates per batch row. -/
def combined (a0 : S16384x20.Idx → BitVec 32) (a1 : S16384.Idx → BitVec 32) (a2 a3 a4 : S16384x1.Idx → EReal)
    (a5 : S100x64.Idx → EReal) (a6 : S50x128.Idx → EReal) (a7 : S64x1.Idx → EReal) (a8 : S64.Idx → EReal)
    (a9 : S64x1.Idx → EReal) (a10 : S64.Idx → EReal) (a11 : S64x1.Idx → EReal) (a12 : S64.Idx → EReal) :
    S16384x384.Idx → EReal :=
  sideBySide (instSum a5 a0) (styleRows a6 a1) (scalarMap a2 a7 a8) (scalarMap a3 a9 a10) (scalarMap a4 a11 a12)

/-- The whole line: the combined rows times the transposed projection, plus the output bias repeated down the batch. -/
def refTerm (a0 : S16384x20.Idx → BitVec 32) (a1 : S16384.Idx → BitVec 32) (a2 a3 a4 : S16384x1.Idx → EReal)
    (a5 : S100x64.Idx → EReal) (a6 : S50x128.Idx → EReal) (a7 : S64x1.Idx → EReal) (a8 : S64.Idx → EReal)
    (a9 : S64x1.Idx → EReal) (a10 : S64.Idx → EReal) (a11 : S64x1.Idx → EReal) (a12 : S64.Idx → EReal)
    (a13 : S768x384.Idx → EReal) (a14 : S768.Idx → EReal) : S16384x768.Idx → EReal :=
  addf (F := Ideal) (φ := .f32)
    (Host.dotGeneral (F := Ideal) (φ₁ := .f32) (φ₂ := .f32) dot_S16384x384_S384x768_S16384x768_1_0_0_1_n_n none
      (combined a0 a1 a2 a3 a4 a5 a6 a7 a8 a9 a10 a11 a12) (transpose S384x768 [1, 0] a13 transposes_S768x384_S384x768_1_0))
    (broadcastInDim S16384x768 ![0, 1] bcast_S1x768_S16384x768_0_1 (broadcastInDim S1x768 ![1] bcast_S768_S1x768_1 a14))

end Cert.ReferenceIdeal.RefValue

end
-- ==== Proof.RefOut.lean ====
/-
  What the reference encoder's straight line leaves in the result buffer: the composed term of the arguments' contents.

  Each operation's result at its own buffer is its function of its operands' contents, and at any other buffer what was
  there; the concatenation's five operands are read each at its own buffer; the moves between a buffer's type and the
  type of the value it holds are identities. What remains is the term `refTerm` of the arguments, by definition.
-/
import proofs.«161131_g50268297232385_cont_8to1c4_788_18_alg».proof.Proof.RefOps
import proofs.«161131_g50268297232385_cont_8to1c4_788_18_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The concatenation's result, each operand's contents at its own reference. -/
theorem concat_result' (hxs hy) (V : Valuation τ sig (Elt Ideal)) :
    (nary (τ := τ) ![main_v17, main_v1, main_v6, main_v11, main_v16] main_v18 (fun u => concatenate S16384x384 1 [⟨S16384x64, u 0⟩, ⟨S16384x128, u 1⟩, ⟨S16384x64, u 2⟩, ⟨S16384x64, u 3⟩, ⟨S16384x64, u 4⟩] concatenates_S16384x64_S16384x128_S16384x64_S16384x64_S16384x64_S16384x384_d1) hxs hy).result V
        (no_index (Proc.devRef .tc main_v18))
      = sideBySide (V (main_v17 : DevRef τ sig)) (V (main_v1 : DevRef τ sig)) (V (main_v6 : DevRef τ sig))
          (V (main_v11 : DevRef τ sig)) (V (main_v16 : DevRef τ sig)) :=
  nary_result _ _ _ hxs hy V

set_option maxRecDepth 8192 in
set_option maxHeartbeats 1600000 in
/-- After the line the result buffer holds the composed term of the arguments' contents. -/
theorem out_eq (V : Valuation τ sig (Elt Ideal)) :
    after (ops (F := Ideal)) V (main_v23 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp (disch := decide) only [after_cons, after_nil,
      nullary_result', unary_result', binary_result', ternary_result', concat_result',
      nullary_result_ne', unary_result_ne', binary_result_ne', ternary_result_ne', nary_result_ne',
      TRef.ofBuf, TRef.toBuf, cast_cast, cast_eq]
  rfl

end Cert.ReferenceIdeal.RefValue

end
-- ==== Proof.RefRun.lean ====
/-
  The reference encoder's run.

  The program is a straight line of host operations on buffers that no region scopes, so from any memory with zero
  counters every weakly fair execution terminates with each buffer at the fold of the operations' results over the
  launch contents: the result buffer at the composed term of the arguments, the arguments as they were.
-/
import proofs.«161131_g50268297232385_cont_8to1c4_788_18_alg».proof.Proof.RefOut

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device, from any memory with zero counters: every weakly fair execution of the program terminates with
    the result buffer at the composed term of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v23).trans (out_eq _),
      (h c main_arg0).trans (arg_keep _ main_arg0 (by decide)),
      (h c main_arg1).trans (arg_keep _ main_arg1 (by decide)),
      (h c main_arg2).trans (arg_keep _ main_arg2 (by decide)),
      (h c main_arg3).trans (arg_keep _ main_arg3 (by decide)),
      (h c main_arg4).trans (arg_keep _ main_arg4 (by decide)),
      (h c main_arg5).trans (arg_keep _ main_arg5 (by decide)),
      (h c main_arg6).trans (arg_keep _ main_arg6 (by decide)),
      (h c main_arg7).trans (arg_keep _ main_arg7 (by decide)),
      (h c main_arg8).trans (arg_keep _ main_arg8 (by decide)),
      (h c main_arg9).trans (arg_keep _ main_arg9 (by decide)),
      (h c main_arg10).trans (arg_keep _ main_arg10 (by decide)),
      (h c main_arg11).trans (arg_keep _ main_arg11 (by decide)),
      (h c main_arg12).trans (arg_keep _ main_arg12 (by decide)),
      (h c main_arg13).trans (arg_keep _ main_arg13 (by decide)),
      (h c main_arg14).trans (arg_keep _ main_arg14 (by decide))⟩)
    (run_seq scopedRefs_eq scopedSems_eq defs main (fun _ => ops) main_eq (fun _ => ops_sub) m ρ)

end Cert.ReferenceIdeal.RefValue

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.RefReadLemmas.lean ====
/-
  Small general facts used to read the reference encoder's term at an index: a plain matrix product at the ideal
  values as a sum over the contracted axis; a reduction by "and" of an array of ones; the index wrap, the bounds test
  and the clamp of a row lookup at a word whose signed value is a row number.
-/
import Idealize.ShloMosaic.Lib.ValueIdx
import Idealize.ShloMosaic.Lib.ValueLayout
import Idealize.ShloMosaic.Lib.IdealHost
import Idealize.ShloMosaic.Lib.Affine
import Idealize.ShloMosaic.Lib.Pipeline.Value
import Idealize.ShloMosaic.PureOps.Ideal.Laws
import Idealize.ShloMosaic.PureOps.Reduce
import proofs.«161131_g50268297232385_cont_8to1c4_788_18_alg».proof.Proof.LibGatherRows

noncomputable section

namespace Cert.ReferenceIdeal.RefValue

open Idealize.ShloMosaic Idealize.ShloMosaic.ValueIdx Cert.LibGatherRows

/-- A plain product `[M, K] × [K, N]` on the host at the ideal values, at `(p, q)`: the sum over the contracted axis. -/
theorem plainDot_apply (M K N : ℕ) (l : (⟨2, ![M, K]⟩ : Shape).Idx → EReal) (r : (⟨2, ![K, N]⟩ : Shape).Idx → EReal)
    (p : Fin M) (q : Fin N) :
    Host.dotGeneral (F := Ideal) (φ₁ := .f32) (φ₂ := .f32) (DotDims.plain M K N) none l r (ix2 p q)
      = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a; refine Fin.ext ?_
    match a with
    | ⟨0, _⟩ => rfl
    | ⟨1, _⟩ => exact ((DotDims.plain M K N).lhsIdx_val_of_single rfl _ _).trans (contrEquiv1_symm_val _ K rfl rfl k)
  have hr : (DotDims.plain M K N).rhsIdx (ix2 p q) ((contrEquiv1 (DotDims.plain M K N) K rfl rfl).symm k) = ix2 k q := by
    funext a; refine Fin.ext ?_
    match a with
    | ⟨0, _⟩ => exact ((DotDims.plain M K N).rhsIdx_val_of_single rfl _ _).trans (contrEquiv1_symm_val _ K rfl rfl k)
    | ⟨1, _⟩ => rfl
  rw [hl, hr]

/-- A fold by "and" from one over ones is one. -/
theorem foldl_andi_ones {ι : Type} (x : ι → BitVec 1) (hx : ∀ i, x i = 1#1) :
    ∀ l : List ι, l.foldl (fun r i => IntOp.andi r (x i)) 1#1 = 1#1
  | [] => rfl
  | a :: l => by
    have e : IntOp.andi (1#1 : BitVec 1) (x a) = 1#1 := by rw [hx a]; decide
    rw [List.foldl_cons, e]
    exact foldl_andi_ones x hx l

/-- A reduction by "and", from one, of an array that is one everywhere is one everywhere. -/
theorem reduce_andi_of_forall {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

/-- The index wrap leaves a word that is not negative as it is. -/
theorem wrap_of_nonneg (v d : BitVec 32) (h : 0 ≤ v.toInt) :
    Scalar.select (IntOp.cmpi .slt v 0#32) (IntOp.addi v d) v = v := by
  have hc : ¬ IntOp.cmpi .slt v 0#32 = 1#1 := by
    rw [IntOp.cmpi_slt, BitVec.toInt_zero]; omega
  rw [eq_zero_of_ne_one hc, select_zero]

/-- The bounds test holds of a word whose signed value lies between zero and the bound. -/
theorem inRange_of_toInt (v c : BitVec 32) (n k : ℕ) (hv : v.toInt = (n : ℤ)) (hc : c.toInt = (k : ℤ)) (hn : n ≤ k) :
    IntOp.andi (IntOp.cmpi .sge v 0#32) (IntOp.cmpi .sle v c) = 1#1 := by
  rw [IntOp.andi_eq_one, IntOp.cmpi_sge, IntOp.cmpi_sle, BitVec.toInt_zero, hv, hc]
  constructor <;> omega

/-- The clamp of a word whose signed value is a row number is that row. -/
theorem clampRow_of_toInt {N : ℕ} (hN : 0 < N) (v : BitVec 32) (k : Fin N) (hv : v.toInt = (k.val : ℤ)) :
    clampRow N hN v = k := by
  apply Fin.ext
  show min v.toInt.toNat (N - 1) = k.val
  rw [hv, Int.toNat_natCast]
  have := k.isLt
  omega

end Cert.ReferenceIdeal.RefValue

end
-- ==== Proof.RefRead.lean ====
/-
  The reference encoder's composed term read at an index.

  Under the hypothesis that every instrument word is a row number of the instrument table and every style word a row
  number of the style table, the index wrap is the identity, the bounds test holds everywhere, the row lookups read
  the named rows, the sum over the twenty instruments is a finite sum, each scalar map is a product with one term
  plus a bias, the concatenation reads the piece its column falls in, and the final product is a sum over the 384
  combined coordinates: the term at `(b, h)` is the encoder's formula `Spec.R`.
-/
import proofs.«161131_g50268297232385_cont_8to1c4_788_18_alg».proof.Proof.RefTerm
import proofs.«161131_g50268297232385_cont_8to1c4_788_18_alg».proof.Proof.RefReadLemmas
import proofs.«161131_g50268297232385_cont_8to1c4_788_18_alg».proof.Proof.Spec

noncomputable section

namespace Cert.ReferenceIdeal.RefValue

open Cert.ReferenceIdeal Cert.ReferenceIdeal.Gen Idealize.ShloMosaic Idealize.ShloMosaic.ValueIdx Cert.LibGatherRows

/-! ## The instrument lookup -/

section Instruments
variable (a0 : S16384x20.Idx → BitVec 32) (id : Fin 16384 → Fin 20 → Fin 100)
  (hid : ∀ b l, (a0 (ix2 b l)).toInt = ((id b l).val : ℤ))
include hid

theorem idWrap_apply (b : Fin 16384) (l : Fin 20) : idWrap a0 (ix2 b l) = a0 (ix2 b l) :=
  wrap_of_nonneg (a0 (ix2 b l)) 100#32 (by rw [hid]; omega)

theorem idStart_apply (b : Fin 16384) (l : Fin 20) : idStart a0 (ix3 b l (0 : Fin 1)) = a0 (ix2 b l) := by
  unfold idStart
  rw [broadcastInDim_apply _ _ _ _ (ix2 b l) (fun a => match a with | ⟨0, _⟩ => rfl | ⟨1, _⟩ => rfl)]
  exact idWrap_apply a0 id hid b l

theorem idOk_apply (j : S16384x20.Idx) : idOk a0 j = 1#1 := by
  unfold idOk
  refine reduce_andi_of_forall _ _ _ _ j rfl fun i => ?_
  obtain ⟨b, l, u, rfl⟩ : ∃ (b : Fin 16384) (l : Fin 20) (u : Fin 1), i = ix3 b l u := ⟨i 0, i 1, i 2, eq_ix3 i⟩
  obtain rfl : u = 0 := Subsingleton.elim _ _
  show IntOp.andi (IntOp.cmpi .sge (idStart a0 (ix3 b l 0)) 0#32) (IntOp.cmpi .sle (idStart a0 (ix3 b l 0)) 99#32) = 1#1
  rw [idStart_apply a0 id hid]
  exact inRange_of_toInt _ _ (id b l).val 99 (hid b l) (by decide) (by have := (id b l).isLt; omega)

theorem instRows_apply (a5 : S100x64.Idx → EReal) (b : Fin 16384) (l : Fin 20) (d : Fin 64) :
    instRows a5 a0 (ix3 b l d) = a5 (ix2 (id b l) d) := by
  unfold instRows
  rw [select_apply, broadcastInDim_apply _ _ _ _ (ix2 b l) (fun a => match a with | ⟨0, _⟩ => rfl | ⟨1, _⟩ => rfl),
    idOk_apply a0 id hid, select_one]
  refine (gather_rows3_apply (N := 100) (D := 64) (A := 16384) (B := 20) (by decide)
    gather_S100x64_S16384x20x1_S16384x20x64_2_0_n_n_0_2_164_wf a5 (idStart a0) b l d).trans ?_
  rw [idStart_apply a0 id hid, clampRow_of_toInt _ _ (id b l) (hid b l)]

theorem instSum_apply (a5 : S100x64.Idx → EReal) (b : Fin 16384) (d : Fin 64) :
    instSum a5 a0 (ix2 b d) = ∑ l : Fin 20, a5 (ix2 (id b l) d) := by
  unfold instSum
  have hR : S16384x20x64.Reduces [1] S16384x64 := by decide
  rw [hostReduceAdd_apply, Ideal.hostReduceAdd_single _ hR, constant_apply, Ideal.ofBits_zero_f32, zero_add]
  show (∑ l : Fin 20, instRows a5 a0 (hR.lift (ix2 b d) l)) = _
  refine Finset.sum_congr rfl fun l _ => ?_
  have hl : hR.lift (ix2 b d) l = ix3 b l d := by
    funext a; refine Fin.ext ?_
    match a with
    | ⟨0, _⟩ => rfl
    | ⟨1, _⟩ => rfl
    | ⟨2, _⟩ => rfl
  rw [hl]
  exact instRows_apply a0 id hid a5 b l d

end Instruments

/-! ## The style lookup -/

section Style
variable (a1 : S16384.Idx → BitVec 32) (st : Fin 16384 → Fin 50)
  (hst : ∀ b, (a1 (ix1 b)).toInt = ((st b).val : ℤ))
include hst

theorem stWrap_apply (b : Fin 16384) : stWrap a1 (ix1 b) = a1 (ix1 b) :=
  wrap_of_nonneg (a1 (ix1 b)) 50#32 (by rw [hst]; omega)

theorem stStart_apply (b : Fin 16384) : stStart a1 (ix2 b (0 : Fin 1)) = a1 (ix1 b) := by
  unfold stStart
  rw [broadcastInDim_apply _ _ _ _ (ix1 b) (fun a => match a with | ⟨0, _⟩ => rfl)]
  exact stWrap_apply a1 st hst b

theorem stOk_apply (j : S16384.Idx) : stOk a1 j = 1#1 := by
  unfold stOk
  refine reduce_andi_of_forall _ _ _ _ j rfl fun i => ?_
  obtain ⟨b, u, rfl⟩ : ∃ (b : Fin 16384) (u : Fin 1), i = ix2 b u := ⟨i 0, i 1, eq_ix2 i⟩
  obtain rfl : u = 0 := Subsingleton.elim _ _
  show IntOp.andi (IntOp.cmpi .sge (stStart a1 (ix2 b 0)) 0#32) (IntOp.cmpi .sle (stStart a1 (ix2 b 0)) 49#32) = 1#1
  rw [stStart_apply a1 st hst]
  exact inRange_of_toInt _ _ (st b).val 49 (hst b) (by decide) (by have := (st b).isLt; omega)

theorem styleRows_apply (a6 : S50x128.Idx → EReal) (b : Fin 16384) (d : Fin 128) :
    styleRows a6 a1 (ix2 b d) = a6 (ix2 (st b) d) := by
  unfold styleRows
  rw [select_apply, broadcastInDim_apply _ _ _ _ (ix1 b) (fun a => match a with | ⟨0, _⟩ => rfl),
    stOk_apply a1 st hst, select_one]
  refine (gather_rows2_apply (N := 50) (D := 128) (R := 16384) (by decide)
    gather_S50x128_S16384x1_S16384x128_1_0_n_n_0_1_1128_wf a6 (stStart a1) b d).trans ?_
  rw [stStart_apply a1 st hst, clampRow_of_toInt _ _ (st b) (hst b)]

end Style

/-! ## A scalar's affine map -/

theorem scalarMap_apply (x : S16384x1.Idx → EReal) (w : S64x1.Idx → EReal) (c : S64.Idx → EReal) (b : Fin 16384) (j : Fin 64) :
    scalarMap x w c (ix2 b j) = x (ix2 b (0 : Fin 1)) * w (ix2 j (0 : Fin 1)) + c (ix1 j) := by
  unfold scalarMap
  rw [addf_apply]
  refine congrArg₂ (· + ·) ?_ ?_
  · refine (plainDot_apply 16384 1 64 x _ b j).trans ?_
    rw [Fin.sum_univ_one, transpose_ix2_apply]
  · rw [broadcastInDim_apply _ _ _ _ (ix2 (0 : Fin 1) j) (fun a => match a with | ⟨0, _⟩ => rfl | ⟨1, _⟩ => rfl),
      broadcastInDim_apply _ _ _ _ (ix1 j) (fun a => match a with | ⟨0, _⟩ => rfl)]

/-! ## The five pieces side by side, and the whole term -/

section Whole
variable (a0 : S16384x20.Idx → BitVec 32) (a1 : S16384.Idx → BitVec 32) (a2 a3 a4 : S16384x1.Idx → EReal)
    (a5 : S100x64.Idx → EReal) (a6 : S50x128.Idx → EReal) (a7 : S64x1.Idx → EReal) (a8 : S64.Idx → EReal)
    (a9 : S64x1.Idx → EReal) (a10 : S64.Idx → EReal) (a11 : S64x1.Idx → EReal) (a12 : S64.Idx → EReal)
  (a13 : S768x384.Idx → EReal) (a14 : S768.Idx → EReal)
  (id : Fin 16384 → Fin 20 → Fin 100) (st : Fin 16384 → Fin 50)
    (hid : ∀ b l, (a0 (ix2 b l)).toInt = ((id b l).val : ℤ)) (hst : ∀ b, (a1 (ix1 b)).toInt = ((st b).val : ℤ))
include hid hst

/-- The combined row at column `j` is the piece the column falls in, read at the column's place within the piece. -/
theorem combined_apply (b : Fin 16384) (j : Fin 384) :
    combined a0 a1 a2 a3 a4 a5 a6 a7 a8 a9 a10 a11 a12 (ix2 b j) = Cert.Spec.comb (Cert.Spec.ofArrays id st a2 a3 a4 a5 a6 a7 a8 a9 a10 a11 a12 a13 a14) b j := by
  unfold combined sideBySide Cert.Spec.comb
  have hj := j.isLt
  by_cases h1 : j.val < 64
  · rw [dif_pos h1]
    exact (concatenate_apply_piece (1 : Fin 2) _ _ (ix2 b j) 0 (by show (0 : ℕ) < 5; omega) S16384x64 _ rfl rfl 0 rfl (ix2 b ⟨j.val, h1⟩)
      (fun a ha => match a, ha with | ⟨0, _⟩, _ => rfl | ⟨1, _⟩, ha => absurd rfl ha) (Nat.zero_add _)).trans
      (instSum_apply a0 id hid a5 b ⟨j.val, h1⟩)
  rw [dif_neg h1]
  by_cases h2 : j.val < 192
  · rw [dif_pos h2]
    exact (concatenate_apply_piece (1 : Fin 2) _ _ (ix2 b j) 1 (by show (1 : ℕ) < 5; omega) S16384x128 _ rfl rfl 64 rfl (ix2 b ⟨j.val - 64, by omega⟩)
      (fun a ha => match a, ha with | ⟨0, _⟩, _ => rfl | ⟨1, _⟩, ha => absurd rfl ha) (by show 64 + (j.val - 64) = j.val; omega)).trans
      (styleRows_apply a1 st hst a6 b ⟨j.val - 64, by omega⟩)
  rw [dif_neg h2]
  by_cases h3 : j.val < 256
  · rw [dif_pos h3]
    exact (concatenate_apply_piece (1 : Fin 2) _ _ (ix2 b j) 2 (by show (2 : ℕ) < 5; omega) S16384x64 _ rfl rfl 192 rfl (ix2 b ⟨j.val - 192, by omega⟩)
      (fun a ha => match a, ha with | ⟨0, _⟩, _ => rfl | ⟨1, _⟩, ha => absurd rfl ha) (by show 192 + (j.val - 192) = j.val; omega)).trans
      (scalarMap_apply a2 a7 a8 b ⟨j.val - 192, by omega⟩)
  rw [dif_neg h3]
  by_cases h4 : j.val < 320
  · rw [dif_pos h4]
    exact (concatenate_apply_piece (1 : Fin 2) _ _ (ix2 b j) 3 (by show (3 : ℕ) < 5; omega) S16384x64 _ rfl rfl 256 rfl (ix2 b ⟨j.val - 256, by omega⟩)
      (fun a ha => match a, ha with | ⟨0, _⟩, _ => rfl | ⟨1, _⟩, ha => absurd rfl ha) (by show 256 + (j.val - 256) = j.val; omega)).trans
      (scalarMap_apply a3 a9 a10 b ⟨j.val - 256, by omega⟩)
  rw [dif_neg h4]
  exact (concatenate_apply_piece (1 : Fin 2) _ _ (ix2 b j) 4 (by show (4 : ℕ) < 5; omega) S16384x64 _ rfl rfl 320 rfl (ix2 b ⟨j.val - 320, by omega⟩)
      (fun a ha => match a, ha with | ⟨0, _⟩, _ => rfl | ⟨1, _⟩, ha => absurd rfl ha) (by show 320 + (j.val - 320) = j.val; omega)).trans
    (scalarMap_apply a4 a11 a12 b ⟨j.val - 320, by omega⟩)

/-- The composed term at `(b, h)` is the encoder's formula: the combined row times row `h` of the projection, plus the
    output bias at `h`. -/
theorem refTerm_apply (b : Fin 16384) (h : Fin 768) :
    refTerm a0 a1 a2 a3 a4 a5 a6 a7 a8 a9 a10 a11 a12 a13 a14 (ix2 b h) = Cert.Spec.R (Cert.Spec.ofArrays id st a2 a3 a4 a5 a6 a7 a8 a9 a10 a11 a12 a13 a14) b h := by
  unfold refTerm Cert.Spec.R
  rw [addf_apply]
  refine congrArg₂ (· + ·) ?_ ?_
  · refine (plainDot_apply 16384 384 768 _ _ b h).trans (Finset.sum_congr rfl fun j _ => ?_)
    rw [transpose_ix2_apply, combined_apply a0 a1 a2 a3 a4 a5 a6 a7 a8 a9 a10 a11 a12 a13 a14 id st hid hst b j]
    rfl
  · rw [broadcastInDim_apply _ _ _ _ (ix2 (0 : Fin 1) h) (fun a => match a with | ⟨0, _⟩ => rfl | ⟨1, _⟩ => rfl),
      broadcastInDim_apply _ _ _ _ (ix1 h) (fun a => match a with | ⟨0, _⟩ => rfl)]
    rfl

end Whole

end Cert.ReferenceIdeal.RefValue

end
-- ==== Proof.lean ====
/-
  Kernel and reference of the musical-attributes encoder compute one function.

  The encoder sums twenty instrument embeddings per batch row, looks up a style embedding, maps three scalars
  through rank-one affine maps, lays the pieces side by side and applies one affine map into 768 coordinates. The
  kernel computes the same by linearity: per batch row a sparse row of instrument counts, a style indicator, the
  three scalars and a constant one, against a table folded once from the embeddings and weights. On finite inputs
  whose ids lie inside their tables the two agree entry by entry over the extended reals.

  Frames: the two kernel programs by their generated frame runs; the reference by its run, the result forgotten.
  The idealization rewrote nothing, so there is nothing to preserve. The value claim puts the kernel's run (its
  result array is the encoder's output, module KFinal) beside the reference's run (its result term read at an
  index is the encoder's output, module RefRead), on arguments that agree.
-/
import proofs.«161131_g50268297232385_cont_8to1c4_788_18_alg».proof.Defs
import proofs.«161131_g50268297232385_cont_8to1c4_788_18_alg».proof.Proof.Gen.Kernel
import proofs.«161131_g50268297232385_cont_8to1c4_788_18_alg».proof.Proof.Gen.Kernel.Skeleton
import proofs.«161131_g50268297232385_cont_8to1c4_788_18_alg».proof.Proof.Gen.Kernel.Launch
import proofs.«161131_g50268297232385_cont_8to1c4_788_18_alg».proof.Proof.Gen.Kernel.Points
import proofs.«161131_g50268297232385_cont_8to1c4_788_18_alg».proof.Proof.Gen.Kernel.Frame
import proofs.«161131_g50268297232385_cont_8to1c4_788_18_alg».proof.Proof.Gen.KernelIdeal
import proofs.«161131_g50268297232385_cont_8to1c4_788_18_alg».proof.Proof.Gen.KernelIdeal.Skeleton
import proofs.«161131_g50268297232385_cont_8to1c4_788_18_alg».proof.Proof.Gen.KernelIdeal.Launch
import proofs.«161131_g50268297232385_cont_8to1c4_788_18_alg».proof.Proof.Gen.KernelIdeal.Points
import proofs.«161131_g50268297232385_cont_8to1c4_788_18_alg».proof.Proof.Gen.KernelIdeal.Frame
import proofs.«161131_g50268297232385_cont_8to1c4_788_18_alg».proof.Proof.Gen.KernelIdeal.Value
import proofs.«161131_g50268297232385_cont_8to1c4_788_18_alg».proof.Proof.Gen.ReferenceIdeal
import proofs.«161131_g50268297232385_cont_8to1c4_788_18_alg».proof.Proof.Gen.Pre_finite_inputs
import proofs.«161131_g50268297232385_cont_8to1c4_788_18_alg».proof.Proof.KFinal
import proofs.«161131_g50268297232385_cont_8to1c4_788_18_alg».proof.Proof.RefRun
import proofs.«161131_g50268297232385_cont_8to1c4_788_18_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with the encoder's output: the kernel's by `kernel_array`, the reference's by reading its result
    term at each index, on the ids and the finiteness the precondition gives. -/
theorem algebraic : Cert.algebraic_KernelIdeal_ReferenceIdeal := by
  intro m ρ m' ρ' hpre hagree
  choose id st hid hst hfin using fun c => Cert.KernelIdeal.PreValue.decode m hpre c
  refine ⟨fun c => Cert.Spec.G (Cert.KernelIdeal.HostValue.D m c (id c) (st c)), ?_, ?_⟩
  · exact (θ_run Cert.KernelIdeal.defs _ _).mono
      (fun r h c => ⟨(h c).1.trans (Cert.KernelIdeal.Body.kernel_array m c (id c) (st c) (hid c) (hst c) (hfin c)), (h c).2⟩)
      (Cert.KernelIdeal.Value.run_blocks m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9, e10, e11, e12, e13, e14⟩ := hagree c
    rw [e0, e1, e2, e3, e4, e5, e6, e7, e8, e9, e10, e11, e12, e13, e14]
    funext i
    obtain ⟨b, h, rfl⟩ : ∃ (b : Fin 16384) (h : Fin 768), i = ix2 b h := ⟨i 0, i 1, eq_ix2 i⟩
    rw [Cert.ReferenceIdeal.RefValue.refTerm_apply _ _ _ _ _ _ _ _ _ _ _ _ _ _ _ (id c) (st c) (hid c) (hst c) b h]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
